-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x200x512 : Shape := ⟨4, ![4, 128, 200, 512]⟩
abbrev S4x512x512 : Shape := ⟨3, ![4, 512, 512]⟩
abbrev S4x512 : Shape := ⟨2, ![4, 512]⟩
abbrev S100002x512 : Shape := ⟨2, ![100002, 512]⟩
abbrev S512 : Shape := ⟨1, ![512]⟩
abbrev S128x4x200 : Shape := ⟨3, ![128, 4, 200]⟩
abbrev S_ : Shape := ⟨0, ![]⟩

class Facts : Prop where
  bcast_S_S4x128x200x512 : S_.BroadcastsInDim S4x128x200x512 (![] : Fin 0 → Fin S4x128x200x512.rank)
  reducesTo_S4x128x200x512_S_d0_1_2_3 : S4x128x200x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S100002x512 : S_.BroadcastsInDim S100002x512 (![] : Fin 0 → Fin S100002x512.rank)
  reducesTo_S100002x512_S_d0_1 : S100002x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S100002x512 1) : IVec S_ 1 :=
  let main_c_5 : IVec S_ 1 := constantI S_ 1 1#1
  let main_v17 : IVec S_ 1 := (fun x v => Host.reduce IntOp.andi x v reducesTo_S100002x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x128x200x512 .f32) (main_arg1 : FVec F S4x512x512 .f32) (main_arg2 : FVec F S4x512 .f32) (main_arg3 : FVec F S100002x512 .f32) (main_arg4 : FVec F S512 .f32) (main_arg5 : FVec F S512 .f32) (main_arg6 : IVec S128x4x200 32) (main_arg7 : IVec S128x4x200 32) (main_arg8 : IVec S128x4x200 32) : IVec S_ 1 :=
  let main_v0 : FVec F S4x128x200x512 .f32 := Host.absf main_arg0
  let main_cst : FVec F S_ .f32 := constant S_ .f32 0x7F800000#32
  let main_v1 : FVec F S4x128x200x512 .f32 := broadcastInDim S4x128x200x512 ![] bcast_S_S4x128x200x512 main_cst
  let main_v2 : IVec S4x128x200x512 1 := cmpf .olt main_v0 main_v1
  let main_c : IVec S_ 1 := constantI S_ 1 1#1
  let main_v3 : IVec S_ 1 := (fun x v => Host.reduce IntOp.andi x v reducesTo_S4x128x200x512_S_d0_1_2_3 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S100002x512 .f32 := Host.absf main_arg3
  let main_cst_4 : FVec F S_ .f32 := constant S_ .f32 0x7F800000#32
  let main_v15 : FVec F S100002x512 .f32 := broadcastInDim S100002x512 ![] bcast_S_S100002x512 main_cst_4
  let main_v16 : IVec S100002x512 1 := cmpf .olt main_v14 main_v15
  fn_part1 (F := F) main_arg4 main_arg5 main_v13 main_v16
-- ==== Kernel.lean ====
abbrev S4x128x200x512 : Shape := ⟨4, ![4, 128, 200, 512]⟩
abbrev S4x512x512 : Shape := ⟨3, ![4, 512, 512]⟩
abbrev S4x512 : Shape := ⟨2, ![4, 512]⟩
abbrev S100002x512 : Shape := ⟨2, ![100002, 512]⟩
abbrev S512 : Shape := ⟨1, ![512]⟩
abbrev S128x4x200 : Shape := ⟨3, ![128, 4, 200]⟩
abbrev S4x25600x512 : Shape := ⟨3, ![4, 25600, 512]⟩
abbrev S4x128x200 : Shape := ⟨3, ![4, 128, 200]⟩
abbrev S4x25600 : Shape := ⟨2, ![4, 25600]⟩
abbrev S_ : Shape := ⟨0, ![]⟩
abbrev S4x25600x1 : Shape := ⟨3, ![4, 25600, 1]⟩
abbrev S4 : Shape := ⟨1, ![4]⟩
abbrev S1x4x1 : Shape := ⟨3, ![1, 4, 1]⟩
abbrev S4x1x25600 : Shape := ⟨3, ![4, 1, 25600]⟩
abbrev S4x4x25600 : Shape := ⟨3, ![4, 4, 25600]⟩
abbrev S4x256x512 : Shape := ⟨3, ![4, 256, 512]⟩
abbrev S4x4x256 : Shape := ⟨3, ![4, 4, 256]⟩
abbrev S4x256 : Shape := ⟨2, ![4, 256]⟩
abbrev S1x256x512 : Shape := ⟨3, ![1, 256, 512]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S1x1x256 : Shape := ⟨3, ![1, 1, 256]⟩
abbrev S256 : Shape := ⟨1, ![256]⟩
abbrev S256x1 : Shape := ⟨2, ![256, 1]⟩
abbrev S1x256 : Shape := ⟨2, ![1, 256]⟩

abbrev nBuf : Space → Nat
  | .hbm => 55
  | .vmem => 18
  | .smem => 0
  | _ => 0

abbrev bufTy : (tb : Table) → Fin (tcTables nBuf tb) → BufTy
  | .hbm, ⟨0, _⟩ => ⟨S4x128x200x512, .f32⟩
  | .hbm, ⟨1, _⟩ => ⟨S4x512x512, .f32⟩
  | .hbm, ⟨2, _⟩ => ⟨S4x512, .f32⟩
  | .hbm, ⟨3, _⟩ => ⟨S100002x512, .f32⟩
  | .hbm, ⟨4, _⟩ => ⟨S512, .f32⟩
  | .hbm, ⟨5, _⟩ => ⟨S512, .f32⟩
  | .hbm, ⟨6, _⟩ => ⟨S128x4x200, .i32⟩
  | .hbm, ⟨7, _⟩ => ⟨S128x4x200, .i32⟩
  | .hbm, ⟨8, _⟩ => ⟨S128x4x200, .i32⟩
  | .hbm, ⟨9, _⟩ => ⟨S4x25600x512, .f32⟩
  | .hbm, ⟨10, _⟩ => ⟨S4x25600x512, .bf16⟩
  | .hbm, ⟨11, _⟩ => ⟨S4x128x200, .i32⟩
  | .hbm, ⟨12, _⟩ => ⟨S4x25600, .i32⟩
  | .hbm, ⟨13, _⟩ => ⟨S4x128x200, .i32⟩
  | .hbm, ⟨14, _⟩ => ⟨S4x25600, .i32⟩
  | .hbm, ⟨15, _⟩ => ⟨S4x128x200, .i32⟩
  | .hbm, ⟨16, _⟩ => ⟨S4x25600, .i32⟩
  | .hbm, ⟨17, _⟩ => ⟨S_, .i32⟩
  | .hbm, ⟨18, _⟩ => ⟨S4x25600, .i32⟩
  | .hbm, ⟨19, _⟩ => ⟨S4x25600, .i1⟩
  | .hbm, ⟨20, _⟩ => ⟨S_, .i32⟩
  | .hbm, ⟨21, _⟩ => ⟨S4x25600, .i32⟩
  | .hbm, ⟨22, _⟩ => ⟨S4x25600, .i32⟩
  | .hbm, ⟨23, _⟩ => ⟨S4x25600, .i32⟩
  | .hbm, ⟨24, _⟩ => ⟨S4x25600x1, .i32⟩
  | .hbm, ⟨25, _⟩ => ⟨S4x25600x512, .f32⟩
  | .hbm, ⟨26, _⟩ => ⟨S4x25600x512, .bf16⟩
  | .hbm, ⟨27, _⟩ => ⟨S_, .i32⟩
  | .hbm, ⟨28, _⟩ => ⟨S4x25600, .i32⟩
  | .hbm, ⟨29, _⟩ => ⟨S4x25600, .i1⟩
  | .hbm, ⟨30, _⟩ => ⟨S_, .i32⟩
  | .hbm, ⟨31, _⟩ => ⟨S4x25600, .i32⟩
  | .hbm, ⟨32, _⟩ => ⟨S4x25600, .i32⟩
  | .hbm, ⟨33, _⟩ => ⟨S4x25600, .i32⟩
  | .hbm, ⟨34, _⟩ => ⟨S4x25600x1, .i32⟩
  | .hbm, ⟨35, _⟩ => ⟨S4x25600x512, .f32⟩
  | .hbm, ⟨36, _⟩ => ⟨S4x25600x512, .bf16⟩
  | .hbm, ⟨37, _⟩ => ⟨S4, .i32⟩
  | .hbm, ⟨38, _⟩ => ⟨S1x4x1, .i32⟩
  | .hbm, ⟨39, _⟩ => ⟨S_, .i32⟩
  | .hbm, ⟨40, _⟩ => ⟨S1x4x1, .i32⟩
  | .hbm, ⟨41, _⟩ => ⟨S1x4x1, .i32⟩
  | .hbm, ⟨42, _⟩ => ⟨S4x1x25600, .i32⟩
  | .hbm, ⟨43, _⟩ => ⟨S4x4x25600, .i32⟩
  | .hbm, ⟨44, _⟩ => ⟨S4x4x25600, .i32⟩
  | .hbm, ⟨45, _⟩ => ⟨S4x4x25600, .i1⟩
  | .hbm, ⟨46, _⟩ => ⟨S4x4x25600, .f32⟩
  | .hbm, ⟨47, _⟩ => ⟨S4x512x512, .f32⟩
  | .hbm, ⟨48, _⟩ => ⟨S4x512x512, .bf16⟩
  | .hbm, ⟨49, _⟩ => ⟨S4x25600x512, .f32⟩
  | .hbm, ⟨50, _⟩ => ⟨S4x25600, .f32⟩
  | .hbm, ⟨51, _⟩ => ⟨S4x25600, .f32⟩
  | .hbm, ⟨52, _⟩ => ⟨S4x128x200x512, .f32⟩
  | .hbm, ⟨53, _⟩ => ⟨S4x128x200, .f32⟩
  | .hbm, ⟨54, _⟩ => ⟨S4x128x200, .f32⟩
  | .local _ .vmem, ⟨0, _⟩ => ⟨S4x256x512, .bf16⟩
  | .local _ .vmem, ⟨1, _⟩ => ⟨S4x256x512, .bf16⟩
  | .local _ .vmem, ⟨2, _⟩ => ⟨S4x4x256, .f32⟩
  | .local _ .vmem, ⟨3, _⟩ => ⟨S4x4x256, .f32⟩
  | .local _ .vmem, ⟨4, _⟩ => ⟨S4x256x512, .bf16⟩
  | .local _ .vmem, ⟨5, _⟩ => ⟨S4x256x512, .bf16⟩
  | .local _ .vmem, ⟨6, _⟩ => ⟨S4x256x512, .bf16⟩
  | .local _ .vmem, ⟨7, _⟩ => ⟨S4x256x512, .bf16⟩
  | .local _ .vmem, ⟨8, _⟩ => ⟨S4x512x512, .bf16⟩
  | .local _ .vmem, ⟨9, _⟩ => ⟨S4x512, .f32⟩
  | .local _ .vmem, ⟨10, _⟩ => ⟨S512, .f32⟩
  | .local _ .vmem, ⟨11, _⟩ => ⟨S512, .f32⟩
  | .local _ .vmem, ⟨12, _⟩ => ⟨S4x256x512, .f32⟩
  | .local _ .vmem, ⟨13, _⟩ => ⟨S4x256x512, .f32⟩
  | .local _ .vmem, ⟨14, _⟩ => ⟨S4x256, .f32⟩
  | .local _ .vmem, ⟨15, _⟩ => ⟨S4x256, .f32⟩
  | .local _ .vmem, ⟨16, _⟩ => ⟨S4x256, .f32⟩
  | .local _ .vmem, ⟨17, _⟩ => ⟨S4x256, .f32⟩
  | _, _ => ⟨S4x128x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S4x128x200x512_S4x25600x512 : S4x128x200x512.ShapeCasts S4x25600x512
  bitsLt_bf16_f32 : FTy.bits .bf16 < FTy.bits .f32
  transposes_S128x4x200_S4x128x200_1_0_2 : S128x4x200.Transposes [1, 0, 2] S4x128x200
  shapeCasts_S4x128x200_S4x25600 : S4x128x200.ShapeCasts S4x25600
  bcast_S_S4x25600 : S_.BroadcastsInDim S4x25600 (![] : Fin 0 → Fin S4x25600.rank)
  bcast_S4x25600_S4x25600x1_0_1 : S4x25600.BroadcastsInDim S4x25600x1 (![0, 1] : Fin 2 → Fin S4x25600x1.rank)
  bcast_S4_S1x4x1_1 : S4.BroadcastsInDim S1x4x1 (![1] : Fin 1 → Fin S1x4x1.rank)
  bcast_S_S1x4x1 : S_.BroadcastsInDim S1x4x1 (![] : Fin 0 → Fin S1x4x1.rank)
  bcast_S4x25600_S4x1x25600_0_2 : S4x25600.BroadcastsInDim S4x1x25600 (![0, 2] : Fin 2 → Fin S4x1x25600.rank)
  bcast_S4x1x25600_S4x4x25600_0_1_2 : S4x1x25600.BroadcastsInDim S4x4x25600 (![0, 1, 2] : Fin 3 → Fin S4x4x25600.rank)
  bcast_S1x4x1_S4x4x25600_0_1_2 : S1x4x1.BroadcastsInDim S4x4x25600 (![0, 1, 2] : Fin 3 → Fin S4x4x25600.rank)
  transposes_S4x512x512_S4x512x512_0_2_1 : S4x512x512.Transposes [0, 2, 1] S4x512x512
  inb_S512_S512_0 : ∀ a, (![0] : Fin 1 → Nat) a + S512.size a ≤ S512.size a
  h_S512 : 0 < S512.numel
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S256x512 : S1x512.Broadcasts S256x512
  inb_S4x4x256_S1x1x256_0_0_0 : ∀ a, (![0, 0, 0] : Fin 3 → Nat) a + S1x1x256.size a ≤ S4x4x256.size a
  h_S1x1x256 : 0 < S1x1x256.numel
  shapeCasts_S1x1x256_S256 : S1x1x256.ShapeCasts S256
  shapeCasts_S256_S256x1 : S256.ShapeCasts S256x1
  broadcasts_S256x1_S256x512 : S256x1.Broadcasts S256x512
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S4x4x256_S1x1x256_0_1_0 : ∀ a, (![0, 1, 0] : Fin 3 → Nat) a + S1x1x256.size a ≤ S4x4x256.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x4x256_S1x1x256_0_2_0 : ∀ a, (![0, 2, 0] : Fin 3 → Nat) a + S1x1x256.size a ≤ S4x4x256.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  inb_S4x4x256_S1x1x256_0_3_0 : ∀ a, (![0, 3, 0] : Fin 3 → Nat) a + S1x1x256.size a ≤ S4x4x256.size a
  reduces_S256x512_S256 : S256x512.Reduces [1] S256
  shapeCasts_S256x512_S1x256x512 : S256x512.ShapeCasts S1x256x512
  inb_S4x256_S1x256_0_0 : ∀ a, (![0, 0] : Fin 2 → Nat) a + S1x256.size a ≤ S4x256.size a
  h_S1x256 : 0 < S1x256.numel
  shapeCasts_S1x256_S256 : S1x256.ShapeCasts S256
  shapeCasts_S256_S1x256 : S256.ShapeCasts S1x256
  inb_S4x256x512_S1x256x512_1_0_0 : ∀ a, (![1, 0, 0] : Fin 3 → Nat) a + S1x256x512.size a ≤ S4x256x512.size a
  inb_S4x4x256_S1x1x256_1_0_0 : ∀ a, (![1, 0, 0] : Fin 3 → Nat) a + S1x1x256.size a ≤ S4x4x256.size a
  inb_S4x4x256_S1x1x256_1_1_0 : ∀ a, (![1, 1, 0] : Fin 3 → Nat) a + S1x1x256.size a ≤ S4x4x256.size a
  inb_S4x4x256_S1x1x256_1_2_0 : ∀ a, (![1, 2, 0] : Fin 3 → Nat) a + S1x1x256.size a ≤ S4x4x256.size a
  inb_S4x4x256_S1x1x256_1_3_0 : ∀ a, (![1, 3, 0] : Fin 3 → Nat) a + S1x1x256.size a ≤ S4x4x256.size a
  inb_S4x256_S1x256_1_0 : ∀ a, (![1, 0] : Fin 2 → Nat) a + S1x256.size a ≤ S4x256.size a
  inb_S4x256x512_S1x256x512_2_0_0 : ∀ a, (![2, 0, 0] : Fin 3 → Nat) a + S1x256x512.size a ≤ S4x256x512.size a
  inb_S4x4x256_S1x1x256_2_0_0 : ∀ a, (![2, 0, 0] : Fin 3 → Nat) a + S1x1x256.size a ≤ S4x4x256.size a
  inb_S4x4x256_S1x1x256_2_1_0 : ∀ a, (![2, 1, 0] : Fin 3 → Nat) a + S1x1x256.size a ≤ S4x4x256.size a
  inb_S4x4x256_S1x1x256_2_2_0 : ∀ a, (![2, 2, 0] : Fin 3 → Nat) a + S1x1x256.size a ≤ S4x4x256.size a
  inb_S4x4x256_S1x1x256_2_3_0 : ∀ a, (![2, 3, 0] : Fin 3 → Nat) a + S1x1x256.size a ≤ S4x4x256.size a
  inb_S4x256_S1x256_2_0 : ∀ a, (![2, 0] : Fin 2 → Nat) a + S1x256.size a ≤ S4x256.size a
  inb_S4x256x512_S1x256x512_3_0_0 : ∀ a, (![3, 0, 0] : Fin 3 → Nat) a + S1x256x512.size a ≤ S4x256x512.size a
  inb_S4x4x256_S1x1x256_3_0_0 : ∀ a, (![3, 0, 0] : Fin 3 → Nat) a + S1x1x256.size a ≤ S4x4x256.size a
  inb_S4x4x256_S1x1x256_3_1_0 : ∀ a, (![3, 1, 0] : Fin 3 → Nat) a + S1x1x256.size a ≤ S4x4x256.size a
  inb_S4x4x256_S1x1x256_3_2_0 : ∀ a, (![3, 2, 0] : Fin 3 → Nat) a + S1x1x256.size a ≤ S4x4x256.size a
  inb_S4x4x256_S1x1x256_3_3_0 : ∀ a, (![3, 3, 0] : Fin 3 → Nat) a + S1x1x256.size a ≤ S4x4x256.size a
  inb_S4x256_S1x256_3_0 : ∀ a, (![3, 0] : Fin 2 → Nat) a + S1x256.size a ≤ S4x256.size a
  shapeCasts_S4x25600x512_S4x128x200x512 : S4x25600x512.ShapeCasts S4x128x200x512
  shapeCasts_S4x25600_S4x128x200 : S4x25600.ShapeCasts S4x128x200
  gather_S100002x512_S4x25600x1_S4x25600x512_2_0_n_n_0_2_1512_wf : GatherDims.WF S100002x512 S4x25600x1 S4x25600x512 [2] [0] [] [0] [] 2 ![1, 512]
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x512.size a ≤ S4x25600x512.size a
  hwx0_0 : ∀ i : grid0.Coords, EltTy.bits .bf16 = 32 ∨ (Rect.block (s := S4x25600x512) S4x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x256.size a ≤ S4x4x25600.size a
  hwx0_1 : ∀ i : grid0.Coords, EltTy.bits .f32 = 32 ∨ (Rect.block (s := S4x4x25600) S4x4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x512.size a ≤ S4x25600x512.size a
  hwx0_2 : ∀ i : grid0.Coords, EltTy.bits .bf16 = 32 ∨ (Rect.block (s := S4x25600x512) S4x256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x512.size a ≤ S4x25600x512.size a
  hwx0_3 : ∀ i : grid0.Coords, EltTy.bits .bf16 = 32 ∨ (Rect.block (s := S4x25600x512) S4x256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S4x512x512.size a
  hwx0_4 : ∀ i : grid0.Coords, EltTy.bits .bf16 = 32 ∨ (Rect.block (s := S4x512x512) S4x512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x512.size a
  hwx0_5 : ∀ i : grid0.Coords, EltTy.bits .f32 = 32 ∨ (Rect.block (s := S4x512) S4x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x512.size a ≤ S4x25600x512.size a
  hwx0_8 : ∀ i : grid0.Coords, EltTy.bits .f32 = 32 ∨ (Rect.block (s := S4x25600x512) S4x256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4x256.size a ≤ S4x25600.size a
  hwx0_9 : ∀ i : grid0.Coords, EltTy.bits .f32 = 32 ∨ (Rect.block (s := S4x25600) S4x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x256.size a ≤ S4x25600.size a
  hwx0_10 : ∀ i : grid0.Coords, EltTy.bits .f32 = 32 ∨ (Rect.block (s := S4x25600) S4x256.size (cc0_transform_10 i) (hinb0_10 i)).WholeWords (EltTy.packing .f32)

variable [Facts₀]

def gather_S100002x512_S4x25600x1_S4x25600x512_2_0_n_n_0_2_1512 : GatherDims S100002x512 S4x25600x1 S4x25600x512 where
  offsetDims := [2]
  collapsedSliceDims := [0]
  operandBatchingDims := []
  startIndicesBatchingDims := []
  startIndexMap := [0]
  indexVectorDim := 2
  sliceSizes := ![1, 512]
  wf := gather_S100002x512_S4x25600x1_S4x25600x512_2_0_n_n_0_2_1512_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_v1) S4x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4x4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S4x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S4x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35_0) S4x256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v35_1) S4x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v35_2) S4x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x128x200x512 : Shape := ⟨4, ![4, 128, 200, 512]⟩
abbrev S4x512x512 : Shape := ⟨3, ![4, 512, 512]⟩
abbrev S4x512 : Shape := ⟨2, ![4, 512]⟩
abbrev S100002x512 : Shape := ⟨2, ![100002, 512]⟩
abbrev S512 : Shape := ⟨1, ![512]⟩
abbrev S128x4x200 : Shape := ⟨3, ![128, 4, 200]⟩
abbrev S4x512x4x128x200 : Shape := ⟨5, ![4, 512, 4, 128, 200]⟩
abbrev S4x4x128x200x512 : Shape := ⟨5, ![4, 4, 128, 200, 512]⟩
abbrev S1x4x1x1x512 : Shape := ⟨5, ![1, 4, 1, 1, 512]⟩
abbrev S4x128x200 : Shape := ⟨3, ![4, 128, 200]⟩
abbrev S4x1x128x200 : Shape := ⟨4, ![4, 1, 128, 200]⟩
abbrev S4 : Shape := ⟨1, ![4]⟩
abbrev S_ : Shape := ⟨0, ![]⟩
abbrev S1x4x1x1 : Shape := ⟨4, ![1, 4, 1, 1]⟩
abbrev S4x4x128x200 : Shape := ⟨4, ![4, 4, 128, 200]⟩
abbrev S4x4x128x200x1 : Shape := ⟨5, ![4, 4, 128, 200, 1]⟩
abbrev S4x128x200x1 : Shape := ⟨4, ![4, 128, 200, 1]⟩
abbrev S1x1x1x512 : Shape := ⟨4, ![1, 1, 1, 512]⟩
abbrev S128x4x200x1 : Shape := ⟨4, ![128, 4, 200, 1]⟩
abbrev S128x4x200x512 : Shape := ⟨4, ![128, 4, 200, 512]⟩

abbrev nBuf : Space → Nat
  | .hbm => 85
  | .vmem => 0
  | .smem => 0
  | _ => 0

abbrev bufTy : (tb : Table) → Fin (tcTables nBuf tb) → BufTy
  | .hbm, ⟨0, _⟩ => ⟨S4x128x200x512, .f32⟩
  | .hbm, ⟨1, _⟩ => ⟨S4x512x512, .f32⟩
  | .hbm, ⟨2, _⟩ => ⟨S4x512, .f32⟩
  | .hbm, ⟨3, _⟩ => ⟨S100002x512, .f32⟩
  | .hbm, ⟨4, _⟩ => ⟨S512, .f32⟩
  | .hbm, ⟨5, _⟩ => ⟨S512, .f32⟩
  | .hbm, ⟨6, _⟩ => ⟨S128x4x200, .i32⟩
  | .hbm, ⟨7, _⟩ => ⟨S128x4x200, .i32⟩
  | .hbm, ⟨8, _⟩ => ⟨S128x4x200, .i32⟩
  | .hbm, ⟨9, _⟩ => ⟨S4x512x4x128x200, .f32⟩
  | .hbm, ⟨10, _⟩ => ⟨S4x4x128x200x512, .f32⟩
  | .hbm, ⟨11, _⟩ => ⟨S1x4x1x1x512, .f32⟩
  | .hbm, ⟨12, _⟩ => ⟨S4x4x128x200x512, .f32⟩
  | .hbm, ⟨13, _⟩ => ⟨S4x4x128x200x512, .f32⟩
  | .hbm, ⟨14, _⟩ => ⟨S4x128x200, .i32⟩
  | .hbm, ⟨15, _⟩ => ⟨S4x1x128x200, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S1x4x1x1, .i32⟩
  | .hbm, ⟨21, _⟩ => ⟨S4x4x128x200, .i32⟩
  | .hbm, ⟨22, _⟩ => ⟨S4x4x128x200, .i32⟩
  | .hbm, ⟨23, _⟩ => ⟨S4x4x128x200, .i1⟩
  | .hbm, ⟨24, _⟩ => ⟨S4x4x128x200x1, .i1⟩
  | .hbm, ⟨25, _⟩ => ⟨S4x4x128x200x1, .f32⟩
  | .hbm, ⟨26, _⟩ => ⟨S4x4x128x200x512, .f32⟩
  | .hbm, ⟨27, _⟩ => ⟨S4x4x128x200x512, .f32⟩
  | .hbm, ⟨28, _⟩ => ⟨S_, .f32⟩
  | .hbm, ⟨29, _⟩ => ⟨S4x128x200x512, .f32⟩
  | .hbm, ⟨30, _⟩ => ⟨S_, .f32⟩
  | .hbm, ⟨31, _⟩ => ⟨S4x128x200, .f32⟩
  | .hbm, ⟨32, _⟩ => ⟨S4x128x200x1, .f32⟩
  | .hbm, ⟨33, _⟩ => ⟨S_, .f32⟩
  | .hbm, ⟨34, _⟩ => ⟨S4x128x200x1, .f32⟩
  | .hbm, ⟨35, _⟩ => ⟨S4x128x200x1, .f32⟩
  | .hbm, ⟨36, _⟩ => ⟨S4x128x200x512, .f32⟩
  | .hbm, ⟨37, _⟩ => ⟨S4x128x200x512, .f32⟩
  | .hbm, ⟨38, _⟩ => ⟨S4x128x200x512, .f32⟩
  | .hbm, ⟨39, _⟩ => ⟨S_, .f32⟩
  | .hbm, ⟨40, _⟩ => ⟨S4x128x200, .f32⟩
  | .hbm, ⟨41, _⟩ => ⟨S4x128x200x1, .f32⟩
  | .hbm, ⟨42, _⟩ => ⟨S_, .f32⟩
  | .hbm, ⟨43, _⟩ => ⟨S4x128x200x1, .f32⟩
  | .hbm, ⟨44, _⟩ => ⟨S4x128x200x1, .f32⟩
  | .hbm, ⟨45, _⟩ => ⟨S4x128x200x512, .f32⟩
  | .hbm, ⟨46, _⟩ => ⟨S4x128x200x512, .f32⟩
  | .hbm, ⟨47, _⟩ => ⟨S_, .f32⟩
  | .hbm, ⟨48, _⟩ => ⟨S4x128x200x1, .f32⟩
  | .hbm, ⟨49, _⟩ => ⟨S4x128x200x1, .f32⟩
  | .hbm, ⟨50, _⟩ => ⟨S4x128x200x1, .f32⟩
  | .hbm, ⟨51, _⟩ => ⟨S4x128x200x512, .f32⟩
  | .hbm, ⟨52, _⟩ => ⟨S4x128x200x512, .f32⟩
  | .hbm, ⟨53, _⟩ => ⟨S1x1x1x512, .f32⟩
  | .hbm, ⟨54, _⟩ => ⟨S4x128x200x512, .f32⟩
  | .hbm, ⟨55, _⟩ => ⟨S4x128x200x512, .f32⟩
  | .hbm, ⟨56, _⟩ => ⟨S1x1x1x512, .f32⟩
  | .hbm, ⟨57, _⟩ => ⟨S4x128x200x512, .f32⟩
  | .hbm, ⟨58, _⟩ => ⟨S4x128x200x512, .f32⟩
  | .hbm, ⟨59, _⟩ => ⟨S_, .i32⟩
  | .hbm, ⟨60, _⟩ => ⟨S128x4x200, .i32⟩
  | .hbm, ⟨61, _⟩ => ⟨S128x4x200, .i1⟩
  | .hbm, ⟨62, _⟩ => ⟨S_, .i32⟩
  | .hbm, ⟨63, _⟩ => ⟨S128x4x200, .i32⟩
  | .hbm, ⟨64, _⟩ => ⟨S128x4x200, .i32⟩
  | .hbm, ⟨65, _⟩ => ⟨S128x4x200, .i32⟩
  | .hbm, ⟨66, _⟩ => ⟨S128x4x200x1, .i32⟩
  | .hbm, ⟨67, _⟩ => ⟨S128x4x200x512, .f32⟩
  | .hbm, ⟨68, _⟩ => ⟨S4x128x200x512, .f32⟩
  | .hbm, ⟨69, _⟩ => ⟨S_, .i32⟩
  | .hbm, ⟨70, _⟩ => ⟨S128x4x200, .i32⟩
  | .hbm, ⟨71, _⟩ => ⟨S128x4x200, .i1⟩
  | .hbm, ⟨72, _⟩ => ⟨S_, .i32⟩
  | .hbm, ⟨73, _⟩ => ⟨S128x4x200, .i32⟩
  | .hbm, ⟨74, _⟩ => ⟨S128x4x200, .i32⟩
  | .hbm, ⟨75, _⟩ => ⟨S128x4x200, .i32⟩
  | .hbm, ⟨76, _⟩ => ⟨S128x4x200x1, .i32⟩
  | .hbm, ⟨77, _⟩ => ⟨S128x4x200x512, .f32⟩
  | .hbm, ⟨78, _⟩ => ⟨S4x128x200x512, .f32⟩
  | .hbm, ⟨79, _⟩ => ⟨S4x128x200x512, .f32⟩
  | .hbm, ⟨80, _⟩ => ⟨S_, .f32⟩
  | .hbm, ⟨81, _⟩ => ⟨S4x128x200, .f32⟩
  | .hbm, ⟨82, _⟩ => ⟨S4x128x200x512, .f32⟩
  | .hbm, ⟨83, _⟩ => ⟨S_, .f32⟩
  | .hbm, ⟨84, _⟩ => ⟨S4x128x200, .f32⟩
  | _, _ => ⟨S4x128x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_7 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  transposes_S4x512x4x128x200_S4x4x128x200x512_2_0_3_4_1 : S4x512x4x128x200.Transposes [2, 0, 3, 4, 1] S4x4x128x200x512
  bcast_S4x512_S1x4x1x1x512_1_4 : S4x512.BroadcastsInDim S1x4x1x1x512 (![1, 4] : Fin 2 → Fin S1x4x1x1x512.rank)
  bcast_S1x4x1x1x512_S4x4x128x200x512_0_1_2_3_4 : S1x4x1x1x512.BroadcastsInDim S4x4x128x200x512 (![0, 1, 2, 3, 4] : Fin 5 → Fin S4x4x128x200x512.rank)
  transposes_S128x4x200_S4x128x200_1_0_2 : S128x4x200.Transposes [1, 0, 2] S4x128x200
  bcast_S4x128x200_S4x1x128x200_0_2_3 : S4x128x200.BroadcastsInDim S4x1x128x200 (![0, 2, 3] : Fin 3 → Fin S4x1x128x200.rank)
  bcast_S_S4 : S_.BroadcastsInDim S4 (![] : Fin 0 → Fin S4.rank)
  bcast_S4_S1x4x1x1_1 : S4.BroadcastsInDim S1x4x1x1 (![1] : Fin 1 → Fin S1x4x1x1.rank)
  bcast_S4x1x128x200_S4x4x128x200_0_1_2_3 : S4x1x128x200.BroadcastsInDim S4x4x128x200 (![0, 1, 2, 3] : Fin 4 → Fin S4x4x128x200.rank)
  bcast_S1x4x1x1_S4x4x128x200_0_1_2_3 : S1x4x1x1.BroadcastsInDim S4x4x128x200 (![0, 1, 2, 3] : Fin 4 → Fin S4x4x128x200.rank)
  bcast_S4x4x128x200_S4x4x128x200x1_0_1_2_3 : S4x4x128x200.BroadcastsInDim S4x4x128x200x1 (![0, 1, 2, 3] : Fin 4 → Fin S4x4x128x200x1.rank)
  bcast_S4x4x128x200x1_S4x4x128x200x512_0_1_2_3_4 : S4x4x128x200x1.BroadcastsInDim S4x4x128x200x512 (![0, 1, 2, 3, 4] : Fin 5 → Fin S4x4x128x200x512.rank)
  reducesTo_S4x4x128x200x512_S4x128x200x512_d1 : S4x4x128x200x512.ReducesTo [1] S4x128x200x512
  h_S_ : 0 < S_.numel
  reducesTo_S4x128x200x512_S4x128x200_d3 : S4x128x200x512.ReducesTo [3] S4x128x200
  bcast_S4x128x200_S4x128x200x1_0_1_2 : S4x128x200.BroadcastsInDim S4x128x200x1 (![0, 1, 2] : Fin 3 → Fin S4x128x200x1.rank)
  bcast_S_S4x128x200x1 : S_.BroadcastsInDim S4x128x200x1 (![] : Fin 0 → Fin S4x128x200x1.rank)
  bcast_S4x128x200x1_S4x128x200x512_0_1_2_3 : S4x128x200x1.BroadcastsInDim S4x128x200x512 (![0, 1, 2, 3] : Fin 4 → Fin S4x128x200x512.rank)
  bcast_S512_S1x1x1x512_3 : S512.BroadcastsInDim S1x1x1x512 (![3] : Fin 1 → Fin S1x1x1x512.rank)
  bcast_S1x1x1x512_S4x128x200x512_0_1_2_3 : S1x1x1x512.BroadcastsInDim S4x128x200x512 (![0, 1, 2, 3] : Fin 4 → Fin S4x128x200x512.rank)
  bcast_S_S128x4x200 : S_.BroadcastsInDim S128x4x200 (![] : Fin 0 → Fin S128x4x200.rank)
  bcast_S128x4x200_S128x4x200x1_0_1_2 : S128x4x200.BroadcastsInDim S128x4x200x1 (![0, 1, 2] : Fin 3 → Fin S128x4x200x1.rank)
  transposes_S128x4x200x512_S4x128x200x512_1_0_2_3 : S128x4x200x512.Transposes [1, 0, 2, 3] S4x128x200x512
  dot_S4x512x512_S4x128x200x512_S4x512x4x128x200_2_3_01_012_n_n_wf : DotDims.WF S4x512x512 S4x128x200x512 S4x512x4x128x200 [2] [3] [0, 1] [0, 1, 2] [] []
  gather_S100002x512_S128x4x200x1_S128x4x200x512_3_0_n_n_0_3_1512_wf : GatherDims.WF S100002x512 S128x4x200x1 S128x4x200x512 [3] [0] [] [0] [] 3 ![1, 512]

variable [Facts₀]

def dot_S4x512x512_S4x128x200x512_S4x512x4x128x200_2_3_01_012_n_n : DotDims S4x512x512 S4x128x200x512 S4x512x4x128x200 where
  lhsContracting := [2]
  rhsContracting := [3]
  lhsNonContracting := [0, 1]
  rhsNonContracting := [0, 1, 2]
  lhsBatch := []
  rhsBatch := []
  wf := dot_S4x512x512_S4x128x200x512_S4x512x4x128x200_2_3_01_012_n_n_wf
def gather_S100002x512_S128x4x200x1_S128x4x200x512_3_0_n_n_0_3_1512 : GatherDims S100002x512 S128x4x200x1 S128x4x200x512 where
  offsetDims := [3]
  collapsedSliceDims := [0]
  operandBatchingDims := []
  startIndicesBatchingDims := []
  startIndexMap := [0]
  indexVectorDim := 3
  sliceSizes := ![1, 512]
  wf := gather_S100002x512_S128x4x200x1_S128x4x200x512_3_0_n_n_0_3_1512_wf

class Facts : Prop extends Facts₀ where

variable [Facts]
-- ==== Proof.Slab.lean ====
/-
  The kernel body is four copies of one computation, one per leading slab of its blocks. A slab takes 256 token rows
  (a [1, 256, 512] slice of the feature block), the four experts' weight slabs and bias rows, the four gate rows of
  that slab, and the scale and shift of the layer normalisation; it mixes the four gated projections, normalises
  each row, and yields the mapped rows and, against a [1, 256, 512] slice of embedding rows, one logit per row. This
  module names the slab computation as vector operations and says that each output block after the body is made of
  the four slabs' results, last slab first.
-/
import proofs.«142547_j72447508349152_1_alg».proof.Proof.Gen.KernelIdeal.Frame

noncomputable section

namespace Cert.KernelIdeal.Slab

open Idealize.ShloMosaic Cert.KernelIdeal Cert.KernelIdeal.Gen

variable {F : FTy → Type} [FloatOps F]

/-- One expert's projection of the slab's rows: the product into zeros plus the bias row repeated down the rows. -/
def proj (x : FVec F S256x512 .bf16) (w : Vec F S1x512x512 .bf16) (b : Vec F S1x512 .f32) : FVec F S256x512 .f32 :=
  addf (matmul dot_S256x512_S512x512_S256x512_1_0_0_1_n_n none x (shapeCast S512x512 w shapeCasts_S1x512x512_S512x512)
      (constant S256x512 .f32 0x00000000#32))
    (broadcastTo S256x512 (shapeCast S1x512 (shapeCast S512 b shapeCasts_S1x512_S512) shapeCasts_S512_S1x512) broadcasts_S1x512_S256x512)

/-- A gate row (one gate per token) turned into a column and repeated across the 512 outputs. -/
def gateCols (g : Vec F S1x1x256 .f32) : FVec F S256x512 .f32 :=
  broadcastTo S256x512 (shapeCast S256x1 (shapeCast S256 g shapeCasts_S1x1x256_S256) shapeCasts_S256_S256x1) broadcasts_S256x1_S256x512

/-- The four gated projections, accumulated from zero. -/
def routed (xs : Vec F S1x256x512 .bf16) (w0 w1 w2 w3 : Vec F S1x512x512 .bf16) (b0 b1 b2 b3 : Vec F S1x512 .f32)
    (g0 g1 g2 g3 : Vec F S1x1x256 .f32) : FVec F S256x512 .f32 :=
  addf (addf (addf (addf (broadcast S256x512 (Scalar.ofBits .f32 0x00000000#32))
    (mulf (gateCols g0) (proj (shapeCast S256x512 xs shapeCasts_S1x256x512_S256x512) w0 b0)))
    (mulf (gateCols g1) (proj (shapeCast S256x512 xs shapeCasts_S1x256x512_S256x512) w1 b1)))
    (mulf (gateCols g2) (proj (shapeCast S256x512 xs shapeCasts_S1x256x512_S256x512) w2 b2)))
    (mulf (gateCols g3) (proj (shapeCast S256x512 xs shapeCasts_S1x256x512_S256x512) w3 b3))

/-- Each row's sum divided by 512, kept as a column. -/
def rowMean (R : FVec F S256x512 .f32) : FVec F S256x1 .f32 :=
  divf (shapeCast S256x1 (multiReduction .add [1] S256 R 0x00000000#32 reduces_S256x512_S256 (.inl rfl) rfl) shapeCasts_S256_S256x1)
    (broadcast S256x1 (Scalar.ofBits .f32 0x44000000#32))

/-- Each row minus its mean. -/
def centred (R : FVec F S256x512 .f32) : FVec F S256x512 .f32 :=
  subf R (broadcastTo S256x512 (rowMean R) broadcasts_S256x1_S256x512)

/-- The normalised rows: the centred rows times the reciprocal square root of (spread + ε), scaled and shifted. -/
def normed (γ β : Vec F S512 .f32) (D : FVec F S256x512 .f32) (v : FVec F S256x1 .f32) (ε : F .f32) : FVec F S256x512 .f32 :=
  addf (mulf (mulf D (broadcastTo S256x512 (rsqrt (addf v (broadcast S256x1 ε))) broadcasts_S256x1_S256x512))
      (broadcastTo S256x512 (shapeCast S1x512 γ shapeCasts_S512_S1x512) broadcasts_S1x512_S256x512))
    (broadcastTo S256x512 (shapeCast S1x512 β shapeCasts_S512_S1x512) broadcasts_S1x512_S256x512)

/-- The slab's mapped rows. -/
def mappedSlab (γ β : Vec F S512 .f32) (xs : Vec F S1x256x512 .bf16) (w0 w1 w2 w3 : Vec F S1x512x512 .bf16) (b0 b1 b2 b3 : Vec F S1x512 .f32) (g0 g1 g2 g3 : Vec F S1x1x256 .f32) : FVec F S256x512 .f32 :=
  normed γ β (centred (routed xs w0 w1 w2 w3 b0 b1 b2 b3 g0 g1 g2 g3))
    (rowMean (mulf (centred (routed xs w0 w1 w2 w3 b0 b1 b2 b3 g0 g1 g2 g3)) (centred (routed xs w0 w1 w2 w3 b0 b1 b2 b3 g0 g1 g2 g3))))
    (Scalar.ofBits .f32 0x322BCC77#32)

/-- The mapped rows as the [1, 256, 512] piece the body stores. -/
def mappedStore (γ β : Vec F S512 .f32) (xs : Vec F S1x256x512 .bf16) (w0 w1 w2 w3 : Vec F S1x512x512 .bf16) (b0 b1 b2 b3 : Vec F S1x512 .f32) (g0 g1 g2 g3 : Vec F S1x1x256 .f32) : FVec F S1x256x512 .f32 :=
  shapeCast S1x256x512 (mappedSlab γ β xs w0 w1 w2 w3 b0 b1 b2 b3 g0 g1 g2 g3) shapeCasts_S256x512_S1x256x512

/-- The slab's logits against embedding rows p, as the [1, 256] piece the body stores. -/
def logitStore (γ β : Vec F S512 .f32) (xs : Vec F S1x256x512 .bf16) (w0 w1 w2 w3 : Vec F S1x512x512 .bf16) (b0 b1 b2 b3 : Vec F S1x512 .f32) (g0 g1 g2 g3 : Vec F S1x1x256 .f32) (p : Vec F S1x256x512 .bf16) : FVec F S1x256 .f32 :=
  shapeCast S1x256 (multiReduction .add [1] S256
    (mulf (mappedSlab γ β xs w0 w1 w2 w3 b0 b1 b2 b3 g0 g1 g2 g3) (extf .f32 (shapeCast S256x512 p shapeCasts_S1x256x512_S256x512) bitsLt_bf16_f32))
    0x00000000#32 reduces_S256x512_S256 (.inl rfl) rfl) shapeCasts_S256_S1x256

set_option maxHeartbeats 1000000 in
/-- The mapped block after the body: the four slabs' mapped rows. -/
theorem mapped_block (x0 : Vec F S4x256x512 .bf16) (x1 : Vec F S4x4x256 .f32) (x2 : Vec F S4x256x512 .bf16) (x3 : Vec F S4x256x512 .bf16) (x4 : Vec F S4x512x512 .bf16) (x5 : Vec F S4x512 .f32) (x6 : Vec F S512 .f32) (x7 : Vec F S512 .f32) :
    out0_8 x0 x1 x2 x3 x4 x5 x6 x7 = View.canon [
    ⟨r0_27, mappedStore (View.ld x6 r0_0) (View.ld x7 r0_0) (View.ld x0 r0_27) (View.ld x4 r0_2) (View.ld x4 r0_5) (View.ld x4 r0_8) (View.ld x4 r0_11) (View.ld x5 r0_3) (View.ld x5 r0_6) (View.ld x5 r0_9) (View.ld x5 r0_12) (View.ld x1 r0_28) (View.ld x1 r0_29) (View.ld x1 r0_30) (View.ld x1 r0_31)⟩,
    ⟨r0_21, mappedStore (View.ld x6 r0_0) (View.ld x7 r0_0) (View.ld x0 r0_21) (View.ld x4 r0_2) (View.ld x4 r0_5) (View.ld x4 r0_8) (View.ld x4 r0_11) (View.ld x5 r0_3) (View.ld x5 r0_6) (View.ld x5 r0_9) (View.ld x5 r0_12) (View.ld x1 r0_22) (View.ld x1 r0_23) (View.ld x1 r0_24) (View.ld x1 r0_25)⟩,
    ⟨r0_15, mappedStore (View.ld x6 r0_0) (View.ld x7 r0_0) (View.ld x0 r0_15) (View.ld x4 r0_2) (View.ld x4 r0_5) (View.ld x4 r0_8) (View.ld x4 r0_11) (View.ld x5 r0_3) (View.ld x5 r0_6) (View.ld x5 r0_9) (View.ld x5 r0_12) (View.ld x1 r0_16) (View.ld x1 r0_17) (View.ld x1 r0_18) (View.ld x1 r0_19)⟩,
    ⟨r0_1, mappedStore (View.ld x6 r0_0) (View.ld x7 r0_0) (View.ld x0 r0_1) (View.ld x4 r0_2) (View.ld x4 r0_5) (View.ld x4 r0_8) (View.ld x4 r0_11) (View.ld x5 r0_3) (View.ld x5 r0_6) (View.ld x5 r0_9) (View.ld x5 r0_12) (View.ld x1 r0_4) (View.ld x1 r0_7) (View.ld x1 r0_10) (View.ld x1 r0_13)⟩] := rfl

set_option maxHeartbeats 1000000 in
/-- The first logit block after the body: the four slabs' logits against the first embedding block. -/
theorem pos_block (x0 : Vec F S4x256x512 .bf16) (x1 : Vec F S4x4x256 .f32) (x2 : Vec F S4x256x512 .bf16) (x3 : Vec F S4x256x512 .bf16) (x4 : Vec F S4x512x512 .bf16) (x5 : Vec F S4x512 .f32) (x6 : Vec F S512 .f32) (x7 : Vec F S512 .f32) :
    out0_9 x0 x1 x2 x3 x4 x5 x6 x7 = View.canon [
    ⟨r0_32, logitStore (View.ld x6 r0_0) (View.ld x7 r0_0) (View.ld x0 r0_27) (View.ld x4 r0_2) (View.ld x4 r0_5) (View.ld x4 r0_8) (View.ld x4 r0_11) (View.ld x5 r0_3) (View.ld x5 r0_6) (View.ld x5 r0_9) (View.ld x5 r0_12) (View.ld x1 r0_28) (View.ld x1 r0_29) (View.ld x1 r0_30) (View.ld x1 r0_31) (View.ld x2 r0_27)⟩,
    ⟨r0_26, logitStore (View.ld x6 r0_0) (View.ld x7 r0_0) (View.ld x0 r0_21) (View.ld x4 r0_2) (View.ld x4 r0_5) (View.ld x4 r0_8) (View.ld x4 r0_11) (View.ld x5 r0_3) (View.ld x5 r0_6) (View.ld x5 r0_9) (View.ld x5 r0_12) (View.ld x1 r0_22) (View.ld x1 r0_23) (View.ld x1 r0_24) (View.ld x1 r0_25) (View.ld x2 r0_21)⟩,
    ⟨r0_20, logitStore (View.ld x6 r0_0) (View.ld x7 r0_0) (View.ld x0 r0_15) (View.ld x4 r0_2) (View.ld x4 r0_5) (View.ld x4 r0_8) (View.ld x4 r0_11) (View.ld x5 r0_3) (View.ld x5 r0_6) (View.ld x5 r0_9) (View.ld x5 r0_12) (View.ld x1 r0_16) (View.ld x1 r0_17) (View.ld x1 r0_18) (View.ld x1 r0_19) (View.ld x2 r0_15)⟩,
    ⟨r0_14, logitStore (View.ld x6 r0_0) (View.ld x7 r0_0) (View.ld x0 r0_1) (View.ld x4 r0_2) (View.ld x4 r0_5) (View.ld x4 r0_8) (View.ld x4 r0_11) (View.ld x5 r0_3) (View.ld x5 r0_6) (View.ld x5 r0_9) (View.ld x5 r0_12) (View.ld x1 r0_4) (View.ld x1 r0_7) (View.ld x1 r0_10) (View.ld x1 r0_13) (View.ld x2 r0_1)⟩] := rfl

set_option maxHeartbeats 1000000 in
/-- The second logit block after the body: the same against the second embedding block. -/
theorem neg_block (x0 : Vec F S4x256x512 .bf16) (x1 : Vec F S4x4x256 .f32) (x2 : Vec F S4x256x512 .bf16) (x3 : Vec F S4x256x512 .bf16) (x4 : Vec F S4x512x512 .bf16) (x5 : Vec F S4x512 .f32) (x6 : Vec F S512 .f32) (x7 : Vec F S512 .f32) :
    out0_10 x0 x1 x2 x3 x4 x5 x6 x7 = View.canon [
    ⟨r0_32, logitStore (View.ld x6 r0_0) (View.ld x7 r0_0) (View.ld x0 r0_27) (View.ld x4 r0_2) (View.ld x4 r0_5) (View.ld x4 r0_8) (View.ld x4 r0_11) (View.ld x5 r0_3) (View.ld x5 r0_6) (View.ld x5 r0_9) (View.ld x5 r0_12) (View.ld x1 r0_28) (View.ld x1 r0_29) (View.ld x1 r0_30) (View.ld x1 r0_31) (View.ld x3 r0_27)⟩,
    ⟨r0_26, logitStore (View.ld x6 r0_0) (View.ld x7 r0_0) (View.ld x0 r0_21) (View.ld x4 r0_2) (View.ld x4 r0_5) (View.ld x4 r0_8) (View.ld x4 r0_11) (View.ld x5 r0_3) (View.ld x5 r0_6) (View.ld x5 r0_9) (View.ld x5 r0_12) (View.ld x1 r0_22) (View.ld x1 r0_23) (View.ld x1 r0_24) (View.ld x1 r0_25) (View.ld x3 r0_21)⟩,
    ⟨r0_20, logitStore (View.ld x6 r0_0) (View.ld x7 r0_0) (View.ld x0 r0_15) (View.ld x4 r0_2) (View.ld x4 r0_5) (View.ld x4 r0_8) (View.ld x4 r0_11) (View.ld x5 r0_3) (View.ld x5 r0_6) (View.ld x5 r0_9) (View.ld x5 r0_12) (View.ld x1 r0_16) (View.ld x1 r0_17) (View.ld x1 r0_18) (View.ld x1 r0_19) (View.ld x3 r0_15)⟩,
    ⟨r0_14, logitStore (View.ld x6 r0_0) (View.ld x7 r0_0) (View.ld x0 r0_1) (View.ld x4 r0_2) (View.ld x4 r0_5) (View.ld x4 r0_8) (View.ld x4 r0_11) (View.ld x5 r0_3) (View.ld x5 r0_6) (View.ld x5 r0_9) (View.ld x5 r0_12) (View.ld x1 r0_4) (View.ld x1 r0_7) (View.ld x1 r0_10) (View.ld x1 r0_13) (View.ld x3 r0_1)⟩] := rfl

end Cert.KernelIdeal.Slab

end
-- ==== Proof.RowMath.lean ====
/-
  One token's row through the routed projection and the layer normalisation, on the extended reals.

  A token carries a feature row x (512 entries) and a gate per expert (4 gates). Expert j projects the row,
  P j e = Σ_k x k · w j k e + b j e, and the gates mix the four projections, R e = Σ_j gate j · P j e. The row is then
  centred, D e = R e − (Σ_e R e) / c, its spread taken, v = (Σ_e D e · D e) / c, and normalised,
  M e = D e · (v + ε)^(-1/2) · γ e + β e; a logit against an embedding row p is Σ_e M e · p e.

  Two writings of the normalisation meet here: the product with the reciprocal square root, and the quotient by the
  square root. They agree whenever v + ε is positive — true at +∞ too — and v + ε is positive because a sum of
  squares is never negative on the extended reals and ε is positive. No entry has to be finite.
-/
import Idealize.ShloMosaic.PureOps.Ideal.Laws

noncomputable section

open scoped BigOperators

namespace Cert.MoeRow

open Idealize.ShloMosaic

/-- For a positive v (an infinite one too), d · v^(-1/2) is d / √v. -/
theorem mul_rsqrt_eq_div_sqrt (d v : EReal) (hv : 0 < v) : d * Ideal.rsqrt v = Ideal.div d (Ideal.sqrt v) := by
  induction v using EReal.rec with
  | bot => exact absurd hv not_lt_bot
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]
  | top => rw [Ideal.rsqrt_top, Ideal.sqrt_top, Ideal.div, if_neg EReal.top_ne_zero, EReal.inv_top]

/-- A square is never negative, the infinite ones included. -/
theorem mul_self_nonneg (x : EReal) : 0 ≤ x * x := by
  induction x using EReal.rec with
  | bot => simp
  | coe r => exact_mod_cast _root_.mul_self_nonneg r
  | top => simp

/-- A sum of squares divided by 512 is never negative. -/
theorem spread_nonneg {ι : Type} [Fintype ι] (D : ι → EReal) : 0 ≤ Ideal.div (∑ e, D e * D e) ((512 : ℝ) : EReal) := by
  rw [Ideal.div_coe (by norm_num : (512 : ℝ) ≠ 0)]
  exact EReal.mul_nonneg (Finset.sum_nonneg fun e _ => mul_self_nonneg (D e)) (by exact_mod_cast (by norm_num : (0 : ℝ) ≤ 1 / 512))

variable (x : Fin 512 → EReal) (w : Fin 4 → Fin 512 → Fin 512 → EReal) (b : Fin 4 → Fin 512 → EReal)
  (gate : Fin 4 → EReal) (γ β : Fin 512 → EReal) (c ε : EReal)

/-- Expert j's projection of the row, at output e. -/
def proj (j : Fin 4) (e : Fin 512) : EReal := (∑ k, x k * w j k e) + b j e

/-- The gated mix of the four projections. -/
def routed (e : Fin 512) : EReal := ∑ j, gate j * proj x w b j e

/-- A row minus its mean. -/
def centre (R : Fin 512 → EReal) (e : Fin 512) : EReal := R e - Ideal.div (∑ e', R e') c

/-- A centred row's mean square. -/
def spread (D : Fin 512 → EReal) : EReal := Ideal.div (∑ e, D e * D e) c

/-- The normalised row, written with the reciprocal square root. -/
def norm (D : Fin 512 → EReal) (v : EReal) (e : Fin 512) : EReal := D e * Ideal.rsqrt (v + ε) * γ e + β e

/-- The same, written as a quotient by the square root: equal once v is not negative and ε is positive. -/
theorem norm_eq_quot (D : Fin 512 → EReal) (v : EReal) (hv : 0 ≤ v) (hε : 0 < ε) (e : Fin 512) :
    Ideal.div (D e) (Ideal.sqrt (v + ε)) * γ e + β e = norm γ β ε D v e := by
  unfold norm
  rw [mul_rsqrt_eq_div_sqrt _ _ (lt_of_lt_of_le hε (le_add_of_nonneg_left hv))]

/-- The token's mapped row. -/
def mapped (e : Fin 512) : EReal :=
  norm γ β ε (centre c (routed x w b gate)) (spread c (centre c (routed x w b gate))) e

/-- The token's logit against an embedding row. -/
def logit (p : Fin 512 → EReal) : EReal := ∑ e, mapped x w b gate γ β c ε e * p e

/-- The gated mix as a body computes it: the four experts one after the other, accumulated from zero. -/
def routed4 (w0 w1 w2 w3 : Fin 512 → Fin 512 → EReal) (b0 b1 b2 b3 : Fin 512 → EReal) (g0 g1 g2 g3 : EReal) (e : Fin 512) : EReal :=
  ((((0 : EReal) + g0 * ((∑ k, x k * w0 k e) + b0 e)) + g1 * ((∑ k, x k * w1 k e) + b1 e)) + g2 * ((∑ k, x k * w2 k e) + b2 e))
    + g3 * ((∑ k, x k * w3 k e) + b3 e)

/-- The unrolled mix depends only on the values of its arguments. -/
theorem routed4_congr {x' x'' : Fin 512 → EReal} {w0 w0' w1 w1' w2 w2' w3 w3' : Fin 512 → Fin 512 → EReal}
    {b0 b0' b1 b1' b2 b2' b3 b3' : Fin 512 → EReal} {g0 g0' g1 g1' g2 g2' g3 g3' : EReal}
    (hx : x'' = x') (hw0 : w0' = w0) (hw1 : w1' = w1) (hw2 : w2' = w2) (hw3 : w3' = w3)
    (hb0 : b0' = b0) (hb1 : b1' = b1) (hb2 : b2' = b2) (hb3 : b3' = b3)
    (hg0 : g0' = g0) (hg1 : g1' = g1) (hg2 : g2' = g2) (hg3 : g3' = g3) :
    routed4 x'' w0' w1' w2' w3' b0' b1' b2' b3' g0' g1' g2' g3' = routed4 x' w0 w1 w2 w3 b0 b1 b2 b3 g0 g1 g2 g3 := by
  subst hx hw0 hw1 hw2 hw3 hb0 hb1 hb2 hb3 hg0 hg1 hg2 hg3; rfl

/-- The normalised row depends only on the values of the scale, the shift and the mixed row. -/
theorem normalised_congr {γ' γ'' β' β'' R R' : Fin 512 → EReal} (hγ : γ'' = γ') (hβ : β'' = β') (hR : R' = R) :
    norm γ'' β'' ε (centre c R') (spread c (centre c R')) = norm γ' β' ε (centre c R) (spread c (centre c R)) := by
  subst hγ hβ hR; rfl

/-- Accumulating the four experts from zero gives their sum. -/
theorem routed4_eq : routed4 x (w 0) (w 1) (w 2) (w 3) (b 0) (b 1) (b 2) (b 3) (gate 0) (gate 1) (gate 2) (gate 3) = routed x w b gate := by
  funext e
  unfold routed4 routed proj
  rw [Fin.sum_univ_four, zero_add]

end Cert.MoeRow

end
-- ==== Proof.LibDenseLayer.lean ====
/-
  A dense layer read at an index, on the extended reals.

  For a [B, K] activation `a`, a weight slab `w` held as [1, K, N] and a bias held as [1, 1, N], the layer
  `a · w + bias` — a matrix product into a zero accumulator, the slab recast to [K, N], the bias recast to a row and
  repeated down the B rows — is, at row `b` and column `o`,

      Σ_k a (b, k) · w (0, k, o)  +  bias (0, 0, o).
-/
import Idealize.ShloMosaic.PureOps.Ideal.Laws
import Idealize.ShloMosaic.Lib.Pipeline.Value
import Idealize.ShloMosaic.Lib.ValueIdx

noncomputable section

namespace Idealize.ShloMosaic.ValueIdx

open Idealize.ShloMosaic
open scoped BigOperators

/-- A plain two-axis product into a zero accumulator is the sum over the contracted axis. The four hypotheses say
    which coordinate of each operand the dimension numbers take from the result index and which from the
    contraction position. -/
theorem matmul_zero_plain_apply {B K N : ℕ} {φ₁ φ₂ : FTy}
    (D : DotDims ⟨2, ![B, K]⟩ ⟨2, ![K, N]⟩ ⟨2, ![B, N]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![B, K]⟩ φ₁) (rhs : FVec Ideal ⟨2, ![K, N]⟩ φ₂) (b : Fin B) (o : Fin N) :
    matmul D prec lhs rhs (constant (F := Ideal) ⟨2, ![B, N]⟩ .f32 0x00000000#32) (ix2 b o)
      = ∑ k : Fin K, lhs (ix2 b k) * rhs (ix2 k o) := by
  refine (Ideal.matmul_constant_zero_apply D prec lhs rhs (ix2 b o)).trans ?_
  rw [← Equiv.sum_comp (contrEquiv1 D K hr hs).symm]
  refine Finset.sum_congr rfl fun k _ => ?_
  have hk := contrEquiv1_symm_val D K hr hs k
  have el : D.lhsIdx (ix2 b o) ((contrEquiv1 D K hr hs).symm k) = ix2 b k := funext fun a => Fin.ext (by
    match a with
    | ⟨0, _⟩ => exact hl0 _ _
    | ⟨1, _⟩ => exact (hl1 _ _).trans hk)
  have er : D.rhsIdx (ix2 b o) ((contrEquiv1 D K hr hs).symm k) = ix2 k o := funext fun a => Fin.ext (by
    match a with
    | ⟨0, _⟩ => exact (hr0 _ _).trans hk
    | ⟨1, _⟩ => exact hr1 _ _)
  rw [el, er]

variable {α : Type}

/-- A [1, K, N] slab recast to [K, N]: entry (k, o) is entry (0, k, o). -/
theorem shapeCast_slab_apply {K N : ℕ} (w : (⟨3, ![1, K, N]⟩ : Shape).Idx → α)
    (h : (⟨3, ![1, K, N]⟩ : Shape).ShapeCasts ⟨2, ![K, N]⟩) (z : Fin 1) (k : Fin K) (o : Fin N) :
    shapeCast ⟨2, ![K, N]⟩ w h (ix2 k o) = w (ix3 z k o) :=
  shapeCast_apply w h _ _ (by
    rw [Shape.rowMajor_val_three, Shape.rowMajor_val_two]
    show (z.val * K + k.val) * N + o.val = k.val * N + o.val
    have hz : z.val = 0 := by have := z.isLt; omega
    rw [hz, Nat.zero_mul, Nat.zero_add])

/-- A [1, 1, N] bias recast to [N], then to a [1, N] row, then repeated down B rows: entry (b, o) is entry (0, 0, o). -/
theorem bias_rows_apply {B N : ℕ} (c : (⟨3, ![1, 1, N]⟩ : Shape).Idx → α)
    (h1 : (⟨3, ![1, 1, N]⟩ : Shape).ShapeCasts ⟨1, ![N]⟩) (h2 : (⟨1, ![N]⟩ : Shape).ShapeCasts ⟨2, ![1, N]⟩)
    (h3 : (⟨2, ![1, N]⟩ : Shape).Broadcasts ⟨2, ![B, N]⟩) (z z' : Fin 1) (b : Fin B) (o : Fin N) :
    broadcastTo ⟨2, ![B, N]⟩ (shapeCast ⟨2, ![1, N]⟩ (shapeCast ⟨1, ![N]⟩ c h1) h2) h3 (ix2 b o) = c (ix3 z z' o) := by
  have hz : z.val = 0 := by have := z.isLt; omega
  have hz' : z'.val = 0 := by have := z'.isLt; omega
  refine (broadcastTo_apply _ h3 (ix2 b o) (ix2 (0 : Fin 1) o) (fun a => ?_)).trans ?_
  · match a with
    | ⟨0, _⟩ => show (0 : ℕ) = if (1 : ℕ) = 1 then 0 else _; rw [if_pos rfl]
    | ⟨1, _⟩ =>
      show o.val = if N = 1 then 0 else o.val
      split
      · have := o.isLt; omega
      · rfl
  refine (shapeCast_apply _ h2 _ (ix1 o) (by
    rw [Shape.rowMajor_val_one, Shape.rowMajor_val_two]
    show o.val = (0 : Fin 1).val * N + o.val
    simp)).trans ?_
  exact shapeCast_apply c h1 _ _ (by
    rw [Shape.rowMajor_val_three, Shape.rowMajor_val_one]
    show (z.val * 1 + z'.val) * N + o.val = o.val
    simp [hz, hz'])

/-- The dense layer at (b, o). -/
theorem dense_apply {B K N : ℕ} {φ₁ φ₂ : FTy}
    (D : DotDims ⟨2, ![B, K]⟩ ⟨2, ![K, N]⟩ ⟨2, ![B, N]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (a : FVec Ideal ⟨2, ![B, K]⟩ φ₁) (w : FVec Ideal ⟨3, ![1, K, N]⟩ φ₂) (c : FVec Ideal ⟨3, ![1, 1, N]⟩ .f32)
    (hw : (⟨3, ![1, K, N]⟩ : Shape).ShapeCasts ⟨2, ![K, N]⟩)
    (h1 : (⟨3, ![1, 1, N]⟩ : Shape).ShapeCasts ⟨1, ![N]⟩) (h2 : (⟨1, ![N]⟩ : Shape).ShapeCasts ⟨2, ![1, N]⟩)
    (h3 : (⟨2, ![1, N]⟩ : Shape).Broadcasts ⟨2, ![B, N]⟩) (b : Fin B) (o : Fin N) :
    addf (matmul D prec a (shapeCast ⟨2, ![K, N]⟩ w hw) (constant (F := Ideal) ⟨2, ![B, N]⟩ .f32 0x00000000#32))
        (broadcastTo ⟨2, ![B, N]⟩ (shapeCast ⟨2, ![1, N]⟩ (shapeCast ⟨1, ![N]⟩ c h1) h2) h3) (ix2 b o)
      = (∑ k : Fin K, a (ix2 b k) * w (ix3 (0 : Fin 1) k o)) + c (ix3 (0 : Fin 1) (0 : Fin 1) o) := by
  show matmul D prec a (shapeCast ⟨2, ![K, N]⟩ w hw) (constant (F := Ideal) ⟨2, ![B, N]⟩ .f32 0x00000000#32) (ix2 b o)
      + broadcastTo ⟨2, ![B, N]⟩ (shapeCast ⟨2, ![1, N]⟩ (shapeCast ⟨1, ![N]⟩ c h1) h2) h3 (ix2 b o) = _
  rw [matmul_zero_plain_apply D prec hr hs hl0 hl1 hr0 hr1, bias_rows_apply c h1 h2 h3 0 0 b o]
  refine congrArg (· + _) (Finset.sum_congr rfl fun k _ => ?_)
  rw [shapeCast_slab_apply w hw 0 k o]

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibSliceLayout.lean ====
/-
  Two readings at an index given by coordinates, for the pieces a body cuts out of a staged block.

  A load through a unit-stride slice reads the contents at offset + local coordinate on every axis; and a [1, 1, n]
  piece recast as a [n] vector reads the piece's entry (0, 0, i) at i.
-/
import Idealize.ShloMosaic.Lib.Pipeline.Value
import Idealize.ShloMosaic.Lib.ValueIdx

namespace Idealize.ShloMosaic.ValueIdx

open Idealize.ShloMosaic

/-- A load through a unit-stride slice reads the contents at offset + local coordinate, axis by axis. -/
theorem ld_unit_apply {Val : EltTy → Type} {el : EltTy} {s : Shape} (X : s.Idx → Val el) (off size : Fin s.rank → ℕ) (inb : ∀ a, off a + size a ≤ s.size a)
    (y : (Rect.unit off size inb).shape.Idx) (i : s.Idx) (h : ∀ a, (i a).val = off a + (y a).val) :
    View.ld X (Rect.unit off size inb) y = X i :=
  congrArg X (funext fun a => Fin.ext (by rw [h a]; show off a + 1 * (y a).val = _; rw [Nat.one_mul]))

/-- A [1, 1, n] piece recast as a [n] vector reads, at i, the piece's entry (0, 0, i). -/
theorem shapeCast_11n_n_apply {α : Type} {n : ℕ} (x : (⟨3, ![1, 1, n]⟩ : Shape).Idx → α) (h : (⟨3, ![1, 1, n]⟩ : Shape).ShapeCasts ⟨1, ![n]⟩)
    (u u' : Fin 1) (i : Fin n) : shapeCast ⟨1, ![n]⟩ x h (ix1 i) = x (ix3 u u' i) :=
  shapeCast_apply x h _ _ (by
    have hu : u.val = 0 := by omega
    have hu' : u'.val = 0 := by omega
    rw [Shape.rowMajor_val_three, Shape.rowMajor_val_one]
    show (u.val * 1 + u'.val) * n + i.val = i.val
    simp [hu, hu'])

end Idealize.ShloMosaic.ValueIdx
-- ==== Proof.SlabRead.lean ====
/-
  The slab computation read at a token row r and an output e, on the extended reals: the slab's mapped entry is the
  row mathematics of one token — the token's feature row is row r of the slab's feature slice, its four gates are
  entry r of the four gate rows, and the experts' weights and biases, the scale and the shift are shared by all rows —
  and a logit is the sum over e of the mapped entry times the embedding row's entry.
-/
import proofs.«142547_j72447508349152_1_alg».proof.Proof.Slab
import proofs.«142547_j72447508349152_1_alg».proof.Proof.RowMath
import proofs.«142547_j72447508349152_1_alg».proof.Proof.LibDenseLayer
import proofs.«142547_j72447508349152_1_alg».proof.Proof.LibKeepdims
import proofs.«142547_j72447508349152_1_alg».proof.Proof.LibRowReduce
import proofs.«142547_j72447508349152_1_alg».proof.Proof.LibSliceLayout
import Idealize.ShloMosaic.Lib.Pipeline.Value
import Idealize.ShloMosaic.Lib.ValueIdx
import Idealize.ShloMosaic.Lib.ValueLayout

noncomputable section

open scoped BigOperators

namespace Cert.KernelIdeal.Slab

open Idealize.ShloMosaic Idealize.ShloMosaic.ValueIdx Cert.KernelIdeal Cert.KernelIdeal.Gen

/-! ## The product's dimension numbers are those of a plain [256, 512] × [512, 512] product -/

theorem dot_l0 (j : S256x512.Idx) (q : dot_S256x512_S512x512_S256x512_1_0_0_1_n_n.contr.Idx) : (dot_S256x512_S512x512_S256x512_1_0_0_1_n_n.lhsIdx j q 0).val = (j 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem dot_l1 (j : S256x512.Idx) (q : dot_S256x512_S512x512_S256x512_1_0_0_1_n_n.contr.Idx) : (dot_S256x512_S512x512_S256x512_1_0_0_1_n_n.lhsIdx j q 1).val = (q ⟨0, by decide⟩).val :=
  dot_S256x512_S512x512_S256x512_1_0_0_1_n_n.lhsIdx_val_of_single rfl j q
theorem dot_r0 (j : S256x512.Idx) (q : dot_S256x512_S512x512_S256x512_1_0_0_1_n_n.contr.Idx) : (dot_S256x512_S512x512_S256x512_1_0_0_1_n_n.rhsIdx j q 0).val = (q ⟨0, by decide⟩).val :=
  dot_S256x512_S512x512_S256x512_1_0_0_1_n_n.rhsIdx_val_of_single rfl j q
theorem dot_r1 (j : S256x512.Idx) (q : dot_S256x512_S512x512_S256x512_1_0_0_1_n_n.contr.Idx) : (dot_S256x512_S512x512_S256x512_1_0_0_1_n_n.rhsIdx j q 1).val = (j 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-! ## The slab at (r, e) -/

/-- The zero literal denotes 0. -/
theorem zero_lit : (Scalar.ofBits (F := Ideal) .f32 0x00000000#32 : EReal) = 0 := Ideal.ofBits_zero_f32

/-- One expert's projection of the slab's row r, at output e. -/
theorem proj_apply (xs : Vec Ideal S1x256x512 .bf16) (w : Vec Ideal S1x512x512 .bf16) (b : Vec Ideal S1x512 .f32) (r : Fin 256) (e : Fin 512) :
    proj (F := Ideal) (shapeCast S256x512 xs shapeCasts_S1x256x512_S256x512) w b (ix2 r e)
      = (∑ k : Fin 512, xs (ix3 (0 : Fin 1) r k) * w (ix3 (0 : Fin 1) k e)) + b (ix2 (0 : Fin 1) e) := by
  unfold proj
  rw [addf_apply, matmul_zero_plain_apply _ none rfl rfl dot_l0 dot_l1 dot_r0 dot_r1, shapeCast_shapeCast, broadcastTo_1b_ab_apply]
  refine congrArg (· + _) (Finset.sum_congr rfl fun k _ => ?_)
  rw [shapeCast_slab_apply xs _ 0 r k, shapeCast_slab_apply w _ 0 k e]

/-- A gate row spread over the outputs reads, at (r, e), the gate of row r. -/
theorem gateCols_apply (g : Vec Ideal S1x1x256 .f32) (r : Fin 256) (e : Fin 512) :
    gateCols (F := Ideal) g (ix2 r e) = g (ix3 (0 : Fin 1) (0 : Fin 1) r) := by
  unfold gateCols
  rw [broadcastTo_a1_ab_apply, shapeCast_a_a1_apply, shapeCast_11n_n_apply g _ 0 0 r]

/-- The gated mix at (r, e): the four experts accumulated from zero, for the token of row r. -/
theorem routed_apply (xs : Vec Ideal S1x256x512 .bf16) (w0 w1 w2 w3 : Vec Ideal S1x512x512 .bf16) (b0 b1 b2 b3 : Vec Ideal S1x512 .f32)
    (g0 g1 g2 g3 : Vec Ideal S1x1x256 .f32) (r : Fin 256) (e : Fin 512) :
    routed (F := Ideal) xs w0 w1 w2 w3 b0 b1 b2 b3 g0 g1 g2 g3 (ix2 r e) = Cert.MoeRow.routed4 (fun k => xs (ix3 (0 : Fin 1) r k)) (fun k e => w0 (ix3 (0 : Fin 1) k e)) (fun k e => w1 (ix3 (0 : Fin 1) k e)) (fun k e => w2 (ix3 (0 : Fin 1) k e)) (fun k e => w3 (ix3 (0 : Fin 1) k e)) (fun e => b0 (ix2 (0 : Fin 1) e)) (fun e => b1 (ix2 (0 : Fin 1) e)) (fun e => b2 (ix2 (0 : Fin 1) e)) (fun e => b3 (ix2 (0 : Fin 1) e)) (g0 (ix3 (0 : Fin 1) (0 : Fin 1) r)) (g1 (ix3 (0 : Fin 1) (0 : Fin 1) r)) (g2 (ix3 (0 : Fin 1) (0 : Fin 1) r)) (g3 (ix3 (0 : Fin 1) (0 : Fin 1) r)) e := by
  unfold routed Cert.MoeRow.routed4
  rw [addf_apply, addf_apply, addf_apply, addf_apply, mulf_apply, mulf_apply, mulf_apply, mulf_apply, broadcast_apply,
    proj_apply xs w0 b0, proj_apply xs w1 b1, proj_apply xs w2 b2, proj_apply xs w3 b3,
    gateCols_apply g0, gateCols_apply g1, gateCols_apply g2, gateCols_apply g3, zero_lit]

/-- A row's mean, kept as a column, at (r, u): the row's sum divided by 512. -/
theorem rowMean_apply (R : FVec Ideal S256x512 .f32) (r : Fin 256) (u : Fin 1) :
    rowMean (F := Ideal) R (ix2 r u) = Ideal.div (∑ e : Fin 512, R (ix2 r e)) (Ideal.ofBits .f32 0x44000000#32) := by
  unfold rowMean
  rw [divf_apply, shapeCast_a_a1_apply, broadcast_apply]
  exact congrArg (fun s => Ideal.div s (Ideal.ofBits .f32 0x44000000#32)) (multiReduction_add_row R 0x00000000#32 reduces_S256x512_S256 _ _ r)

/-- A centred row at (r, e). -/
theorem centred_apply (R : FVec Ideal S256x512 .f32) (r : Fin 256) (e : Fin 512) :
    centred (F := Ideal) R (ix2 r e) = Cert.MoeRow.centre (Ideal.ofBits .f32 0x44000000#32) (fun e' => R (ix2 r e')) e := by
  unfold centred Cert.MoeRow.centre
  rw [subf_apply, broadcastTo_a1_ab_apply, rowMean_apply]

/-- The normalised rows at (r, e). -/
theorem normed_apply (γ β : Vec Ideal S512 .f32) (D : FVec Ideal S256x512 .f32) (v : FVec Ideal S256x1 .f32) (ε : Ideal .f32) (r : Fin 256) (e : Fin 512) :
    normed (F := Ideal) γ β D v ε (ix2 r e)
      = Cert.MoeRow.norm (fun e' => γ (ix1 e')) (fun e' => β (ix1 e')) ε (fun e' => D (ix2 r e')) (v (ix2 r (0 : Fin 1))) e := by
  unfold normed Cert.MoeRow.norm
  rw [addf_apply, mulf_apply, mulf_apply, broadcastTo_a1_ab_apply, broadcastTo_1b_ab_apply, broadcastTo_1b_ab_apply,
    shapeCast_a_1a_apply, shapeCast_a_1a_apply]
  rfl

/-- The token of row r, as the row mathematics sees it. -/
abbrev tokenMapped (γ β : Vec Ideal S512 .f32) (xs : Vec Ideal S1x256x512 .bf16) (w0 w1 w2 w3 : Vec Ideal S1x512x512 .bf16) (b0 b1 b2 b3 : Vec Ideal S1x512 .f32) (g0 g1 g2 g3 : Vec Ideal S1x1x256 .f32) (r : Fin 256) : Fin 512 → EReal :=
  fun e => Cert.MoeRow.norm (fun e' => γ (ix1 e')) (fun e' => β (ix1 e')) (Ideal.ofBits .f32 0x322BCC77#32)
    (Cert.MoeRow.centre (Ideal.ofBits .f32 0x44000000#32) (Cert.MoeRow.routed4 (fun k => xs (ix3 (0 : Fin 1) r k)) (fun k e => w0 (ix3 (0 : Fin 1) k e)) (fun k e => w1 (ix3 (0 : Fin 1) k e)) (fun k e => w2 (ix3 (0 : Fin 1) k e)) (fun k e => w3 (ix3 (0 : Fin 1) k e)) (fun e => b0 (ix2 (0 : Fin 1) e)) (fun e => b1 (ix2 (0 : Fin 1) e)) (fun e => b2 (ix2 (0 : Fin 1) e)) (fun e => b3 (ix2 (0 : Fin 1) e)) (g0 (ix3 (0 : Fin 1) (0 : Fin 1) r)) (g1 (ix3 (0 : Fin 1) (0 : Fin 1) r)) (g2 (ix3 (0 : Fin 1) (0 : Fin 1) r)) (g3 (ix3 (0 : Fin 1) (0 : Fin 1) r))))
    (Cert.MoeRow.spread (Ideal.ofBits .f32 0x44000000#32) (Cert.MoeRow.centre (Ideal.ofBits .f32 0x44000000#32) (Cert.MoeRow.routed4 (fun k => xs (ix3 (0 : Fin 1) r k)) (fun k e => w0 (ix3 (0 : Fin 1) k e)) (fun k e => w1 (ix3 (0 : Fin 1) k e)) (fun k e => w2 (ix3 (0 : Fin 1) k e)) (fun k e => w3 (ix3 (0 : Fin 1) k e)) (fun e => b0 (ix2 (0 : Fin 1) e)) (fun e => b1 (ix2 (0 : Fin 1) e)) (fun e => b2 (ix2 (0 : Fin 1) e)) (fun e => b3 (ix2 (0 : Fin 1) e)) (g0 (ix3 (0 : Fin 1) (0 : Fin 1) r)) (g1 (ix3 (0 : Fin 1) (0 : Fin 1) r)) (g2 (ix3 (0 : Fin 1) (0 : Fin 1) r)) (g3 (ix3 (0 : Fin 1) (0 : Fin 1) r))))) e

/-- The slab's mapped entry at (r, e) is the mapped row of the token of row r. -/
theorem mappedSlab_apply (γ β : Vec Ideal S512 .f32) (xs : Vec Ideal S1x256x512 .bf16) (w0 w1 w2 w3 : Vec Ideal S1x512x512 .bf16) (b0 b1 b2 b3 : Vec Ideal S1x512 .f32) (g0 g1 g2 g3 : Vec Ideal S1x1x256 .f32) (r : Fin 256) (e : Fin 512) :
    mappedSlab (F := Ideal) γ β xs w0 w1 w2 w3 b0 b1 b2 b3 g0 g1 g2 g3 (ix2 r e) = tokenMapped γ β xs w0 w1 w2 w3 b0 b1 b2 b3 g0 g1 g2 g3 r e := by
  have hD : ∀ e' : Fin 512, centred (F := Ideal) (routed xs w0 w1 w2 w3 b0 b1 b2 b3 g0 g1 g2 g3) (ix2 r e')
      = Cert.MoeRow.centre (Ideal.ofBits .f32 0x44000000#32) (Cert.MoeRow.routed4 (fun k => xs (ix3 (0 : Fin 1) r k)) (fun k e => w0 (ix3 (0 : Fin 1) k e)) (fun k e => w1 (ix3 (0 : Fin 1) k e)) (fun k e => w2 (ix3 (0 : Fin 1) k e)) (fun k e => w3 (ix3 (0 : Fin 1) k e)) (fun e => b0 (ix2 (0 : Fin 1) e)) (fun e => b1 (ix2 (0 : Fin 1) e)) (fun e => b2 (ix2 (0 : Fin 1) e)) (fun e => b3 (ix2 (0 : Fin 1) e)) (g0 (ix3 (0 : Fin 1) (0 : Fin 1) r)) (g1 (ix3 (0 : Fin 1) (0 : Fin 1) r)) (g2 (ix3 (0 : Fin 1) (0 : Fin 1) r)) (g3 (ix3 (0 : Fin 1) (0 : Fin 1) r))) e' := fun e' => by
    rw [centred_apply]
    exact congrArg (fun R => Cert.MoeRow.centre (Ideal.ofBits .f32 0x44000000#32) R e') (funext fun e'' => routed_apply xs w0 w1 w2 w3 b0 b1 b2 b3 g0 g1 g2 g3 r e'')
  unfold mappedSlab tokenMapped
  rw [normed_apply, rowMean_apply]
  unfold Cert.MoeRow.spread
  simp only [mulf_apply, hD]
  rfl

/-- The stored mapped piece at (u, r, e). -/
theorem mappedStore_apply (γ β : Vec Ideal S512 .f32) (xs : Vec Ideal S1x256x512 .bf16) (w0 w1 w2 w3 : Vec Ideal S1x512x512 .bf16) (b0 b1 b2 b3 : Vec Ideal S1x512 .f32) (g0 g1 g2 g3 : Vec Ideal S1x1x256 .f32) (u : Fin 1) (r : Fin 256) (e : Fin 512) :
    mappedStore (F := Ideal) γ β xs w0 w1 w2 w3 b0 b1 b2 b3 g0 g1 g2 g3 (ix3 u r e) = tokenMapped γ β xs w0 w1 w2 w3 b0 b1 b2 b3 g0 g1 g2 g3 r e := by
  unfold mappedStore
  rw [shapeCast_ab_1ab_apply, mappedSlab_apply]

/-- The stored logit piece at (u, r): the token's mapped row against row r of the embedding slice. -/
theorem logitStore_apply (γ β : Vec Ideal S512 .f32) (xs : Vec Ideal S1x256x512 .bf16) (w0 w1 w2 w3 : Vec Ideal S1x512x512 .bf16) (b0 b1 b2 b3 : Vec Ideal S1x512 .f32) (g0 g1 g2 g3 : Vec Ideal S1x1x256 .f32) (p : Vec Ideal S1x256x512 .bf16) (u : Fin 1) (r : Fin 256) :
    logitStore (F := Ideal) γ β xs w0 w1 w2 w3 b0 b1 b2 b3 g0 g1 g2 g3 p (ix2 u r)
      = ∑ e : Fin 512, tokenMapped γ β xs w0 w1 w2 w3 b0 b1 b2 b3 g0 g1 g2 g3 r e * p (ix3 (0 : Fin 1) r e) := by
  unfold logitStore
  rw [shapeCast_a_1a_apply]
  refine (multiReduction_add_row _ 0x00000000#32 reduces_S256x512_S256 _ _ r).trans ?_
  refine Finset.sum_congr rfl fun e _ => ?_
  rw [mulf_apply, extf_apply, mappedSlab_apply, shapeCast_slab_apply p _ 0 r e]

end Cert.KernelIdeal.Slab

end
-- ==== Proof.Blocks.lean ====
/-
  One grid point's output blocks as functions of its input blocks, index by index, on the extended reals.

  The input blocks are: the feature block x0 [4, 256, 512] (domain, token, feature), the gate block x1 [4, 4, 256]
  (domain, expert, token), the two embedding blocks x2, x3 [4, 256, 512], the experts' weights x4 [4, 512, 512]
  (expert, feature, output), their biases x5 [4, 512], and the scale x6 and shift x7 [512]. The token (i, r) of the
  block has feature row x0 (i, r, ·) and gates x1 (i, ·, r); its mapped row is the row mathematics of that token. The
  mapped block holds, at (i, r, e), that row's entry e; a logit block holds, at (i, r), the row against the embedding
  row (i, r, ·). The body reaches every slab i through a slice at offset i of each block.
-/
import proofs.«142547_j72447508349152_1_alg».proof.Proof.SlabRead

noncomputable section

open scoped BigOperators

namespace Cert.KernelIdeal.Blocks

open Idealize.ShloMosaic Idealize.ShloMosaic.ValueIdx Cert.KernelIdeal Cert.KernelIdeal.Gen

variable (x0 : Vec Ideal S4x256x512 .bf16) (x1 : Vec Ideal S4x4x256 .f32) (x2 x3 : Vec Ideal S4x256x512 .bf16)
  (x4 : Vec Ideal S4x512x512 .bf16) (x5 : Vec Ideal S4x512 .f32) (x6 x7 : Vec Ideal S512 .f32)

/-- The mapped row of the block's token (i, r). -/
def blockToken (i : Fin 4) (r : Fin 256) : Fin 512 → EReal :=
  Cert.MoeRow.mapped (fun k => x0 (ix3 i r k)) (fun j k e => x4 (ix3 j k e)) (fun j e => x5 (ix2 j e)) (fun j => x1 (ix3 i j r))
    (fun e => x6 (ix1 e)) (fun e => x7 (ix1 e)) (Ideal.ofBits .f32 0x44000000#32) (Ideal.ofBits .f32 0x322BCC77#32)

/-- The mapped block. -/
def mappedBlock : S4x256x512.Idx → EReal := fun y => blockToken x0 x1 x4 x5 x6 x7 (y 0) (y 1) (y 2)

/-- A logit block against the embedding block p. -/
def logitBlock (p : Vec Ideal S4x256x512 .bf16) : S4x256.Idx → EReal :=
  fun y => ∑ e : Fin 512, blockToken x0 x1 x4 x5 x6 x7 (y 0) (y 1) e * p (ix3 (y 0) (y 1) e)

/-! ## The shared loads: weights, biases, scale and shift -/

theorem ld_scale (x : Vec Ideal S512 .f32) : (fun e : Fin 512 => View.ld x r0_0 (ix1 e)) = fun e => x (ix1 e) :=
  funext fun e => ld_unit_apply x _ _ _ (ix1 e) (ix1 e) (fun a => by match a with | ⟨0, _⟩ => exact (Nat.zero_add _).symm)
theorem ld_w0 : (fun (k e : Fin 512) => View.ld x4 r0_2 (ix3 (0 : Fin 1) k e)) = (fun (j : Fin 4) (k e : Fin 512) => x4 (ix3 j k e)) 0 :=
  funext fun k => funext fun e => ld_unit_apply x4 _ _ _ (ix3 (0 : Fin 1) k e) (ix3 (0 : Fin 4) k e) (fun a => by match a with | ⟨0, _⟩ => rfl | ⟨1, _⟩ => exact (Nat.zero_add _).symm | ⟨2, _⟩ => exact (Nat.zero_add _).symm)
theorem ld_b0 : (fun (e : Fin 512) => View.ld x5 r0_3 (ix2 (0 : Fin 1) e)) = (fun (j : Fin 4) (e : Fin 512) => x5 (ix2 j e)) 0 :=
  funext fun e => ld_unit_apply x5 _ _ _ (ix2 (0 : Fin 1) e) (ix2 (0 : Fin 4) e) (fun a => by match a with | ⟨0, _⟩ => rfl | ⟨1, _⟩ => exact (Nat.zero_add _).symm)
theorem ld_w1 : (fun (k e : Fin 512) => View.ld x4 r0_5 (ix3 (0 : Fin 1) k e)) = (fun (j : Fin 4) (k e : Fin 512) => x4 (ix3 j k e)) 1 :=
  funext fun k => funext fun e => ld_unit_apply x4 _ _ _ (ix3 (0 : Fin 1) k e) (ix3 (1 : Fin 4) k e) (fun a => by match a with | ⟨0, _⟩ => rfl | ⟨1, _⟩ => exact (Nat.zero_add _).symm | ⟨2, _⟩ => exact (Nat.zero_add _).symm)
theorem ld_b1 : (fun (e : Fin 512) => View.ld x5 r0_6 (ix2 (0 : Fin 1) e)) = (fun (j : Fin 4) (e : Fin 512) => x5 (ix2 j e)) 1 :=
  funext fun e => ld_unit_apply x5 _ _ _ (ix2 (0 : Fin 1) e) (ix2 (1 : Fin 4) e) (fun a => by match a with | ⟨0, _⟩ => rfl | ⟨1, _⟩ => exact (Nat.zero_add _).symm)
theorem ld_w2 : (fun (k e : Fin 512) => View.ld x4 r0_8 (ix3 (0 : Fin 1) k e)) = (fun (j : Fin 4) (k e : Fin 512) => x4 (ix3 j k e)) 2 :=
  funext fun k => funext fun e => ld_unit_apply x4 _ _ _ (ix3 (0 : Fin 1) k e) (ix3 (2 : Fin 4) k e) (fun a => by match a with | ⟨0, _⟩ => rfl | ⟨1, _⟩ => exact (Nat.zero_add _).symm | ⟨2, _⟩ => exact (Nat.zero_add _).symm)
theorem ld_b2 : (fun (e : Fin 512) => View.ld x5 r0_9 (ix2 (0 : Fin 1) e)) = (fun (j : Fin 4) (e : Fin 512) => x5 (ix2 j e)) 2 :=
  funext fun e => ld_unit_apply x5 _ _ _ (ix2 (0 : Fin 1) e) (ix2 (2 : Fin 4) e) (fun a => by match a with | ⟨0, _⟩ => rfl | ⟨1, _⟩ => exact (Nat.zero_add _).symm)
theorem ld_w3 : (fun (k e : Fin 512) => View.ld x4 r0_11 (ix3 (0 : Fin 1) k e)) = (fun (j : Fin 4) (k e : Fin 512) => x4 (ix3 j k e)) 3 :=
  funext fun k => funext fun e => ld_unit_apply x4 _ _ _ (ix3 (0 : Fin 1) k e) (ix3 (3 : Fin 4) k e) (fun a => by match a with | ⟨0, _⟩ => rfl | ⟨1, _⟩ => exact (Nat.zero_add _).symm | ⟨2, _⟩ => exact (Nat.zero_add _).symm)
theorem ld_b3 : (fun (e : Fin 512) => View.ld x5 r0_12 (ix2 (0 : Fin 1) e)) = (fun (j : Fin 4) (e : Fin 512) => x5 (ix2 j e)) 3 :=
  funext fun e => ld_unit_apply x5 _ _ _ (ix2 (0 : Fin 1) e) (ix2 (3 : Fin 4) e) (fun a => by match a with | ⟨0, _⟩ => rfl | ⟨1, _⟩ => exact (Nat.zero_add _).symm)

/-! ## Each slab's token is a token of the block -/

/-- Slab 0's token of row r is the block's token (0, r). -/
theorem token_slab0 (r : Fin 256) :
    Slab.tokenMapped (View.ld x6 r0_0) (View.ld x7 r0_0) (View.ld x0 r0_1) (View.ld x4 r0_2) (View.ld x4 r0_5) (View.ld x4 r0_8) (View.ld x4 r0_11) (View.ld x5 r0_3) (View.ld x5 r0_6) (View.ld x5 r0_9) (View.ld x5 r0_12) (View.ld x1 r0_4) (View.ld x1 r0_7) (View.ld x1 r0_10) (View.ld x1 r0_13) r = blockToken x0 x1 x4 x5 x6 x7 (0 : Fin 4) r := by
  funext e
  unfold Slab.tokenMapped blockToken Cert.MoeRow.mapped
  rw [← Cert.MoeRow.routed4_eq]
  exact congrFun (Cert.MoeRow.normalised_congr _ _ (ld_scale x6) (ld_scale x7) (Cert.MoeRow.routed4_congr
    (funext fun k => ld_unit_apply x0 _ _ _ (ix3 (0 : Fin 1) r k) (ix3 (0 : Fin 4) r k) (fun a => by match a with | ⟨0, _⟩ => rfl | ⟨1, _⟩ => exact (Nat.zero_add _).symm | ⟨2, _⟩ => exact (Nat.zero_add _).symm))
    (ld_w0 x4) (ld_w1 x4) (ld_w2 x4) (ld_w3 x4) (ld_b0 x5) (ld_b1 x5) (ld_b2 x5) (ld_b3 x5)
    (ld_unit_apply x1 _ _ _ (ix3 (0 : Fin 1) (0 : Fin 1) r) (ix3 (0 : Fin 4) (0 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (0 : Fin 4) (1 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (0 : Fin 4) (2 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (0 : Fin 4) (3 : Fin 4) r) (fun a => by match a with | ⟨0, _⟩ => rfl | ⟨1, _⟩ => rfl | ⟨2, _⟩ => exact (Nat.zero_add _).symm)))) e

/-- Slab 1's token of row r is the block's token (1, r). -/
theorem token_slab1 (r : Fin 256) :
    Slab.tokenMapped (View.ld x6 r0_0) (View.ld x7 r0_0) (View.ld x0 r0_15) (View.ld x4 r0_2) (View.ld x4 r0_5) (View.ld x4 r0_8) (View.ld x4 r0_11) (View.ld x5 r0_3) (View.ld x5 r0_6) (View.ld x5 r0_9) (View.ld x5 r0_12) (View.ld x1 r0_16) (View.ld x1 r0_17) (View.ld x1 r0_18) (View.ld x1 r0_19) r = blockToken x0 x1 x4 x5 x6 x7 (1 : Fin 4) r := by
  funext e
  unfold Slab.tokenMapped blockToken Cert.MoeRow.mapped
  rw [← Cert.MoeRow.routed4_eq]
  exact congrFun (Cert.MoeRow.normalised_congr _ _ (ld_scale x6) (ld_scale x7) (Cert.MoeRow.routed4_congr
    (funext fun k => ld_unit_apply x0 _ _ _ (ix3 (0 : Fin 1) r k) (ix3 (1 : Fin 4) r k) (fun a => by match a with | ⟨0, _⟩ => rfl | ⟨1, _⟩ => exact (Nat.zero_add _).symm | ⟨2, _⟩ => exact (Nat.zero_add _).symm))
    (ld_w0 x4) (ld_w1 x4) (ld_w2 x4) (ld_w3 x4) (ld_b0 x5) (ld_b1 x5) (ld_b2 x5) (ld_b3 x5)
    (ld_unit_apply x1 _ _ _ (ix3 (0 : Fin 1) (0 : Fin 1) r) (ix3 (1 : Fin 4) (0 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (1 : Fin 4) (1 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (1 : Fin 4) (2 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (1 : Fin 4) (3 : Fin 4) r) (fun a => by match a with | ⟨0, _⟩ => rfl | ⟨1, _⟩ => rfl | ⟨2, _⟩ => exact (Nat.zero_add _).symm)))) e

/-- Slab 2's token of row r is the block's token (2, r). -/
theorem token_slab2 (r : Fin 256) :
    Slab.tokenMapped (View.ld x6 r0_0) (View.ld x7 r0_0) (View.ld x0 r0_21) (View.ld x4 r0_2) (View.ld x4 r0_5) (View.ld x4 r0_8) (View.ld x4 r0_11) (View.ld x5 r0_3) (View.ld x5 r0_6) (View.ld x5 r0_9) (View.ld x5 r0_12) (View.ld x1 r0_22) (View.ld x1 r0_23) (View.ld x1 r0_24) (View.ld x1 r0_25) r = blockToken x0 x1 x4 x5 x6 x7 (2 : Fin 4) r := by
  funext e
  unfold Slab.tokenMapped blockToken Cert.MoeRow.mapped
  rw [← Cert.MoeRow.routed4_eq]
  exact congrFun (Cert.MoeRow.normalised_congr _ _ (ld_scale x6) (ld_scale x7) (Cert.MoeRow.routed4_congr
    (funext fun k => ld_unit_apply x0 _ _ _ (ix3 (0 : Fin 1) r k) (ix3 (2 : Fin 4) r k) (fun a => by match a with | ⟨0, _⟩ => rfl | ⟨1, _⟩ => exact (Nat.zero_add _).symm | ⟨2, _⟩ => exact (Nat.zero_add _).symm))
    (ld_w0 x4) (ld_w1 x4) (ld_w2 x4) (ld_w3 x4) (ld_b0 x5) (ld_b1 x5) (ld_b2 x5) (ld_b3 x5)
    (ld_unit_apply x1 _ _ _ (ix3 (0 : Fin 1) (0 : Fin 1) r) (ix3 (2 : Fin 4) (0 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (2 : Fin 4) (1 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (2 : Fin 4) (2 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (2 : Fin 4) (3 : Fin 4) r) (fun a => by match a with | ⟨0, _⟩ => rfl | ⟨1, _⟩ => rfl | ⟨2, _⟩ => exact (Nat.zero_add _).symm)))) e

/-- Slab 3's token of row r is the block's token (3, r). -/
theorem token_slab3 (r : Fin 256) :
    Slab.tokenMapped (View.ld x6 r0_0) (View.ld x7 r0_0) (View.ld x0 r0_27) (View.ld x4 r0_2) (View.ld x4 r0_5) (View.ld x4 r0_8) (View.ld x4 r0_11) (View.ld x5 r0_3) (View.ld x5 r0_6) (View.ld x5 r0_9) (View.ld x5 r0_12) (View.ld x1 r0_28) (View.ld x1 r0_29) (View.ld x1 r0_30) (View.ld x1 r0_31) r = blockToken x0 x1 x4 x5 x6 x7 (3 : Fin 4) r := by
  funext e
  unfold Slab.tokenMapped blockToken Cert.MoeRow.mapped
  rw [← Cert.MoeRow.routed4_eq]
  exact congrFun (Cert.MoeRow.normalised_congr _ _ (ld_scale x6) (ld_scale x7) (Cert.MoeRow.routed4_congr
    (funext fun k => ld_unit_apply x0 _ _ _ (ix3 (0 : Fin 1) r k) (ix3 (3 : Fin 4) r k) (fun a => by match a with | ⟨0, _⟩ => rfl | ⟨1, _⟩ => exact (Nat.zero_add _).symm | ⟨2, _⟩ => exact (Nat.zero_add _).symm))
    (ld_w0 x4) (ld_w1 x4) (ld_w2 x4) (ld_w3 x4) (ld_b0 x5) (ld_b1 x5) (ld_b2 x5) (ld_b3 x5)
    (ld_unit_apply x1 _ _ _ (ix3 (0 : Fin 1) (0 : Fin 1) r) (ix3 (3 : Fin 4) (0 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (3 : Fin 4) (1 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (3 : Fin 4) (2 : Fin 4) r) (fun a => by match a with | ⟨0, _⟩ => rfl | ⟨1, _⟩ => rfl | ⟨2, _⟩ => exact (Nat.zero_add _).symm))
    (ld_unit_apply x1 _ _ _ (ix3 (0 : Fin 1) (0 : Fin 1) r) (ix3 (3 : Fin 4) (3 : Fin 4) r) (fun a => by match a with | ⟨0, _⟩ => rfl | ⟨1, _⟩ => rfl | ⟨2, _⟩ => exact (Nat.zero_add _).symm)))) e

/-! ## The output blocks after the body -/

/-- The mapped block at an index whose coordinates are known. -/
theorem mappedBlock_at (y : S4x256x512.Idx) (i : Fin 4) (r : Fin 256) (e : Fin 512)
    (h0 : (y 0).val = i.val) (h1 : (y 1).val = r.val) (h2 : (y 2).val = e.val) :
    mappedBlock x0 x1 x4 x5 x6 x7 y = blockToken x0 x1 x4 x5 x6 x7 i r e := by
  unfold mappedBlock
  rw [show y 0 = i from Fin.ext h0, show y 1 = r from Fin.ext h1, show y 2 = e from Fin.ext h2]

/-- A logit block at an index whose coordinates are known. -/
theorem logitBlock_at (p : Vec Ideal S4x256x512 .bf16) (y : S4x256.Idx) (i : Fin 4) (r : Fin 256)
    (h0 : (y 0).val = i.val) (h1 : (y 1).val = r.val) :
    logitBlock x0 x1 x4 x5 x6 x7 p y = ∑ e : Fin 512, blockToken x0 x1 x4 x5 x6 x7 i r e * p (ix3 i r e) := by
  unfold logitBlock
  rw [show y 0 = i from Fin.ext h0, show y 1 = r from Fin.ext h1]

/-- After the body the mapped output's buffer holds the mapped block. -/
theorem out_mapped : out0_8 x0 x1 x2 x3 x4 x5 x6 x7 = mappedBlock x0 x1 x4 x5 x6 x7 := by
  funext y
  rw [Slab.mapped_block]
  refine View.canon_apply_of_pieces (Val := Elt Ideal) (S := S4x256x512) (e := .f32) (mappedBlock x0 x1 x4 x5 x6 x7) _ ?_ y (cover0_8 _ _ _ _ y)
  intro p hp
  simp only [List.mem_cons, List.mem_nil_iff, or_false] at hp
  rcases hp with rfl | rfl | rfl | rfl
  · intro (y' : S1x256x512.Idx)
    obtain ⟨u, r, e, rfl⟩ : ∃ (u : Fin 1) (r : Fin 256) (e : Fin 512), y' = ix3 u r e := ⟨y' 0, y' 1, y' 2, eq_ix3 y'⟩
    have hu : u.val = 0 := by omega
    refine ((Slab.mappedStore_apply _ _ _ _ _ _ _ _ _ _ _ _ _ _ _ u r e).trans (congrFun (token_slab3 x0 x1 x4 x5 x6 x7 r) e)).trans
      (mappedBlock_at x0 x1 x4 x5 x6 x7 _ (3 : Fin 4) r e ?_ ?_ ?_).symm
    · show 3 + 1 * u.val = 3; omega
    · show 0 + 1 * r.val = r.val; omega
    · show 0 + 1 * e.val = e.val; omega
  · intro (y' : S1x256x512.Idx)
    obtain ⟨u, r, e, rfl⟩ : ∃ (u : Fin 1) (r : Fin 256) (e : Fin 512), y' = ix3 u r e := ⟨y' 0, y' 1, y' 2, eq_ix3 y'⟩
    have hu : u.val = 0 := by omega
    refine ((Slab.mappedStore_apply _ _ _ _ _ _ _ _ _ _ _ _ _ _ _ u r e).trans (congrFun (token_slab2 x0 x1 x4 x5 x6 x7 r) e)).trans
      (mappedBlock_at x0 x1 x4 x5 x6 x7 _ (2 : Fin 4) r e ?_ ?_ ?_).symm
    · show 2 + 1 * u.val = 2; omega
    · show 0 + 1 * r.val = r.val; omega
    · show 0 + 1 * e.val = e.val; omega
  · intro (y' : S1x256x512.Idx)
    obtain ⟨u, r, e, rfl⟩ : ∃ (u : Fin 1) (r : Fin 256) (e : Fin 512), y' = ix3 u r e := ⟨y' 0, y' 1, y' 2, eq_ix3 y'⟩
    have hu : u.val = 0 := by omega
    refine ((Slab.mappedStore_apply _ _ _ _ _ _ _ _ _ _ _ _ _ _ _ u r e).trans (congrFun (token_slab1 x0 x1 x4 x5 x6 x7 r) e)).trans
      (mappedBlock_at x0 x1 x4 x5 x6 x7 _ (1 : Fin 4) r e ?_ ?_ ?_).symm
    · show 1 + 1 * u.val = 1; omega
    · show 0 + 1 * r.val = r.val; omega
    · show 0 + 1 * e.val = e.val; omega
  · intro (y' : S1x256x512.Idx)
    obtain ⟨u, r, e, rfl⟩ : ∃ (u : Fin 1) (r : Fin 256) (e : Fin 512), y' = ix3 u r e := ⟨y' 0, y' 1, y' 2, eq_ix3 y'⟩
    have hu : u.val = 0 := by omega
    refine ((Slab.mappedStore_apply _ _ _ _ _ _ _ _ _ _ _ _ _ _ _ u r e).trans (congrFun (token_slab0 x0 x1 x4 x5 x6 x7 r) e)).trans
      (mappedBlock_at x0 x1 x4 x5 x6 x7 _ (0 : Fin 4) r e ?_ ?_ ?_).symm
    · show 0 + 1 * u.val = 0; omega
    · show 0 + 1 * r.val = r.val; omega
    · show 0 + 1 * e.val = e.val; omega

/-- After the body the first logit output's buffer holds the logit block against the first embedding block. -/
theorem out_pos : out0_9 x0 x1 x2 x3 x4 x5 x6 x7 = logitBlock x0 x1 x4 x5 x6 x7 x2 := by
  funext y
  rw [Slab.pos_block]
  refine View.canon_apply_of_pieces (Val := Elt Ideal) (S := S4x256) (e := .f32) (logitBlock x0 x1 x4 x5 x6 x7 x2) _ ?_ y (cover0_9 _ _ _ _ y)
  intro p hp
  simp only [List.mem_cons, List.mem_nil_iff, or_false] at hp
  rcases hp with rfl | rfl | rfl | rfl
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x2 _ (3 : Fin 4) r ?_ ?_).symm
    · rw [token_slab3 x0 x1 x4 x5 x6 x7 r]
      exact congrArg (blockToken x0 x1 x4 x5 x6 x7 (3 : Fin 4) r e * ·)
        (ld_unit_apply x2 _ _ _ (ix3 (0 : Fin 1) r e) (ix3 (3 : Fin 4) r e) (fun a => by match a with | ⟨0, _⟩ => rfl | ⟨1, _⟩ => exact (Nat.zero_add _).symm | ⟨2, _⟩ => exact (Nat.zero_add _).symm))
    · show 3 + 1 * u.val = 3; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x2 _ (2 : Fin 4) r ?_ ?_).symm
    · rw [token_slab2 x0 x1 x4 x5 x6 x7 r]
      exact congrArg (blockToken x0 x1 x4 x5 x6 x7 (2 : Fin 4) r e * ·)
        (ld_unit_apply x2 _ _ _ (ix3 (0 : Fin 1) r e) (ix3 (2 : Fin 4) r e) (fun a => by match a with | ⟨0, _⟩ => rfl | ⟨1, _⟩ => exact (Nat.zero_add _).symm | ⟨2, _⟩ => exact (Nat.zero_add _).symm))
    · show 2 + 1 * u.val = 2; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x2 _ (1 : Fin 4) r ?_ ?_).symm
    · rw [token_slab1 x0 x1 x4 x5 x6 x7 r]
      exact congrArg (blockToken x0 x1 x4 x5 x6 x7 (1 : Fin 4) r e * ·)
        (ld_unit_apply x2 _ _ _ (ix3 (0 : Fin 1) r e) (ix3 (1 : Fin 4) r e) (fun a => by match a with | ⟨0, _⟩ => rfl | ⟨1, _⟩ => exact (Nat.zero_add _).symm | ⟨2, _⟩ => exact (Nat.zero_add _).symm))
    · show 1 + 1 * u.val = 1; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x2 _ (0 : Fin 4) r ?_ ?_).symm
    · rw [token_slab0 x0 x1 x4 x5 x6 x7 r]
      exact congrArg (blockToken x0 x1 x4 x5 x6 x7 (0 : Fin 4) r e * ·)
        (ld_unit_apply x2 _ _ _ (ix3 (0 : Fin 1) r e) (ix3 (0 : Fin 4) r e) (fun a => by match a with | ⟨0, _⟩ => rfl | ⟨1, _⟩ => exact (Nat.zero_add _).symm | ⟨2, _⟩ => exact (Nat.zero_add _).symm))
    · show 0 + 1 * u.val = 0; omega
    · show 0 + 1 * r.val = r.val; omega

/-- After the body the second logit output's buffer holds the logit block against the second embedding block. -/
theorem out_neg : out0_10 x0 x1 x2 x3 x4 x5 x6 x7 = logitBlock x0 x1 x4 x5 x6 x7 x3 := by
  funext y
  rw [Slab.neg_block]
  refine View.canon_apply_of_pieces (Val := Elt Ideal) (S := S4x256) (e := .f32) (logitBlock x0 x1 x4 x5 x6 x7 x3) _ ?_ y (cover0_10 _ _ _ _ y)
  intro p hp
  simp only [List.mem_cons, List.mem_nil_iff, or_false] at hp
  rcases hp with rfl | rfl | rfl | rfl
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x3 _ (3 : Fin 4) r ?_ ?_).symm
    · rw [token_slab3 x0 x1 x4 x5 x6 x7 r]
      exact congrArg (blockToken x0 x1 x4 x5 x6 x7 (3 : Fin 4) r e * ·)
        (ld_unit_apply x3 _ _ _ (ix3 (0 : Fin 1) r e) (ix3 (3 : Fin 4) r e) (fun a => by match a with | ⟨0, _⟩ => rfl | ⟨1, _⟩ => exact (Nat.zero_add _).symm | ⟨2, _⟩ => exact (Nat.zero_add _).symm))
    · show 3 + 1 * u.val = 3; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x3 _ (2 : Fin 4) r ?_ ?_).symm
    · rw [token_slab2 x0 x1 x4 x5 x6 x7 r]
      exact congrArg (blockToken x0 x1 x4 x5 x6 x7 (2 : Fin 4) r e * ·)
        (ld_unit_apply x3 _ _ _ (ix3 (0 : Fin 1) r e) (ix3 (2 : Fin 4) r e) (fun a => by match a with | ⟨0, _⟩ => rfl | ⟨1, _⟩ => exact (Nat.zero_add _).symm | ⟨2, _⟩ => exact (Nat.zero_add _).symm))
    · show 2 + 1 * u.val = 2; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x3 _ (1 : Fin 4) r ?_ ?_).symm
    · rw [token_slab1 x0 x1 x4 x5 x6 x7 r]
      exact congrArg (blockToken x0 x1 x4 x5 x6 x7 (1 : Fin 4) r e * ·)
        (ld_unit_apply x3 _ _ _ (ix3 (0 : Fin 1) r e) (ix3 (1 : Fin 4) r e) (fun a => by match a with | ⟨0, _⟩ => rfl | ⟨1, _⟩ => exact (Nat.zero_add _).symm | ⟨2, _⟩ => exact (Nat.zero_add _).symm))
    · show 1 + 1 * u.val = 1; omega
    · show 0 + 1 * r.val = r.val; omega
  · intro (y' : S1x256.Idx)
    obtain ⟨u, r, rfl⟩ : ∃ (u : Fin 1) (r : Fin 256), y' = ix2 u r := ⟨y' 0, y' 1, eq_ix2 y'⟩
    have hu : u.val = 0 := by omega
    refine ((Slab.logitStore_apply _ _ _ _ _ _ _ _ _ _ _ _ _ _ _ _ u r).trans (Finset.sum_congr rfl fun e _ => ?_)).trans
      (logitBlock_at x0 x1 x4 x5 x6 x7 x3 _ (0 : Fin 4) r ?_ ?_).symm
    · rw [token_slab0 x0 x1 x4 x5 x6 x7 r]
      exact congrArg (blockToken x0 x1 x4 x5 x6 x7 (0 : Fin 4) r e * ·)
        (ld_unit_apply x3 _ _ _ (ix3 (0 : Fin 1) r e) (ix3 (0 : Fin 4) r e) (fun a => by match a with | ⟨0, _⟩ => rfl | ⟨1, _⟩ => exact (Nat.zero_add _).symm | ⟨2, _⟩ => exact (Nat.zero_add _).symm))
    · show 0 + 1 * u.val = 0; omega
    · show 0 + 1 * r.val = r.val; omega

end Cert.KernelIdeal.Blocks

end
-- ==== Proof.Spec.lean ====
/-
  What the three results hold, as functions of the nine argument arrays, index by index, on the extended reals.

  Arguments: the features a0 [4, 128, 200, 512] (domain i, sequence b, position l, feature), the experts' weights
  a1 [4, 512, 512] (expert j, output e, feature k) and biases a2 [4, 512], the embedding table a3 [100002, 512], the
  scale a4 and shift a5 [512], and three integer arrays [128, 4, 200] (sequence b, domain i, position l): the labels a6
  and two arrays of table indices. The token (i, b, l) has feature row a0 (i, b, l, ·); its gate for expert j is 1 when
  its label a6 (b, i, l) is j + 1 and 0 otherwise. Its mapped row is the row mathematics of that token with expert
  j's weight on feature k and output e read at a1 (j, e, k); a logit is the mapped row against the table row its
  index selects, a negative index counting from the end and the result clamped into the table.

  The pipelined program works on the [4, 25600] flattening of (i, b, l) with n = 200 · b + l; the flat forms below read
  b = n / 200 and l = n % 200.
-/
import proofs.«142547_j72447508349152_1_alg».proof.Proof.RowMath
import Idealize.ShloMosaic.Lib.ValueIdx

noncomputable section

open scoped BigOperators

namespace Cert.MoeSpec

open Idealize.ShloMosaic Idealize.ShloMosaic.ValueIdx

/-- The row length 512.0 and the variance offset, as extended reals. -/
abbrev C512 : EReal := Ideal.ofBits .f32 0x44000000#32
abbrev EPS : EReal := Ideal.ofBits .f32 0x322BCC77#32

/-- The gate of expert j for a token labelled lbl: the float of the one-bit comparison lbl = j + 1. -/
def gateOf (lbl : BitVec 32) (j : Fin 4) : EReal :=
  FloatOps.uitofp (F := Ideal) .f32 (IntOp.cmpi .eq lbl (IntOp.addi (BitVec.ofNat 32 j.val) 1#32))

/-- A table index as the lookup reads it: a negative index counts from the end of the table. -/
def wrapIdx (ix : BitVec 32) : BitVec 32 := Scalar.select (IntOp.cmpi .slt ix 0#32) (IntOp.addi ix 100002#32) ix

/-- The table row an index selects (wrapped, read signed, clamped into the table), at column e. -/
def embRow (a3 : (⟨2, ![100002, 512]⟩ : Shape).Idx → EReal) (ix : BitVec 32) (e : Fin 512) : EReal :=
  a3 (ix2 (⟨min (wrapIdx ix).toInt.toNat (100002 - 1), by omega⟩ : Fin 100002) e)

variable (a0 : (⟨4, ![4, 128, 200, 512]⟩ : Shape).Idx → EReal) (a1 : (⟨3, ![4, 512, 512]⟩ : Shape).Idx → EReal)
  (a2 : (⟨2, ![4, 512]⟩ : Shape).Idx → EReal) (a3 : (⟨2, ![100002, 512]⟩ : Shape).Idx → EReal)
  (a4 a5 : (⟨1, ![512]⟩ : Shape).Idx → EReal) (a6 : (⟨3, ![128, 4, 200]⟩ : Shape).Idx → BitVec 32)

/-- The mapped row of token (i, b, l). -/
def tokenRow (i : Fin 4) (b : Fin 128) (l : Fin 200) : Fin 512 → EReal :=
  Cert.MoeRow.mapped (fun k => a0 (ix4 i b l k)) (fun j k e => a1 (ix3 j e k)) (fun j e => a2 (ix2 j e))
    (fun j => gateOf (a6 (ix3 b i l)) j) (fun e => a4 (ix1 e)) (fun e => a5 (ix1 e)) C512 EPS

/-- The token's logit against the table row the index array ix selects for it. -/
def tokenLogit (ix : (⟨3, ![128, 4, 200]⟩ : Shape).Idx → BitVec 32) (i : Fin 4) (b : Fin 128) (l : Fin 200) : EReal :=
  ∑ e : Fin 512, tokenRow a0 a1 a2 a4 a5 a6 i b l e * embRow a3 (ix (ix3 b i l)) e

/-- The first result: the mapped rows, [4, 128, 200, 512]. -/
def mappedOut : (⟨4, ![4, 128, 200, 512]⟩ : Shape).Idx → EReal :=
  fun y => tokenRow a0 a1 a2 a4 a5 a6 ⟨(y 0).val, (y 0).isLt⟩ ⟨(y 1).val, (y 1).isLt⟩ ⟨(y 2).val, (y 2).isLt⟩ ⟨(y 3).val, (y 3).isLt⟩

/-- A logit result, [4, 128, 200]. -/
def logitOut (ix : (⟨3, ![128, 4, 200]⟩ : Shape).Idx → BitVec 32) : (⟨3, ![4, 128, 200]⟩ : Shape).Idx → EReal :=
  fun y => tokenLogit a0 a1 a2 a3 a4 a5 a6 ix ⟨(y 0).val, (y 0).isLt⟩ ⟨(y 1).val, (y 1).isLt⟩ ⟨(y 2).val, (y 2).isLt⟩

/-- The sequence and the position of flat token n. -/
def seqOf (n : Fin 25600) : Fin 128 := ⟨n.val / 200, by have := n.isLt; omega⟩
def posOf (n : Fin 25600) : Fin 200 := ⟨n.val % 200, Nat.mod_lt _ (by norm_num)⟩

theorem flat_split (n : Fin 25600) : n.val = (seqOf n).val * 200 + (posOf n).val := by
  show n.val = n.val / 200 * 200 + n.val % 200
  omega

/-- The mapped rows over the flat token axis, [4, 25600, 512]. -/
def mappedFlat : (⟨3, ![4, 25600, 512]⟩ : Shape).Idx → EReal :=
  fun y => tokenRow a0 a1 a2 a4 a5 a6 ⟨(y 0).val, (y 0).isLt⟩ (seqOf ⟨(y 1).val, (y 1).isLt⟩) (posOf ⟨(y 1).val, (y 1).isLt⟩) ⟨(y 2).val, (y 2).isLt⟩

/-- A logit array over the flat token axis, [4, 25600]. -/
def logitFlat (ix : (⟨3, ![128, 4, 200]⟩ : Shape).Idx → BitVec 32) : (⟨2, ![4, 25600]⟩ : Shape).Idx → EReal :=
  fun y => tokenLogit a0 a1 a2 a3 a4 a5 a6 ix ⟨(y 0).val, (y 0).isLt⟩ (seqOf ⟨(y 1).val, (y 1).isLt⟩) (posOf ⟨(y 1).val, (y 1).isLt⟩)

end Cert.MoeSpec

end
-- ==== Proof.Arrays.lean ====
/-
  What the host operations before the region leave in the arrays the windows stage, read at an index, on the extended
  reals: the features flattened over (sequence, position), the gates, the two gathered embedding arrays and the
  transposed weights, each as a plain function of the argument arrays as launched. The flat token n = 200 · b + l of
  domain i is the token (i, b, l).
-/
import proofs.«142547_j72447508349152_1_alg».proof.Proof.Gen.KernelIdeal.Frame
import proofs.«142547_j72447508349152_1_alg».proof.Proof.Spec
import Idealize.ShloMosaic.Lib.StableHlo.Run
import Idealize.ShloMosaic.Lib.Pipeline.Value
import Idealize.ShloMosaic.Lib.ValueIdx

noncomputable section

namespace Cert.KernelIdeal.Arrays

open Idealize.ShloMosaic Idealize.ShloMosaic.TcCoe Idealize.SL.Sem Idealize.ShloMosaic.StableHlo Idealize.ShloMosaic.ValueIdx
open Cert.KernelIdeal Cert.KernelIdeal.Gen

/-! ## Two layout readings -/

/-- An integer [128, 4, 200] array with its first two axes swapped and then flattened to [4, 25600] reads, at
    (i, 200 · b + l), the array's entry (b, i, l). -/
theorem flat_int_apply {α : Type} (X : S128x4x200.Idx → α) (i : Fin 4) (b : Fin 128) (l : Fin 200) (n : Fin 25600)
    (hn : n.val = b.val * 200 + l.val) :
    shapeCast S4x25600 (transpose S4x128x200 [1, 0, 2] X transposes_S128x4x200_S4x128x200_1_0_2) shapeCasts_S4x128x200_S4x25600 (ix2 i n)
      = X (ix3 b i l) :=
  (shapeCast_apply _ _ (ix2 i n) (ix3 i b l) (by
    rw [Shape.rowMajor_val_three, Shape.rowMajor_val_two]
    show (i.val * 128 + b.val) * 200 + l.val = i.val * 25600 + n.val
    omega)).trans
  (transpose_apply [1, 0, 2] X transposes_S128x4x200_S4x128x200_1_0_2 (ix3 i b l) (ix3 b i l) (fun a => match a with
    | ⟨0, _⟩ => rfl
    | ⟨1, _⟩ => rfl
    | ⟨2, _⟩ => rfl))

/-- A row lookup in the [100002, 512] table: the gathered array holds, at (i, n, e), the table's entry (row, e), the
    row being the start index at (i, n, 0) read signed and clamped into the table. -/
theorem gather_row {α : Type} (x : S100002x512.Idx → α) (idx : IVec S4x25600x1 32) (i : Fin 4) (n : Fin 25600) (e : Fin 512) :
    Host.gather gather_S100002x512_S4x25600x1_S4x25600x512_2_0_n_n_0_2_1512 x idx (ix3 i n e)
      = x (ix2 (⟨min (idx (ix3 i n (0 : Fin 1))).toInt.toNat (100002 - 1), by omega⟩ : Fin 100002) e) := by
  unfold Host.gather
  congr 1
  funext a
  refine Fin.ext ?_
  match a with
  | ⟨0, _⟩ =>
    show gather_S100002x512_S4x25600x1_S4x25600x512_2_0_n_n_0_2_1512.start (ix3 i n e) idx 0 + gather_S100002x512_S4x25600x1_S4x25600x512_2_0_n_n_0_2_1512.batchCoord (ix3 i n e) 0 + gather_S100002x512_S4x25600x1_S4x25600x512_2_0_n_n_0_2_1512.offCoord (ix3 i n e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100002x512_S4x25600x1_S4x25600x512_2_0_n_n_0_2_1512.startIndexMap from List.mem_singleton.mpr rfl)]
    have hsi : gather_S100002x512_S4x25600x1_S4x25600x512_2_0_n_n_0_2_1512.siIdx (ix3 i n e) ⟨List.idxOf (0 : Fin 2) gather_S100002x512_S4x25600x1_S4x25600x512_2_0_n_n_0_2_1512.startIndexMap,
        List.idxOf_lt_length_iff.2 (List.mem_singleton.mpr rfl)⟩ = ix3 i n (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100002x512_S4x25600x1_S4x25600x512_2_0_n_n_0_2_1512.start (ix3 i n e) idx 1 + gather_S100002x512_S4x25600x1_S4x25600x512_2_0_n_n_0_2_1512.batchCoord (ix3 i n e) 1 + gather_S100002x512_S4x25600x1_S4x25600x512_2_0_n_n_0_2_1512.offCoord (ix3 i n e) 1 = e.val
    rw [GatherDims.batchCoord_eq_zero _ _ _ List.not_mem_nil]
    unfold GatherDims.start GatherDims.offCoord
    rw [dif_neg (show ¬ (1 : Fin 2) ∈ gather_S100002x512_S4x25600x1_S4x25600x512_2_0_n_n_0_2_1512.startIndexMap by decide), dif_pos (show (1 : Fin 2) ∈ gather_S100002x512_S4x25600x1_S4x25600x512_2_0_n_n_0_2_1512.sKept by decide)]
    simp only [Nat.zero_add, Nat.add_zero]
    rfl

variable (m : (ℓ : Loc nD τ sig) → Buf (Elt Ideal) ℓ) (c : Dev nD)

/-! ## The argument arrays as launched -/

abbrev A0 : S4x128x200x512.Idx → EReal := m ((c : Thread nD τ).loc main_arg0)
abbrev A1 : S4x512x512.Idx → EReal := m ((c : Thread nD τ).loc main_arg1)
abbrev A2 : S4x512.Idx → EReal := m ((c : Thread nD τ).loc main_arg2)
abbrev A3 : S100002x512.Idx → EReal := m ((c : Thread nD τ).loc main_arg3)
abbrev A4 : S512.Idx → EReal := m ((c : Thread nD τ).loc main_arg4)
abbrev A5 : S512.Idx → EReal := m ((c : Thread nD τ).loc main_arg5)
abbrev A6 : S128x4x200.Idx → BitVec 32 := m ((c : Thread nD τ).loc main_arg6)
abbrev A7 : S128x4x200.Idx → BitVec 32 := m ((c : Thread nD τ).loc main_arg7)
abbrev A8 : S128x4x200.Idx → BitVec 32 := m ((c : Thread nD τ).loc main_arg8)

/-! ## The staged arrays -/

set_option maxHeartbeats 2000000 in
/-- The feature array the first window stages: the features flattened over (sequence, position). -/
theorem features_apply (i : Fin 4) (b : Fin 128) (l : Fin 200) (n : Fin 25600) (hn : n.val = b.val * 200 + l.val) (k : Fin 512) :
    (V m c main_v1 : S4x25600x512.Idx → EReal) (ix3 i n k) = A0 m c (ix4 i b l k) := by
  have hV : (V m c main_v1 : S4x25600x512.Idx → EReal) = (truncf (F := Ideal) .bf16 (shapeCast S4x25600x512 (A0 m c) shapeCasts_S4x128x200x512_S4x25600x512) bitsLt_bf16_f32) := by
    show StableHlo.after hostOps0 (fun b => m (c, b)) (Proc.devRef .tc main_v1) = _
    after_results
    try rfl
  rw [hV]
  show shapeCast S4x25600x512 (A0 m c) shapeCasts_S4x128x200x512_S4x25600x512 (ix3 i n k) = _
  exact shapeCast_apply _ _ _ _ (by
    rw [Shape.rowMajor_val_four, Shape.rowMajor_val_three]
    show ((i.val * 128 + b.val) * 200 + l.val) * 512 + k.val = (i.val * 25600 + n.val) * 512 + k.val
    omega)

set_option maxHeartbeats 2000000 in
/-- The weight array the fifth window stages: each expert's weights with outputs and features swapped. -/
theorem weights_apply (j : Fin 4) (k e : Fin 512) :
    (V m c main_v34 : S4x512x512.Idx → EReal) (ix3 j k e) = A1 m c (ix3 j e k) := by
  have hV : (V m c main_v34 : S4x512x512.Idx → EReal) = (truncf (F := Ideal) .bf16 (transpose S4x512x512 [0, 2, 1] (A1 m c) transposes_S4x512x512_S4x512x512_0_2_1) bitsLt_bf16_f32) := by
    show StableHlo.after hostOps0 (fun b => m (c, b)) (Proc.devRef .tc main_v34) = _
    after_results
    try rfl
  rw [hV]
  show transpose S4x512x512 [0, 2, 1] (A1 m c) transposes_S4x512x512_S4x512x512_0_2_1 (ix3 j k e) = _
  exact transpose_apply [0, 2, 1] _ _ (ix3 j k e) (ix3 j e k) (fun a => match a with
    | ⟨0, _⟩ => rfl
    | ⟨1, _⟩ => rfl
    | ⟨2, _⟩ => rfl)

set_option maxHeartbeats 2000000 in
/-- The gate array the second window stages: at (i, j, 200 · b + l), the gate of expert j for token (i, b, l). -/
theorem gates_apply (i j : Fin 4) (b : Fin 128) (l : Fin 200) (n : Fin 25600) (hn : n.val = b.val * 200 + l.val) :
    (V m c main_v32 : S4x4x25600.Idx → EReal) (ix3 i j n) = Cert.MoeSpec.gateOf (A6 m c (ix3 b i l)) j := by
  have hV : (V m c main_v32 : S4x4x25600.Idx → EReal) = (uitofp (F := Ideal) .f32 (cmpi .eq (broadcastInDim S4x4x25600 ![0, 1, 2] bcast_S4x1x25600_S4x4x25600_0_1_2
        (broadcastInDim S4x1x25600 ![0, 2] bcast_S4x25600_S4x1x25600_0_2 (shapeCast S4x25600 (transpose S4x128x200 [1, 0, 2] (A6 m c) transposes_S128x4x200_S4x128x200_1_0_2) shapeCasts_S4x128x200_S4x25600)))
      (broadcastInDim S4x4x25600 ![0, 1, 2] bcast_S1x4x1_S4x4x25600_0_1_2
        (addi (broadcastInDim S1x4x1 ![1] bcast_S4_S1x4x1_1 (iotaInDim S4 32 0))
          (broadcastInDim S1x4x1 ![] bcast_S_S1x4x1 (constantI S_ 32 1#32)))))) := by
    show StableHlo.after hostOps0 (fun b => m (c, b)) (Proc.devRef .tc main_v32) = _
    after_results
    try rfl
  rw [hV]
  unfold Cert.MoeSpec.gateOf
  have hlbl : broadcastInDim S4x4x25600 ![0, 1, 2] bcast_S4x1x25600_S4x4x25600_0_1_2
        (broadcastInDim S4x1x25600 ![0, 2] bcast_S4x25600_S4x1x25600_0_2
          (shapeCast S4x25600 (transpose S4x128x200 [1, 0, 2] (A6 m c) transposes_S128x4x200_S4x128x200_1_0_2) shapeCasts_S4x128x200_S4x25600))
        (ix3 i j n) = A6 m c (ix3 b i l) :=
    (broadcastInDim_apply _ _ _ (ix3 i j n) (ix3 i (0 : Fin 1) n) (fun a => match a with
      | ⟨0, _⟩ => by show i.val = if (4 : Nat) = 1 then 0 else i.val; rw [if_neg (by decide)]
      | ⟨1, _⟩ => by show 0 = if (1 : Nat) = 1 then 0 else j.val; rw [if_pos rfl]
      | ⟨2, _⟩ => by show n.val = if (25600 : Nat) = 1 then 0 else n.val; rw [if_neg (by decide)])).trans
    ((broadcastInDim_apply _ _ _ (ix3 i (0 : Fin 1) n) (ix2 i n) (fun a => match a with
      | ⟨0, _⟩ => by show i.val = if (4 : Nat) = 1 then 0 else i.val; rw [if_neg (by decide)]
      | ⟨1, _⟩ => by show n.val = if (25600 : Nat) = 1 then 0 else n.val; rw [if_neg (by decide)])).trans
      (flat_int_apply (A6 m c) i b l n hn))
  have hexp : broadcastInDim S4x4x25600 ![0, 1, 2] bcast_S1x4x1_S4x4x25600_0_1_2
        (addi (broadcastInDim S1x4x1 ![1] bcast_S4_S1x4x1_1 (iotaInDim S4 32 0))
          (broadcastInDim S1x4x1 ![] bcast_S_S1x4x1 (constantI S_ 32 1#32)))
        (ix3 i j n) = IntOp.addi (BitVec.ofNat 32 j.val) 1#32 :=
    (broadcastInDim_apply _ _ _ (ix3 i j n) (ix3 (0 : Fin 1) j (0 : Fin 1)) (fun a => match a with
      | ⟨0, _⟩ => by show 0 = if (1 : Nat) = 1 then 0 else i.val; rw [if_pos rfl]
      | ⟨1, _⟩ => by show j.val = if (4 : Nat) = 1 then 0 else j.val; rw [if_neg (by decide)]
      | ⟨2, _⟩ => by show 0 = if (1 : Nat) = 1 then 0 else n.val; rw [if_pos rfl])).trans
    (congrArg₂ IntOp.addi
      (broadcastInDim_apply _ bcast_S4_S1x4x1_1 (iotaInDim S4 32 0) (ix3 (0 : Fin 1) j (0 : Fin 1)) (ix1 j) (fun a => match a with
        | ⟨0, _⟩ => by show j.val = if (4 : Nat) = 1 then 0 else j.val; rw [if_neg (by decide)]))
      (broadcastInDim_apply _ bcast_S_S1x4x1 (constantI S_ 32 1#32) (ix3 (0 : Fin 1) j (0 : Fin 1)) ix0 (fun a => a.elim0)))
  show FloatOps.uitofp .f32 (IntOp.cmpi .eq _ _) = _
  exact congrArg₂ (fun (u v : BitVec 32) => FloatOps.uitofp (F := Ideal) .f32 (IntOp.cmpi .eq u v)) hlbl hexp

set_option maxHeartbeats 2000000 in
/-- The first embedding array the third window stages: at (i, 200 · b + l, e), the table row the first index array selects for token (i, b, l), at column e. -/
theorem posEmb_apply (i : Fin 4) (b : Fin 128) (l : Fin 200) (n : Fin 25600) (hn : n.val = b.val * 200 + l.val) (e : Fin 512) :
    (V m c main_v15 : S4x25600x512.Idx → EReal) (ix3 i n e) = Cert.MoeSpec.embRow (A3 m c) (A7 m c (ix3 b i l)) e := by
  have hV : (V m c main_v15 : S4x25600x512.Idx → EReal) = (truncf (F := Ideal) .bf16 (Host.gather gather_S100002x512_S4x25600x1_S4x25600x512_2_0_n_n_0_2_1512 (A3 m c) (broadcastInDim S4x25600x1 ![0, 1] bcast_S4x25600_S4x25600x1_0_1
      (select (cmpi .slt (shapeCast S4x25600 (transpose S4x128x200 [1, 0, 2] (A7 m c) transposes_S128x4x200_S4x128x200_1_0_2) shapeCasts_S4x128x200_S4x25600) (broadcastInDim S4x25600 ![] bcast_S_S4x25600 (constantI S_ 32 0#32)))
        (addi (shapeCast S4x25600 (transpose S4x128x200 [1, 0, 2] (A7 m c) transposes_S128x4x200_S4x128x200_1_0_2) shapeCasts_S4x128x200_S4x25600) (broadcastInDim S4x25600 ![] bcast_S_S4x25600 (constantI S_ 32 100002#32))) (shapeCast S4x25600 (transpose S4x128x200 [1, 0, 2] (A7 m c) transposes_S128x4x200_S4x128x200_1_0_2) shapeCasts_S4x128x200_S4x25600)))) bitsLt_bf16_f32) := by
    show StableHlo.after hostOps0 (fun b => m (c, b)) (Proc.devRef .tc main_v15) = _
    after_results
    try rfl
  rw [hV]
  refine (gather_row (A3 m c) _ i n e).trans ?_
  unfold Cert.MoeSpec.embRow Cert.MoeSpec.wrapIdx
  have hix : ∀ (X : IVec S4x25600 32), broadcastInDim S4x25600x1 ![0, 1] bcast_S4x25600_S4x25600x1_0_1 X (ix3 i n (0 : Fin 1)) = X (ix2 i n) := fun X =>
    broadcastInDim_apply _ _ X (ix3 i n (0 : Fin 1)) (ix2 i n) (fun a => match a with
      | ⟨0, _⟩ => by show i.val = if (4 : Nat) = 1 then 0 else i.val; rw [if_neg (by decide)]
      | ⟨1, _⟩ => by show n.val = if (25600 : Nat) = 1 then 0 else n.val; rw [if_neg (by decide)])
  have hflat : shapeCast S4x25600 (transpose S4x128x200 [1, 0, 2] (A7 m c) transposes_S128x4x200_S4x128x200_1_0_2) shapeCasts_S4x128x200_S4x25600 (ix2 i n)
      = A7 m c (ix3 b i l) := flat_int_apply (A7 m c) i b l n hn
  refine congrArg (fun (z : BitVec 32) => A3 m c (ix2 (⟨min z.toInt.toNat (100002 - 1), by omega⟩ : Fin 100002) e)) ?_
  refine (hix _).trans ?_
  show Scalar.select (IntOp.cmpi .slt _ _) (IntOp.addi _ _) _ = _
  exact congrArg (fun (z : BitVec 32) => Scalar.select (IntOp.cmpi .slt z 0#32) (IntOp.addi z 100002#32) z) hflat

set_option maxHeartbeats 2000000 in
/-- The second embedding array the fourth window stages: the same for the second index array. -/
theorem negEmb_apply (i : Fin 4) (b : Fin 128) (l : Fin 200) (n : Fin 25600) (hn : n.val = b.val * 200 + l.val) (e : Fin 512) :
    (V m c main_v23 : S4x25600x512.Idx → EReal) (ix3 i n e) = Cert.MoeSpec.embRow (A3 m c) (A8 m c (ix3 b i l)) e := by
  have hV : (V m c main_v23 : S4x25600x512.Idx → EReal) = (truncf (F := Ideal) .bf16 (Host.gather gather_S100002x512_S4x25600x1_S4x25600x512_2_0_n_n_0_2_1512 (A3 m c) (broadcastInDim S4x25600x1 ![0, 1] bcast_S4x25600_S4x25600x1_0_1
      (select (cmpi .slt (shapeCast S4x25600 (transpose S4x128x200 [1, 0, 2] (A8 m c) transposes_S128x4x200_S4x128x200_1_0_2) shapeCasts_S4x128x200_S4x25600) (broadcastInDim S4x25600 ![] bcast_S_S4x25600 (constantI S_ 32 0#32)))
        (addi (shapeCast S4x25600 (transpose S4x128x200 [1, 0, 2] (A8 m c) transposes_S128x4x200_S4x128x200_1_0_2) shapeCasts_S4x128x200_S4x25600) (broadcastInDim S4x25600 ![] bcast_S_S4x25600 (constantI S_ 32 100002#32))) (shapeCast S4x25600 (transpose S4x128x200 [1, 0, 2] (A8 m c) transposes_S128x4x200_S4x128x200_1_0_2) shapeCasts_S4x128x200_S4x25600)))) bitsLt_bf16_f32) := by
    show StableHlo.after hostOps0 (fun b => m (c, b)) (Proc.devRef .tc main_v23) = _
    after_results
    try rfl
  rw [hV]
  refine (gather_row (A3 m c) _ i n e).trans ?_
  unfold Cert.MoeSpec.embRow Cert.MoeSpec.wrapIdx
  have hix : ∀ (X : IVec S4x25600 32), broadcastInDim S4x25600x1 ![0, 1] bcast_S4x25600_S4x25600x1_0_1 X (ix3 i n (0 : Fin 1)) = X (ix2 i n) := fun X =>
    broadcastInDim_apply _ _ X (ix3 i n (0 : Fin 1)) (ix2 i n) (fun a => match a with
      | ⟨0, _⟩ => by show i.val = if (4 : Nat) = 1 then 0 else i.val; rw [if_neg (by decide)]
      | ⟨1, _⟩ => by show n.val = if (25600 : Nat) = 1 then 0 else n.val; rw [if_neg (by decide)])
  have hflat : shapeCast S4x25600 (transpose S4x128x200 [1, 0, 2] (A8 m c) transposes_S128x4x200_S4x128x200_1_0_2) shapeCasts_S4x128x200_S4x25600 (ix2 i n)
      = A8 m c (ix3 b i l) := flat_int_apply (A8 m c) i b l n hn
  refine congrArg (fun (z : BitVec 32) => A3 m c (ix2 (⟨min z.toInt.toNat (100002 - 1), by omega⟩ : Fin 100002) e)) ?_
  refine (hix _).trans ?_
  show Scalar.select (IntOp.cmpi .slt _ _) (IntOp.addi _ _) _ = _
  exact congrArg (fun (z : BitVec 32) => Scalar.select (IntOp.cmpi .slt z 0#32) (IntOp.addi z 100002#32) z) hflat

end Cert.KernelIdeal.Arrays

end
-- ==== Proof.Flush.lean ====
/-
  What each grid point writes back, and what the three output arrays hold after the last point, on the extended reals.

  Point t stages tokens 256 · t … 256 · t + 255 of every domain: its feature, embedding and mapped blocks are the rows
  (i, 256 · t + r, ·) of their arrays, its gate block the entries (i, j, 256 · t + r), its logit blocks the entries
  (i, 256 · t + r); weights, biases, scale and shift are staged whole. So the block's token (i, r) is the flat token
  256 · t + r of domain i, what point t writes back is a block of one whole-array function, and the hundred points'
  blocks cover each output array.
-/
import proofs.«142547_j72447508349152_1_alg».proof.Proof.Blocks
import proofs.«142547_j72447508349152_1_alg».proof.Proof.Arrays

noncomputable section

open scoped BigOperators

namespace Cert.KernelIdeal.Flush

open Idealize.ShloMosaic Idealize.ShloMosaic.TcCoe Idealize.SL.Sem Idealize.ShloMosaic.ValueIdx
open Cert.KernelIdeal Cert.KernelIdeal.Gen Cert.KernelIdeal.Arrays

/-- The mapped row depends only on the values of its arguments. -/
theorem mapped_congr {x x' : Fin 512 → EReal} {w w' : Fin 4 → Fin 512 → Fin 512 → EReal} {b b' : Fin 4 → Fin 512 → EReal}
    {g g' : Fin 4 → EReal} {γ γ' β β' : Fin 512 → EReal} (cc ε : EReal)
    (hx : x' = x) (hw : w' = w) (hb : b' = b) (hg : g' = g) (hγ : γ' = γ) (hβ : β' = β) :
    Cert.MoeRow.mapped x' w' b' g' γ' β' cc ε = Cert.MoeRow.mapped x w b g γ β cc ε := by
  subst hx hw hb hg hγ hβ; rfl

/-! ## Where each window's block sits -/

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
/-- Window 0's block at point t sits at tokens 256 · t … 256 · t + 255 of every domain. -/
theorem emb0 (t : Fin cfg0.N) (i : Fin 4) (r : Fin 256) (k : Fin 512) (n : Fin 25600) (hn : n.val = t.val * 256 + r.val) :
    ((cfg0.win 0).blk t).view.emb (ix3 i r k) = ix3 i n k := by
  obtain ⟨e0, e1, e2⟩ := idx0 t
  funext a; apply Fin.ext
  match a with
  | ⟨0, _⟩ => show win0_0.index t (0 : Fin 3) * 4 + 1 * i.val = i.val; omega
  | ⟨1, _⟩ => show win0_0.index t (1 : Fin 3) * 256 + 1 * r.val = n.val; omega
  | ⟨2, _⟩ => show win0_0.index t (2 : Fin 3) * 512 + 1 * k.val = k.val; omega

theorem idx2 : ∀ t : Fin cfg0.N, win0_2.index t (0 : Fin 3) = 0 ∧ win0_2.index t (1 : Fin 3) = t.val ∧ win0_2.index t (2 : Fin 3) = 0 :=
  (by decide +kernel : ∀ t : Fin grid0.N, _)
/-- Window 2's block at point t sits at tokens 256 · t … 256 · t + 255 of every domain. -/
theorem emb2 (t : Fin cfg0.N) (i : Fin 4) (r : Fin 256) (k : Fin 512) (n : Fin 25600) (hn : n.val = t.val * 256 + r.val) :
    ((cfg0.win 2).blk t).view.emb (ix3 i r k) = ix3 i n k := by
  obtain ⟨e0, e1, e2⟩ := idx2 t
  funext a; apply Fin.ext
  match a with
  | ⟨0, _⟩ => show win0_2.index t (0 : Fin 3) * 4 + 1 * i.val = i.val; omega
  | ⟨1, _⟩ => show win0_2.index t (1 : Fin 3) * 256 + 1 * r.val = n.val; omega
  | ⟨2, _⟩ => show win0_2.index t (2 : Fin 3) * 512 + 1 * k.val = k.val; omega

theorem idx3 : ∀ t : Fin cfg0.N, win0_3.index t (0 : Fin 3) = 0 ∧ win0_3.index t (1 : Fin 3) = t.val ∧ win0_3.index t (2 : Fin 3) = 0 :=
  (by decide +kernel : ∀ t : Fin grid0.N, _)
/-- Window 3's block at point t sits at tokens 256 · t … 256 · t + 255 of every domain. -/
theorem emb3 (t : Fin cfg0.N) (i : Fin 4) (r : Fin 256) (k : Fin 512) (n : Fin 25600) (hn : n.val = t.val * 256 + r.val) :
    ((cfg0.win 3).blk t).view.emb (ix3 i r k) = ix3 i n k := by
  obtain ⟨e0, e1, e2⟩ := idx3 t
  funext a; apply Fin.ext
  match a with
  | ⟨0, _⟩ => show win0_3.index t (0 : Fin 3) * 4 + 1 * i.val = i.val; omega
  | ⟨1, _⟩ => show win0_3.index t (1 : Fin 3) * 256 + 1 * r.val = n.val; omega
  | ⟨2, _⟩ => show win0_3.index t (2 : Fin 3) * 512 + 1 * k.val = k.val; omega

theorem idx8 : ∀ t : Fin cfg0.N, win0_8.index t (0 : Fin 3) = 0 ∧ win0_8.index t (1 : Fin 3) = t.val ∧ win0_8.index t (2 : Fin 3) = 0 :=
  (by decide +kernel : ∀ t : Fin grid0.N, _)
/-- Window 8's block at point t sits at tokens 256 · t … 256 · t + 255 of every domain. -/
theorem emb8 (t : Fin cfg0.N) (i : Fin 4) (r : Fin 256) (k : Fin 512) (n : Fin 25600) (hn : n.val = t.val * 256 + r.val) :
    ((cfg0.win 8).blk t).view.emb (ix3 i r k) = ix3 i n k := by
  obtain ⟨e0, e1, e2⟩ := idx8 t
  funext a; apply Fin.ext
  match a with
  | ⟨0, _⟩ => show win0_8.index t (0 : Fin 3) * 4 + 1 * i.val = i.val; omega
  | ⟨1, _⟩ => show win0_8.index t (1 : Fin 3) * 256 + 1 * r.val = n.val; omega
  | ⟨2, _⟩ => show win0_8.index t (2 : Fin 3) * 512 + 1 * k.val = k.val; omega

theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)
/-- The gate window's block at point t sits at tokens 256 · t … 256 · t + 255 of every domain and expert. -/
theorem emb1 (t : Fin cfg0.N) (i j : Fin 4) (r : Fin 256) (n : Fin 25600) (hn : n.val = t.val * 256 + r.val) :
    ((cfg0.win 1).blk t).view.emb (ix3 i j r) = ix3 i j n := by
  obtain ⟨e0, e1, e2⟩ := idx1 t
  funext a; apply Fin.ext
  match a with
  | ⟨0, _⟩ => show win0_1.index t (0 : Fin 3) * 4 + 1 * i.val = i.val; omega
  | ⟨1, _⟩ => show win0_1.index t (1 : Fin 3) * 4 + 1 * j.val = j.val; omega
  | ⟨2, _⟩ => show win0_1.index t (2 : Fin 3) * 256 + 1 * r.val = n.val; omega

theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)
/-- The weights are staged whole. -/
theorem emb4 (t : Fin cfg0.N) (j : Fin 4) (k e : Fin 512) : ((cfg0.win 4).blk t).view.emb (ix3 j k e) = ix3 j k e := by
  obtain ⟨e0, e1, e2⟩ := idx4 t
  funext a; apply Fin.ext
  match a with
  | ⟨0, _⟩ => show win0_4.index t (0 : Fin 3) * 4 + 1 * j.val = j.val; omega
  | ⟨1, _⟩ => show win0_4.index t (1 : Fin 3) * 512 + 1 * k.val = k.val; omega
  | ⟨2, _⟩ => show win0_4.index t (2 : Fin 3) * 512 + 1 * e.val = e.val; omega

theorem idx5 : ∀ t : Fin cfg0.N, win0_5.index t (0 : Fin 2) = 0 ∧ win0_5.index t (1 : Fin 2) = 0 :=
  (by decide +kernel : ∀ t : Fin grid0.N, _)
/-- The biases are staged whole. -/
theorem emb5 (t : Fin cfg0.N) (j : Fin 4) (e : Fin 512) : ((cfg0.win 5).blk t).view.emb (ix2 j e) = ix2 j e := by
  obtain ⟨e0, e1⟩ := idx5 t
  funext a; apply Fin.ext
  match a with
  | ⟨0, _⟩ => show win0_5.index t (0 : Fin 2) * 4 + 1 * j.val = j.val; omega
  | ⟨1, _⟩ => show win0_5.index t (1 : Fin 2) * 512 + 1 * e.val = e.val; omega

theorem idx6 : ∀ t : Fin cfg0.N, win0_6.index t (0 : Fin 1) = 0 := (by decide +kernel : ∀ t : Fin grid0.N, _)
theorem idx7 : ∀ t : Fin cfg0.N, win0_7.index t (0 : Fin 1) = 0 := (by decide +kernel : ∀ t : Fin grid0.N, _)
/-- The scale and the shift are staged whole. -/
theorem emb6 (t : Fin cfg0.N) (e : Fin 512) : ((cfg0.win 6).blk t).view.emb (ix1 e) = ix1 e := by
  have e0 := idx6 t
  funext a; apply Fin.ext
  match a with
  | ⟨0, _⟩ => show win0_6.index t (0 : Fin 1) * 512 + 1 * e.val = e.val; omega
theorem emb7 (t : Fin cfg0.N) (e : Fin 512) : ((cfg0.win 7).blk t).view.emb (ix1 e) = ix1 e := by
  have e0 := idx7 t
  funext a; apply Fin.ext
  match a with
  | ⟨0, _⟩ => show win0_7.index t (0 : Fin 1) * 512 + 1 * e.val = e.val; omega

theorem idx9 : ∀ t : Fin cfg0.N, win0_9.index t (0 : Fin 2) = 0 ∧ win0_9.index t (1 : Fin 2) = t.val :=
  (by decide +kernel : ∀ t : Fin grid0.N, _)
/-- Window 9's block at point t sits at tokens 256 · t … 256 · t + 255 of every domain. -/
theorem emb9 (t : Fin cfg0.N) (i : Fin 4) (r : Fin 256) (n : Fin 25600) (hn : n.val = t.val * 256 + r.val) :
    ((cfg0.win 9).blk t).view.emb (ix2 i r) = ix2 i n := by
  obtain ⟨e0, e1⟩ := idx9 t
  funext a; apply Fin.ext
  match a with
  | ⟨0, _⟩ => show win0_9.index t (0 : Fin 2) * 4 + 1 * i.val = i.val; omega
  | ⟨1, _⟩ => show win0_9.index t (1 : Fin 2) * 256 + 1 * r.val = n.val; omega

theorem idx10 : ∀ t : Fin cfg0.N, win0_10.index t (0 : Fin 2) = 0 ∧ win0_10.index t (1 : Fin 2) = t.val :=
  (by decide +kernel : ∀ t : Fin grid0.N, _)
/-- Window 10's block at point t sits at tokens 256 · t … 256 · t + 255 of every domain. -/
theorem emb10 (t : Fin cfg0.N) (i : Fin 4) (r : Fin 256) (n : Fin 25600) (hn : n.val = t.val * 256 + r.val) :
    ((cfg0.win 10).blk t).view.emb (ix2 i r) = ix2 i n := by
  obtain ⟨e0, e1⟩ := idx10 t
  funext a; apply Fin.ext
  match a with
  | ⟨0, _⟩ => show win0_10.index t (0 : Fin 2) * 4 + 1 * i.val = i.val; omega
  | ⟨1, _⟩ => show win0_10.index t (1 : Fin 2) * 256 + 1 * r.val = n.val; omega

variable (m : (ℓ : Loc nD τ sig) → Buf (Elt Ideal) ℓ) (c : Dev nD)

/-! ## The block's token is a token of the arrays -/

/-- The token (i, r) of point t's blocks is the flat token n = 256 · t + r of domain i. -/
theorem block_token (t : Fin cfg0.N) (i : Fin 4) (r : Fin 256) (n : Fin 25600) (hn : n.val = t.val * 256 + r.val) :
    Blocks.blockToken (iblk m c 0 t) (iblk m c 1 t) (iblk m c 4 t) (iblk m c 5 t) (iblk m c 6 t) (iblk m c 7 t) i r = Cert.MoeSpec.tokenRow (A0 m c) (A1 m c) (A2 m c) (A4 m c) (A5 m c) (A6 m c) i (Cert.MoeSpec.seqOf n) (Cert.MoeSpec.posOf n) := by
  unfold Blocks.blockToken Cert.MoeSpec.tokenRow
  refine mapped_congr _ _ (funext fun k => ?_) (funext fun j => funext fun k => funext fun e => ?_) (funext fun j => funext fun e => ?_)
    (funext fun j => ?_) (funext fun e => ?_) (funext fun e => ?_)
  · show (V m c main_v1 : S4x25600x512.Idx → EReal) (((cfg0.win 0).blk t).view.emb (ix3 i r k)) = _
    rw [emb0 t i r k n hn]
    exact features_apply m c i _ _ n (Cert.MoeSpec.flat_split n) k
  · show (V m c main_v34 : S4x512x512.Idx → EReal) (((cfg0.win 4).blk t).view.emb (ix3 j k e)) = _
    rw [emb4 t j k e]
    exact weights_apply m c j k e
  · show (V m c main_arg2 : S4x512.Idx → EReal) (((cfg0.win 5).blk t).view.emb (ix2 j e)) = _
    rw [emb5 t j e, V_main_arg2]
  · show (V m c main_v32 : S4x4x25600.Idx → EReal) (((cfg0.win 1).blk t).view.emb (ix3 i j r)) = _
    rw [emb1 t i j r n hn]
    exact gates_apply m c i j _ _ n (Cert.MoeSpec.flat_split n)
  · show (V m c main_arg4 : S512.Idx → EReal) (((cfg0.win 6).blk t).view.emb (ix1 e)) = _
    rw [emb6 t e, V_main_arg4]
  · show (V m c main_arg5 : S512.Idx → EReal) (((cfg0.win 7).blk t).view.emb (ix1 e)) = _
    rw [emb7 t e, V_main_arg5]

/-! ## What point t writes back -/

/-- The mapped block point t writes back is block t of the flat mapped array. -/
theorem flushed_mapped (t : Fin cfg0.N) :
    (dats m 0 c).flushed 8 t = ((cfg0.win 8).blk t).view.read (Elt Ideal) (Cert.MoeSpec.mappedFlat (A0 m c) (A1 m c) (A2 m c) (A4 m c) (A5 m c) (A6 m c)) := by
  show (cfg0.win 8).cut (grid0.coords t) ((dats m 0 c).after 8 t) = _
  rw [after0_8]
  refine funext fun (y : S4x256x512.Idx) => ?_
  obtain ⟨i, r, e, rfl⟩ : ∃ (i : Fin 4) (r : Fin 256) (e : Fin 512), y = ix3 i r e := ⟨y 0, y 1, y 2, eq_ix3 y⟩
  have ht : t.val < 100 := N_0 ▸ t.isLt
  obtain ⟨n, hn⟩ : ∃ n : Fin 25600, n.val = t.val * 256 + r.val := ⟨⟨t.val * 256 + r.val, by omega⟩, rfl⟩
  show out0_8 (iblk m c 0 t) (iblk m c 1 t) (iblk m c 2 t) (iblk m c 3 t) (iblk m c 4 t) (iblk m c 5 t) (iblk m c 6 t) (iblk m c 7 t) (ix3 i r e) = Cert.MoeSpec.mappedFlat (A0 m c) (A1 m c) (A2 m c) (A4 m c) (A5 m c) (A6 m c) (((cfg0.win 8).blk t).view.emb (ix3 i r e))
  rw [emb8 t i r e n hn]
  refine (congrFun (Blocks.out_mapped (iblk m c 0 t) (iblk m c 1 t) (iblk m c 2 t) (iblk m c 3 t) (iblk m c 4 t) (iblk m c 5 t) (iblk m c 6 t) (iblk m c 7 t)) (ix3 i r e)).trans ?_
  refine (Blocks.mappedBlock_at _ _ _ _ _ _ (ix3 i r e) i r e rfl rfl rfl).trans ?_
  exact congrFun (block_token m c t i r n hn) e

/-- The first logit block point t writes back is block t of the flat logit array of the first index array. -/
theorem flushed_pos (t : Fin cfg0.N) :
    (dats m 0 c).flushed 9 t = ((cfg0.win 9).blk t).view.read (Elt Ideal) (Cert.MoeSpec.logitFlat (A0 m c) (A1 m c) (A2 m c) (A3 m c) (A4 m c) (A5 m c) (A6 m c) (A7 m c)) := by
  show (cfg0.win 9).cut (grid0.coords t) ((dats m 0 c).after 9 t) = _
  rw [after0_9]
  refine funext fun (y : S4x256.Idx) => ?_
  obtain ⟨i, r, rfl⟩ : ∃ (i : Fin 4) (r : Fin 256), y = ix2 i r := ⟨y 0, y 1, eq_ix2 y⟩
  have ht : t.val < 100 := N_0 ▸ t.isLt
  obtain ⟨n, hn⟩ : ∃ n : Fin 25600, n.val = t.val * 256 + r.val := ⟨⟨t.val * 256 + r.val, by omega⟩, rfl⟩
  show out0_9 (iblk m c 0 t) (iblk m c 1 t) (iblk m c 2 t) (iblk m c 3 t) (iblk m c 4 t) (iblk m c 5 t) (iblk m c 6 t) (iblk m c 7 t) (ix2 i r) = Cert.MoeSpec.logitFlat (A0 m c) (A1 m c) (A2 m c) (A3 m c) (A4 m c) (A5 m c) (A6 m c) (A7 m c) (((cfg0.win 9).blk t).view.emb (ix2 i r))
  rw [emb9 t i r n hn]
  refine (congrFun (Blocks.out_pos (iblk m c 0 t) (iblk m c 1 t) (iblk m c 2 t) (iblk m c 3 t) (iblk m c 4 t) (iblk m c 5 t) (iblk m c 6 t) (iblk m c 7 t)) (ix2 i r)).trans ?_
  refine (Blocks.logitBlock_at _ _ _ _ _ _ _ (ix2 i r) i r rfl rfl).trans ?_
  show _ = Cert.MoeSpec.tokenLogit (A0 m c) (A1 m c) (A2 m c) (A3 m c) (A4 m c) (A5 m c) (A6 m c) (A7 m c) i (Cert.MoeSpec.seqOf n) (Cert.MoeSpec.posOf n)
  unfold Cert.MoeSpec.tokenLogit
  refine Finset.sum_congr rfl fun e _ => ?_
  rw [block_token m c t i r n hn]
  refine congrArg (fun z : EReal => Cert.MoeSpec.tokenRow (A0 m c) (A1 m c) (A2 m c) (A4 m c) (A5 m c) (A6 m c) i (Cert.MoeSpec.seqOf n) (Cert.MoeSpec.posOf n) e * z) ?_
  show (V m c main_v15 : S4x25600x512.Idx → EReal) (((cfg0.win 2).blk t).view.emb (ix3 i r e)) = _
  rw [emb2 t i r e n hn]
  exact posEmb_apply m c i _ _ n (Cert.MoeSpec.flat_split n) e

/-- The second logit block point t writes back is block t of the flat logit array of the second index array. -/
theorem flushed_neg (t : Fin cfg0.N) :
    (dats m 0 c).flushed 10 t = ((cfg0.win 10).blk t).view.read (Elt Ideal) (Cert.MoeSpec.logitFlat (A0 m c) (A1 m c) (A2 m c) (A3 m c) (A4 m c) (A5 m c) (A6 m c) (A8 m c)) := by
  show (cfg0.win 10).cut (grid0.coords t) ((dats m 0 c).after 10 t) = _
  rw [after0_10]
  refine funext fun (y : S4x256.Idx) => ?_
  obtain ⟨i, r, rfl⟩ : ∃ (i : Fin 4) (r : Fin 256), y = ix2 i r := ⟨y 0, y 1, eq_ix2 y⟩
  have ht : t.val < 100 := N_0 ▸ t.isLt
  obtain ⟨n, hn⟩ : ∃ n : Fin 25600, n.val = t.val * 256 + r.val := ⟨⟨t.val * 256 + r.val, by omega⟩, rfl⟩
  show out0_10 (iblk m c 0 t) (iblk m c 1 t) (iblk m c 2 t) (iblk m c 3 t) (iblk m c 4 t) (iblk m c 5 t) (iblk m c 6 t) (iblk m c 7 t) (ix2 i r) = Cert.MoeSpec.logitFlat (A0 m c) (A1 m c) (A2 m c) (A3 m c) (A4 m c) (A5 m c) (A6 m c) (A8 m c) (((cfg0.win 10).blk t).view.emb (ix2 i r))
  rw [emb10 t i r n hn]
  refine (congrFun (Blocks.out_neg (iblk m c 0 t) (iblk m c 1 t) (iblk m c 2 t) (iblk m c 3 t) (iblk m c 4 t) (iblk m c 5 t) (iblk m c 6 t) (iblk m c 7 t)) (ix2 i r)).trans ?_
  refine (Blocks.logitBlock_at _ _ _ _ _ _ _ (ix2 i r) i r rfl rfl).trans ?_
  show _ = Cert.MoeSpec.tokenLogit (A0 m c) (A1 m c) (A2 m c) (A3 m c) (A4 m c) (A5 m c) (A6 m c) (A8 m c) i (Cert.MoeSpec.seqOf n) (Cert.MoeSpec.posOf n)
  unfold Cert.MoeSpec.tokenLogit
  refine Finset.sum_congr rfl fun e _ => ?_
  rw [block_token m c t i r n hn]
  refine congrArg (fun z : EReal => Cert.MoeSpec.tokenRow (A0 m c) (A1 m c) (A2 m c) (A4 m c) (A5 m c) (A6 m c) i (Cert.MoeSpec.seqOf n) (Cert.MoeSpec.posOf n) e * z) ?_
  show (V m c main_v23 : S4x25600x512.Idx → EReal) (((cfg0.win 3).blk t).view.emb (ix3 i r e)) = _
  rw [emb3 t i r e n hn]
  exact negEmb_apply m c i _ _ n (Cert.MoeSpec.flat_split n) e

/-! ## The blocks cover the arrays -/

/-- An index of the mapped array is in point t's block iff each coordinate is in the block's range on its axis. -/
theorem mem_blk8 (t : Fin cfg0.N) (i : S4x25600x512.Idx) :
    i ∈ ((cfg0.win 8).blk t).view.set ↔ ∀ a : Fin 3, win0_8.index t a * S4x256x512.size a ≤ (i a).val ∧ (i a).val < win0_8.index t a * S4x256x512.size a + S4x256x512.size a := by
  show i ∈ ((View.whole main_v35_0).slice (win0_8.rect t)).set ↔ _
  rw [View.set_slice_whole, Rect.mem_set_unit]
  exact Iff.rfl

/-- Every index of the mapped array is in the block of the point its token falls to. -/
theorem cover8 (i : S4x25600x512.Idx) : ∃ t : Fin cfg0.N, (cfg0.win 8).flush t = true ∧ i ∈ ((cfg0.win 8).blk t).view.set := by
  have h0 : (i 0).val < 4 := (i 0).isLt
  have h1 : (i 1).val < 25600 := (i 1).isLt
  have h2 : (i 2).val < 512 := (i 2).isLt
  obtain ⟨t, ht⟩ : ∃ t : Fin cfg0.N, t.val = (i 1).val / 256 := ⟨⟨(i 1).val / 256, by rw [show cfg0.N = 100 from N_0]; omega⟩, rfl⟩
  refine ⟨t, flush0_8 t, ?_⟩
  rw [mem_blk8]
  obtain ⟨e0, e1, e2⟩ := idx8 t
  intro a
  match a with
  | ⟨0, _⟩ => show win0_8.index t (0 : Fin 3) * 4 ≤ (i 0).val ∧ (i 0).val < win0_8.index t (0 : Fin 3) * 4 + 4; omega
  | ⟨1, _⟩ => show win0_8.index t (1 : Fin 3) * 256 ≤ (i 1).val ∧ (i 1).val < win0_8.index t (1 : Fin 3) * 256 + 256; omega
  | ⟨2, _⟩ => show win0_8.index t (2 : Fin 3) * 512 ≤ (i 2).val ∧ (i 2).val < win0_8.index t (2 : Fin 3) * 512 + 512; omega

theorem mem_blk9 (t : Fin cfg0.N) (i : S4x25600.Idx) :
    i ∈ ((cfg0.win 9).blk t).view.set ↔ ∀ a : Fin 2, win0_9.index t a * S4x256.size a ≤ (i a).val ∧ (i a).val < win0_9.index t a * S4x256.size a + S4x256.size a := by
  show i ∈ ((View.whole main_v35_1).slice (win0_9.rect t)).set ↔ _
  rw [View.set_slice_whole, Rect.mem_set_unit]
  exact Iff.rfl

theorem cover9 (i : S4x25600.Idx) : ∃ t : Fin cfg0.N, (cfg0.win 9).flush t = true ∧ i ∈ ((cfg0.win 9).blk t).view.set := by
  have h0 : (i 0).val < 4 := (i 0).isLt
  have h1 : (i 1).val < 25600 := (i 1).isLt
  obtain ⟨t, ht⟩ : ∃ t : Fin cfg0.N, t.val = (i 1).val / 256 := ⟨⟨(i 1).val / 256, by rw [show cfg0.N = 100 from N_0]; omega⟩, rfl⟩
  refine ⟨t, flush0_9 t, ?_⟩
  rw [mem_blk9]
  obtain ⟨e0, e1⟩ := idx9 t
  intro a
  match a with
  | ⟨0, _⟩ => show win0_9.index t (0 : Fin 2) * 4 ≤ (i 0).val ∧ (i 0).val < win0_9.index t (0 : Fin 2) * 4 + 4; omega
  | ⟨1, _⟩ => show win0_9.index t (1 : Fin 2) * 256 ≤ (i 1).val ∧ (i 1).val < win0_9.index t (1 : Fin 2) * 256 + 256; omega

theorem mem_blk10 (t : Fin cfg0.N) (i : S4x25600.Idx) :
    i ∈ ((cfg0.win 10).blk t).view.set ↔ ∀ a : Fin 2, win0_10.index t a * S4x256.size a ≤ (i a).val ∧ (i a).val < win0_10.index t a * S4x256.size a + S4x256.size a := by
  show i ∈ ((View.whole main_v35_2).slice (win0_10.rect t)).set ↔ _
  rw [View.set_slice_whole, Rect.mem_set_unit]
  exact Iff.rfl

theorem cover10 (i : S4x25600.Idx) : ∃ t : Fin cfg0.N, (cfg0.win 10).flush t = true ∧ i ∈ ((cfg0.win 10).blk t).view.set := by
  have h0 : (i 0).val < 4 := (i 0).isLt
  have h1 : (i 1).val < 25600 := (i 1).isLt
  obtain ⟨t, ht⟩ : ∃ t : Fin cfg0.N, t.val = (i 1).val / 256 := ⟨⟨(i 1).val / 256, by rw [show cfg0.N = 100 from N_0]; omega⟩, rfl⟩
  refine ⟨t, flush0_10 t, ?_⟩
  rw [mem_blk10]
  obtain ⟨e0, e1⟩ := idx10 t
  intro a
  match a with
  | ⟨0, _⟩ => show win0_10.index t (0 : Fin 2) * 4 ≤ (i 0).val ∧ (i 0).val < win0_10.index t (0 : Fin 2) * 4 + 4; omega
  | ⟨1, _⟩ => show win0_10.index t (1 : Fin 2) * 256 ≤ (i 1).val ∧ (i 1).val < win0_10.index t (1 : Fin 2) * 256 + 256; omega

/-! ## The output arrays after the last point -/

theorem final_mapped : (dats m 0 c).arrAt 8 cfg0.N = Cert.MoeSpec.mappedFlat (A0 m c) (A1 m c) (A2 m c) (A4 m c) (A5 m c) (A6 m c) :=
  (dats m 0 c).arrAt_eq_of_cover 8 (Cert.MoeSpec.mappedFlat (A0 m c) (A1 m c) (A2 m c) (A4 m c) (A5 m c) (A6 m c)) (fun t _ => flushed_mapped m c t) cover8

theorem final_pos : (dats m 0 c).arrAt 9 cfg0.N = Cert.MoeSpec.logitFlat (A0 m c) (A1 m c) (A2 m c) (A3 m c) (A4 m c) (A5 m c) (A6 m c) (A7 m c) :=
  (dats m 0 c).arrAt_eq_of_cover 9 (Cert.MoeSpec.logitFlat (A0 m c) (A1 m c) (A2 m c) (A3 m c) (A4 m c) (A5 m c) (A6 m c) (A7 m c)) (fun t _ => flushed_pos m c t) cover9

theorem final_neg : (dats m 0 c).arrAt 10 cfg0.N = Cert.MoeSpec.logitFlat (A0 m c) (A1 m c) (A2 m c) (A3 m c) (A4 m c) (A5 m c) (A6 m c) (A8 m c) :=
  (dats m 0 c).arrAt_eq_of_cover 10 (Cert.MoeSpec.logitFlat (A0 m c) (A1 m c) (A2 m c) (A3 m c) (A4 m c) (A5 m c) (A6 m c) (A8 m c)) (fun t _ => flushed_neg m c t) cover10

end Cert.KernelIdeal.Flush

end
-- ==== Proof.Whole.lean ====
/-
  The pipelined program's three results after the whole run, on the extended reals: the region leaves the flat mapped
  array and the two flat logit arrays, and the host lines after it only split the flat token axis back into
  (sequence, position), so the results are the mapped rows and the logits of the specification, and the arguments end
  unchanged.
-/
import proofs.«142547_j72447508349152_1_alg».proof.Proof.Flush
import Idealize.ShloMosaic.Lib.StableHlo.Run

noncomputable section

namespace Cert.KernelIdeal.Whole

open Idealize.ShloMosaic Idealize.ShloMosaic.TcCoe Idealize.SL.Sem Idealize.ShloMosaic.StableHlo Idealize.ShloMosaic.ValueIdx
open Cert.KernelIdeal Cert.KernelIdeal.Gen Cert.KernelIdeal.Arrays

/-- The flat mapped array at the flat token n = 200 · b + l is the mapped row of token (i, b, l). -/
theorem mappedFlat_at (a0 : (⟨4, ![4, 128, 200, 512]⟩ : Shape).Idx → EReal) (a1 : (⟨3, ![4, 512, 512]⟩ : Shape).Idx → EReal)
    (a2 : (⟨2, ![4, 512]⟩ : Shape).Idx → EReal) (a4 a5 : (⟨1, ![512]⟩ : Shape).Idx → EReal) (a6 : (⟨3, ![128, 4, 200]⟩ : Shape).Idx → BitVec 32)
    (i : Fin 4) (b : Fin 128) (l : Fin 200) (e : Fin 512) (n : Fin 25600) (hn : n.val = b.val * 200 + l.val) :
    Cert.MoeSpec.mappedFlat a0 a1 a2 a4 a5 a6 (ix3 i n e) = Cert.MoeSpec.tokenRow a0 a1 a2 a4 a5 a6 i b l e := by
  have hb : Cert.MoeSpec.seqOf n = b := Fin.ext (by show n.val / 200 = b.val; have := l.isLt; omega)
  have hl : Cert.MoeSpec.posOf n = l := Fin.ext (by show n.val % 200 = l.val; have := l.isLt; omega)
  show Cert.MoeSpec.tokenRow a0 a1 a2 a4 a5 a6 i (Cert.MoeSpec.seqOf n) (Cert.MoeSpec.posOf n) e = _
  rw [hb, hl]

/-- The same for a flat logit array. -/
theorem logitFlat_at (a0 : (⟨4, ![4, 128, 200, 512]⟩ : Shape).Idx → EReal) (a1 : (⟨3, ![4, 512, 512]⟩ : Shape).Idx → EReal)
    (a2 : (⟨2, ![4, 512]⟩ : Shape).Idx → EReal) (a3 : (⟨2, ![100002, 512]⟩ : Shape).Idx → EReal) (a4 a5 : (⟨1, ![512]⟩ : Shape).Idx → EReal)
    (a6 ix : (⟨3, ![128, 4, 200]⟩ : Shape).Idx → BitVec 32)
    (i : Fin 4) (b : Fin 128) (l : Fin 200) (n : Fin 25600) (hn : n.val = b.val * 200 + l.val) :
    Cert.MoeSpec.logitFlat a0 a1 a2 a3 a4 a5 a6 ix (ix2 i n) = Cert.MoeSpec.logitOut a0 a1 a2 a3 a4 a5 a6 ix (ix3 i b l) := by
  have hb : Cert.MoeSpec.seqOf n = b := Fin.ext (by show n.val / 200 = b.val; have := l.isLt; omega)
  have hl : Cert.MoeSpec.posOf n = l := Fin.ext (by show n.val % 200 = l.val; have := l.isLt; omega)
  show Cert.MoeSpec.tokenLogit a0 a1 a2 a3 a4 a5 a6 ix i (Cert.MoeSpec.seqOf n) (Cert.MoeSpec.posOf n) = Cert.MoeSpec.tokenLogit a0 a1 a2 a3 a4 a5 a6 ix i b l
  rw [hb, hl]

variable (m : (ℓ : Loc nD τ sig) → Buf (Elt Ideal) ℓ) (ρ : Dev nD → PrngReg) (c : Dev nD)

/-! ## The host lines after the region -/

set_option maxHeartbeats 2000000 in
theorem tail_mapped : Pipeline.afterTail₀ cfgs (dats m) 0 (V0 m) [hostOps1] c main_v36 = Cert.MoeSpec.mappedOut (A0 m c) (A1 m c) (A2 m c) (A4 m c) (A5 m c) (A6 m c) := by
  have hW : (Pipeline.withArrays spec0 c (V0 m c) (fun w => (dats m 0 c).arrAt w cfg0.N) (Proc.devRef .tc main_v35_0) : S4x25600x512.Idx → EReal)
      = Cert.MoeSpec.mappedFlat (A0 m c) (A1 m c) (A2 m c) (A4 m c) (A5 m c) (A6 m c) :=
    (Pipeline.withArrays_arr spec0 launch0.win.arr_inj c _ _ 8).trans (Flush.final_mapped m c)
  unfold Pipeline.afterTail₀
  show StableHlo.after hostOps1 _ (Proc.devRef .tc main_v36) = _
  after_results
  refine funext fun (y : S4x128x200x512.Idx) => ?_
  obtain ⟨i, b, l, e, rfl⟩ : ∃ (i : Fin 4) (b : Fin 128) (l : Fin 200) (e : Fin 512), y = ix4 i b l e := ⟨y 0, y 1, y 2, y 3, eq_ix4 y⟩
  have hb := b.isLt
  have hl := l.isLt
  show shapeCast S4x128x200x512 (Pipeline.withArrays spec0 c (V0 m c) (fun w => (dats m 0 c).arrAt w cfg0.N) (Proc.devRef .tc main_v35_0))
      shapeCasts_S4x25600x512_S4x128x200x512 (ix4 i b l e) = _
  rw [hW]
  refine (shapeCast_apply _ _ (ix4 i b l e) (ix3 i (⟨b.val * 200 + l.val, by omega⟩ : Fin 25600) e) (by
    rw [Shape.rowMajor_val_three, Shape.rowMajor_val_four]
    show (i.val * 25600 + (b.val * 200 + l.val)) * 512 + e.val = ((i.val * 128 + b.val) * 200 + l.val) * 512 + e.val
    omega)).trans ?_
  exact mappedFlat_at _ _ _ _ _ _ i b l e _ rfl

set_option maxHeartbeats 2000000 in
theorem tail_pos : Pipeline.afterTail₀ cfgs (dats m) 0 (V0 m) [hostOps1] c main_v37 = Cert.MoeSpec.logitOut (A0 m c) (A1 m c) (A2 m c) (A3 m c) (A4 m c) (A5 m c) (A6 m c) (A7 m c) := by
  have hW : (Pipeline.withArrays spec0 c (V0 m c) (fun w => (dats m 0 c).arrAt w cfg0.N) (Proc.devRef .tc main_v35_1) : S4x25600.Idx → EReal)
      = Cert.MoeSpec.logitFlat (A0 m c) (A1 m c) (A2 m c) (A3 m c) (A4 m c) (A5 m c) (A6 m c) (A7 m c) :=
    (Pipeline.withArrays_arr spec0 launch0.win.arr_inj c _ _ 9).trans (Flush.final_pos m c)
  unfold Pipeline.afterTail₀
  show StableHlo.after hostOps1 _ (Proc.devRef .tc main_v37) = _
  after_results
  refine funext fun (y : S4x128x200.Idx) => ?_
  obtain ⟨i, b, l, rfl⟩ : ∃ (i : Fin 4) (b : Fin 128) (l : Fin 200), y = ix3 i b l := ⟨y 0, y 1, y 2, eq_ix3 y⟩
  have hb := b.isLt
  have hl := l.isLt
  show shapeCast S4x128x200 (Pipeline.withArrays spec0 c (V0 m c) (fun w => (dats m 0 c).arrAt w cfg0.N) (Proc.devRef .tc main_v35_1))
      shapeCasts_S4x25600_S4x128x200 (ix3 i b l) = _
  rw [hW]
  refine (shapeCast_apply _ _ (ix3 i b l) (ix2 i (⟨b.val * 200 + l.val, by omega⟩ : Fin 25600)) (by
    rw [Shape.rowMajor_val_two, Shape.rowMajor_val_three]
    show i.val * 25600 + (b.val * 200 + l.val) = (i.val * 128 + b.val) * 200 + l.val
    omega)).trans ?_
  exact logitFlat_at _ _ _ _ _ _ _ _ i b l _ rfl

set_option maxHeartbeats 2000000 in
theorem tail_neg : Pipeline.afterTail₀ cfgs (dats m) 0 (V0 m) [hostOps1] c main_v38 = Cert.MoeSpec.logitOut (A0 m c) (A1 m c) (A2 m c) (A3 m c) (A4 m c) (A5 m c) (A6 m c) (A8 m c) := by
  have hW : (Pipeline.withArrays spec0 c (V0 m c) (fun w => (dats m 0 c).arrAt w cfg0.N) (Proc.devRef .tc main_v35_2) : S4x25600.Idx → EReal)
      = Cert.MoeSpec.logitFlat (A0 m c) (A1 m c) (A2 m c) (A3 m c) (A4 m c) (A5 m c) (A6 m c) (A8 m c) :=
    (Pipeline.withArrays_arr spec0 launch0.win.arr_inj c _ _ 10).trans (Flush.final_neg m c)
  unfold Pipeline.afterTail₀
  show StableHlo.after hostOps1 _ (Proc.devRef .tc main_v38) = _
  after_results
  refine funext fun (y : S4x128x200.Idx) => ?_
  obtain ⟨i, b, l, rfl⟩ : ∃ (i : Fin 4) (b : Fin 128) (l : Fin 200), y = ix3 i b l := ⟨y 0, y 1, y 2, eq_ix3 y⟩
  have hb := b.isLt
  have hl := l.isLt
  show shapeCast S4x128x200 (Pipeline.withArrays spec0 c (V0 m c) (fun w => (dats m 0 c).arrAt w cfg0.N) (Proc.devRef .tc main_v35_2))
      shapeCasts_S4x25600_S4x128x200 (ix3 i b l) = _
  rw [hW]
  refine (shapeCast_apply _ _ (ix3 i b l) (ix2 i (⟨b.val * 200 + l.val, by omega⟩ : Fin 25600)) (by
    rw [Shape.rowMajor_val_two, Shape.rowMajor_val_three]
    show i.val * 25600 + (b.val * 200 + l.val) = (i.val * 128 + b.val) * 200 + l.val
    omega)).trans ?_
  exact logitFlat_at _ _ _ _ _ _ _ _ i b l _ rfl

/-! ## The run -/

/-- Every weakly fair execution of the pipelined program terminates with its three results at the specification's
    functions of the arguments, and the arguments unchanged. -/
theorem run : θ_run defs (onTc (τ := τ) (main (F := Ideal))) ⟨m, fun _ => 0, ρ⟩ (fun r => ∀ c : Dev nD,
      r.2.mem ((c.tc : Thread nD τ).loc main_v36) = Cert.MoeSpec.mappedOut (A0 m c) (A1 m c) (A2 m c) (A4 m c) (A5 m c) (A6 m c)
      ∧ r.2.mem ((c.tc : Thread nD τ).loc main_v37) = Cert.MoeSpec.logitOut (A0 m c) (A1 m c) (A2 m c) (A3 m c) (A4 m c) (A5 m c) (A6 m c) (A7 m c)
      ∧ r.2.mem ((c.tc : Thread nD τ).loc main_v38) = Cert.MoeSpec.logitOut (A0 m c) (A1 m c) (A2 m c) (A3 m c) (A4 m c) (A5 m c) (A6 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_v36 (Pipeline.mem_restRefs_of main_v36 (by decide) (by decide))).trans (tail_mapped m c),
      ((h c).2 main_v37 (Pipeline.mem_restRefs_of main_v37 (by decide) (by decide))).trans (tail_pos m c),
      ((h c).2 main_v38 (Pipeline.mem_restRefs_of main_v38 (by decide) (by decide))).trans (tail_neg m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 5).trans (((dats m 0 c).arrAt_in 5 rfl _).trans ((A_eq m c 5).trans (V_main_arg2 m c))),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Whole

end
-- ==== Proof.Literals.lean ====
/-
  The float literals of the layer normalisation, as the extended reals their patterns denote: the row length 512.0 is
  the real 512, and the variance offset 9.99999993e-9 is a positive real.
-/
import Idealize.ShloMosaic.PureOps.Ideal

noncomputable section

namespace Cert.MoeLiterals

open Idealize.ShloMosaic

/-- The pattern of 512.0 denotes the real 512. -/
theorem ofBits_512 : Ideal.ofBits .f32 0x44000000#32 = ((512 : ℝ) : EReal) := by
  simp [Ideal.ofBits, Ideal.ieee, -EReal.coe_mul]; norm_num

/-- The pattern of the variance offset denotes a positive number. -/
theorem ofBits_eps_pos : (0 : EReal) < Ideal.ofBits .f32 0x322BCC77#32 := by
  simp [Ideal.ofBits, Ideal.ieee, -EReal.coe_mul]

end Cert.MoeLiterals

end
-- ==== Proof.RefValue.lean ====
/-
  The reference's three results as functions of the argument arrays, index by index, on the extended reals: the first
  is the mapped row of token (i, b, l) at e; the other two are the token's logits against the table rows the two index
  arrays select.

  The reference mixes the experts by a sum over j of projection × gate from a zero initial value, divides the centred
  row by the square root of (spread + ε), and sums each logit from a zero initial value. The product's factors
  commute, the zero initial values drop, and the quotient by the square root is the product with the reciprocal square
  root because spread + ε is positive: the spread is a sum of squares over 512, and ε is a positive number.
-/
import proofs.«142547_j72447508349152_1_alg».proof.Proof.Gen.ReferenceIdeal.Read
import proofs.«142547_j72447508349152_1_alg».proof.Proof.Spec
import proofs.«142547_j72447508349152_1_alg».proof.Proof.Literals

noncomputable section

open scoped BigOperators

namespace Cert.ReferenceIdeal.RefValue

open Idealize.ShloMosaic Idealize.ShloMosaic.ValueIdx
open Cert.ReferenceIdeal Cert.ReferenceIdeal.Gen Cert.ReferenceIdeal.Read

/-- Two indices of a literal shape are equal when their coordinates are, one axis at a time. -/
macro "ix_eq1" : tactic => `(tactic| (funext a; apply Fin.ext; match a with | ⟨0, _⟩ => rfl))
macro "ix_eq2" : tactic => `(tactic| (funext a; apply Fin.ext; match a with | ⟨0, _⟩ => rfl | ⟨1, _⟩ => rfl))
macro "ix_eq3" : tactic => `(tactic| (funext a; apply Fin.ext; match a with | ⟨0, _⟩ => rfl | ⟨1, _⟩ => rfl | ⟨2, _⟩ => rfl))
macro "ix_eq4" : tactic => `(tactic| (funext a; apply Fin.ext; match a with | ⟨0, _⟩ => rfl | ⟨1, _⟩ => rfl | ⟨2, _⟩ => rfl | ⟨3, _⟩ => rfl))
macro "ix_eq5" : tactic => `(tactic| (funext a; apply Fin.ext; match a with | ⟨0, _⟩ => rfl | ⟨1, _⟩ => rfl | ⟨2, _⟩ => rfl | ⟨3, _⟩ => rfl | ⟨4, _⟩ => rfl))

/-- A row lookup in the [100002, 512] table with [128, 4, 200, 1] start indices: the gathered array holds, at
    (b, i, l, e), the table's entry (row, e), the row being the start index at (b, i, l, 0) read signed and clamped. -/
theorem gather_row_ref {α : Type} (x : S100002x512.Idx → α) (idx : IVec S128x4x200x1 32) (b : Fin 128) (i : Fin 4) (l : Fin 200) (e : Fin 512) :
    Host.gather gather_S100002x512_S128x4x200x1_S128x4x200x512_3_0_n_n_0_3_1512 x idx (ix4 b i l e)
      = x (ix2 (⟨min (idx (ix4 b i l (0 : Fin 1))).toInt.toNat (100002 - 1), by omega⟩ : Fin 100002) e) := by
  unfold Host.gather
  congr 1
  funext a
  refine Fin.ext ?_
  match a with
  | ⟨0, _⟩ =>
    show gather_S100002x512_S128x4x200x1_S128x4x200x512_3_0_n_n_0_3_1512.start (ix4 b i l e) idx 0 + gather_S100002x512_S128x4x200x1_S128x4x200x512_3_0_n_n_0_3_1512.batchCoord (ix4 b i l e) 0 + gather_S100002x512_S128x4x200x1_S128x4x200x512_3_0_n_n_0_3_1512.offCoord (ix4 b i l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100002x512_S128x4x200x1_S128x4x200x512_3_0_n_n_0_3_1512.startIndexMap from List.mem_singleton.mpr rfl)]
    have hsi : gather_S100002x512_S128x4x200x1_S128x4x200x512_3_0_n_n_0_3_1512.siIdx (ix4 b i l e) ⟨List.idxOf (0 : Fin 2) gather_S100002x512_S128x4x200x1_S128x4x200x512_3_0_n_n_0_3_1512.startIndexMap,
        List.idxOf_lt_length_iff.2 (List.mem_singleton.mpr rfl)⟩ = ix4 b i l (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S100002x512_S128x4x200x1_S128x4x200x512_3_0_n_n_0_3_1512.start (ix4 b i l e) idx 1 + gather_S100002x512_S128x4x200x1_S128x4x200x512_3_0_n_n_0_3_1512.batchCoord (ix4 b i l e) 1 + gather_S100002x512_S128x4x200x1_S128x4x200x512_3_0_n_n_0_3_1512.offCoord (ix4 b i l e) 1 = e.val
    rw [GatherDims.batchCoord_eq_zero _ _ _ List.not_mem_nil]
    unfold GatherDims.start GatherDims.offCoord
    rw [dif_neg (show ¬ (1 : Fin 2) ∈ gather_S100002x512_S128x4x200x1_S128x4x200x512_3_0_n_n_0_3_1512.startIndexMap by decide), dif_pos (show (1 : Fin 2) ∈ gather_S100002x512_S128x4x200x1_S128x4x200x512_3_0_n_n_0_3_1512.sKept by decide)]
    simp only [Nat.zero_add, Nat.add_zero]
    rfl

variable (x0 : (⟨S4x128x200x512, .f32⟩ : BufTy).Contents (Elt Ideal)) (x1 : (⟨S4x512x512, .f32⟩ : BufTy).Contents (Elt Ideal)) (x2 : (⟨S4x512, .f32⟩ : BufTy).Contents (Elt Ideal)) (x6 : (⟨S128x4x200, .i32⟩ : BufTy).Contents (Elt Ideal))

/-! ## The gated mix -/

/-- Expert j's projection of token (i, b, l), at output e. -/
theorem proj_ref (i j : Fin 4) (b : Fin 128) (l : Fin 200) (e : Fin 512) :
    val_main_v4 (F := Ideal) x0 x1 x2 (ix5 i j b l e) = (∑ k : Fin 512, x1 (ix3 j e k) * x0 (ix4 i b l k)) + x2 (ix2 j e) := by
  rw [val_main_v4_apply, val_main_v1_apply, val_main_v0_apply, val_main_v3_apply, val_main_v2_apply]
  show (∑ k : Fin 512, x1 _ * x0 _) + x2 _ = _
  refine congrArg₂ (· + ·) (Finset.sum_congr rfl fun k _ => congrArg₂ (· * ·) (congrArg x1 ?_) (congrArg x0 ?_)) (congrArg x2 ?_)
  · ix_eq3
  · ix_eq4
  · ix_eq2

/-- The gate of expert j for token (i, b, l). -/
theorem gate_ref (i j : Fin 4) (b : Fin 128) (l : Fin 200) (e : Fin 512) :
    val_main_v16 (F := Ideal) x6 (ix5 i j b l e) = Cert.MoeSpec.gateOf (x6 (ix3 b i l)) j := by
  rw [val_main_v16_apply, val_main_v15_apply, val_main_v14_apply, val_main_v13_apply, val_main_v11_apply, val_main_v6_apply,
    val_main_v5_apply, val_main_v12_apply, val_main_v10_apply, val_main_v9_apply, val_main_v7_apply, val_main_v8_apply, val_main_c_apply]
  unfold Cert.MoeSpec.gateOf
  refine congrArg₂ (fun (u v : BitVec 32) => FloatOps.uitofp (F := Ideal) .f32 (IntOp.cmpi .eq u v)) (congrArg x6 ?_) rfl
  ix_eq3

/-- The gated mix of token (i, b, l), at output e. -/
theorem routed_ref (i : Fin 4) (b : Fin 128) (l : Fin 200) (e : Fin 512) :
    val_main_v18 (F := Ideal) x0 x1 x2 x6 (ix4 i b l e)
      = Cert.MoeRow.routed (fun k => x0 (ix4 i b l k)) (fun j k e => x1 (ix3 j e k)) (fun j e => x2 (ix2 j e))
          (fun j => Cert.MoeSpec.gateOf (x6 (ix3 b i l)) j) e := by
  rw [val_main_v18_apply]
  unfold Cert.MoeRow.routed Cert.MoeRow.proj
  rw [show val_main_cst (F := Ideal) (Shape.Idx.first h_S_) = (0 : EReal) from Ideal.ofBits_zero_f32, zero_add]
  refine Finset.sum_congr rfl fun j _ => ?_
  have hi : idx_main_v18 (ix4 i b l e) j = ix5 i j b l e := by ix_eq5
  rw [hi, val_main_v17_apply, proj_ref, gate_ref]
  show ((∑ k : Fin 512, x1 (ix3 j e k) * x0 (ix4 i b l k)) + x2 (ix2 j e)) * Cert.MoeSpec.gateOf (x6 (ix3 b i l)) j = _
  rw [mul_comm, Finset.sum_congr rfl (fun k _ => mul_comm (x1 (ix3 j e k)) (x0 (ix4 i b l k)))]

/-! ## The layer normalisation -/

/-- The mixed row of token (i, b, l). -/
abbrev mixed (i : Fin 4) (b : Fin 128) (l : Fin 200) : Fin 512 → EReal := fun e => val_main_v18 (F := Ideal) x0 x1 x2 x6 (ix4 i b l e)

/-- The row's mean. -/
theorem mean_ref (i : Fin 4) (b : Fin 128) (l : Fin 200) (u : Fin 1) :
    val_main_v22 (F := Ideal) x0 x1 x2 x6 (ix4 i b l u) = Ideal.div (∑ e : Fin 512, mixed x0 x1 x2 x6 i b l e) Cert.MoeSpec.C512 := by
  rw [val_main_v22_apply, val_main_v20_apply, val_main_v19_apply, val_main_v21_apply, val_main_cst_1_apply]
  rw [show val_main_cst_0 (F := Ideal) (Shape.Idx.first h_S_) = (0 : EReal) from Ideal.ofBits_zero_f32, zero_add]
  show Ideal.div (∑ k : Fin 512, val_main_v18 (F := Ideal) x0 x1 x2 x6 _) _ = _
  refine congrArg (fun s => Ideal.div s Cert.MoeSpec.C512) (Finset.sum_congr rfl fun k _ => congrArg (val_main_v18 (F := Ideal) x0 x1 x2 x6) ?_)
  ix_eq4

/-- The centred row (both copies the program computes). -/
theorem dev_ref (i : Fin 4) (b : Fin 128) (l : Fin 200) (e : Fin 512) :
    val_main_v24 (F := Ideal) x0 x1 x2 x6 (ix4 i b l e) = Cert.MoeRow.centre Cert.MoeSpec.C512 (mixed x0 x1 x2 x6 i b l) e := by
  rw [val_main_v24_apply, val_main_v23_apply]
  have hi : idx_main_v23 (ix4 i b l e) = ix4 i b l (0 : Fin 1) := by ix_eq4
  rw [hi, mean_ref]
  rfl
theorem dev_ref' (i : Fin 4) (b : Fin 128) (l : Fin 200) (e : Fin 512) :
    val_main_v31 (F := Ideal) x0 x1 x2 x6 (ix4 i b l e) = Cert.MoeRow.centre Cert.MoeSpec.C512 (mixed x0 x1 x2 x6 i b l) e := by
  rw [val_main_v31_apply, val_main_v30_apply]
  have hi : idx_main_v30 (ix4 i b l e) = ix4 i b l (0 : Fin 1) := by ix_eq4
  rw [hi, mean_ref]
  rfl

/-- The centred row's mean square. -/
theorem var_ref (i : Fin 4) (b : Fin 128) (l : Fin 200) (u : Fin 1) :
    val_main_v29 (F := Ideal) x0 x1 x2 x6 (ix4 i b l u)
      = Cert.MoeRow.spread Cert.MoeSpec.C512 (Cert.MoeRow.centre Cert.MoeSpec.C512 (mixed x0 x1 x2 x6 i b l)) := by
  rw [val_main_v29_apply, val_main_v27_apply, val_main_v26_apply, val_main_v28_apply, val_main_cst_3_apply]
  rw [show val_main_cst_2 (F := Ideal) (Shape.Idx.first h_S_) = (0 : EReal) from Ideal.ofBits_zero_f32, zero_add]
  unfold Cert.MoeRow.spread
  show Ideal.div (∑ k : Fin 512, val_main_v25 (F := Ideal) x0 x1 x2 x6 _) _ = _
  refine congrArg (fun s => Ideal.div s Cert.MoeSpec.C512) (Finset.sum_congr rfl fun k _ => ?_)
  have hi : idx_main_v26 (idx_main_v27 (ix4 i b l u)) k = ix4 i b l k := by ix_eq4
  rw [hi, val_main_v25_apply, dev_ref]
  rfl

variable (x4 x5 : (⟨S512, .f32⟩ : BufTy).Contents (Elt Ideal))

/-- The spread is never negative. -/
theorem spread_nonneg' (D : Fin 512 → EReal) : 0 ≤ Cert.MoeRow.spread Cert.MoeSpec.C512 D := by
  unfold Cert.MoeRow.spread
  rw [show Cert.MoeSpec.C512 = ((512 : ℝ) : EReal) from Cert.MoeLiterals.ofBits_512]
  exact Cert.MoeRow.spread_nonneg D

/-- The first result at (i, b, l, e): the mapped row of token (i, b, l). -/
theorem mapped_ref (i : Fin 4) (b : Fin 128) (l : Fin 200) (e : Fin 512) :
    val_main_v42 (F := Ideal) x0 x1 x2 x4 x5 x6 (ix4 i b l e) = Cert.MoeSpec.tokenRow x0 x1 x2 x4 x5 x6 i b l e := by
  rw [val_main_v42_apply, val_main_v39_apply, val_main_v36_apply, dev_ref', val_main_v35_apply, val_main_v34_apply, val_main_v33_apply,
    val_main_v32_apply, val_main_cst_4_apply, val_main_v38_apply, val_main_v37_apply, val_main_v41_apply, val_main_v40_apply]
  have h35 : idx_main_v35 (ix4 i b l e) = ix4 i b l (0 : Fin 1) := by ix_eq4
  have h38 : idx_main_v37 (idx_main_v38 (ix4 i b l e)) = ix1 e := by ix_eq1
  have h41 : idx_main_v40 (idx_main_v41 (ix4 i b l e)) = ix1 e := by ix_eq1
  rw [h35, var_ref, h38, h41]
  have hR : mixed x0 x1 x2 x6 i b l = Cert.MoeRow.routed (fun k => x0 (ix4 i b l k)) (fun j k e => x1 (ix3 j e k)) (fun j e => x2 (ix2 j e))
      (fun j => Cert.MoeSpec.gateOf (x6 (ix3 b i l)) j) := funext fun e' => routed_ref x0 x1 x2 x6 i b l e'
  unfold Cert.MoeSpec.tokenRow Cert.MoeRow.mapped
  rw [← hR]
  exact Cert.MoeRow.norm_eq_quot (fun e => x4 (ix1 e)) (fun e => x5 (ix1 e)) Cert.MoeSpec.EPS _ _ (spread_nonneg' _)
    Cert.MoeLiterals.ofBits_eps_pos e

/-- The first result is the mapped rows. -/
theorem mapped_eq : val_main_v42 (F := Ideal) x0 x1 x2 x4 x5 x6 = Cert.MoeSpec.mappedOut x0 x1 x2 x4 x5 x6 := by
  funext y
  obtain ⟨i, b, l, e, rfl⟩ : ∃ (i : Fin 4) (b : Fin 128) (l : Fin 200) (e : Fin 512), y = ix4 i b l e := ⟨y 0, y 1, y 2, y 3, eq_ix4 y⟩
  exact mapped_ref x0 x1 x2 x6 x4 x5 i b l e

/-! ## The logits -/

variable (x3 : (⟨S100002x512, .f32⟩ : BufTy).Contents (Elt Ideal)) (x7 x8 : (⟨S128x4x200, .i32⟩ : BufTy).Contents (Elt Ideal))

/-- The table index of token (i, b, l) as the lookup reads it. -/
theorem pos_index (i : Fin 4) (b : Fin 128) (l : Fin 200) (u : Fin 1) :
    val_main_v48 (F := Ideal) x7 (ix4 b i l u) = Cert.MoeSpec.wrapIdx (x7 (ix3 b i l)) := by
  rw [val_main_v48_apply, val_main_v47_apply, val_main_v44_apply, val_main_v43_apply, val_main_c_5_apply,
    val_main_v46_apply, val_main_v45_apply, val_main_c_6_apply]
  unfold Cert.MoeSpec.wrapIdx
  have hi : idx_main_v48 (ix4 b i l u) = ix3 b i l := by ix_eq3
  rw [hi]

/-- The second result at (i, b, l): the token's logit against the row the first index array selects. -/
theorem pos_ref (i : Fin 4) (b : Fin 128) (l : Fin 200) :
    val_main_v60 (F := Ideal) x0 x1 x2 x3 x4 x5 x6 x7 (ix3 i b l) = Cert.MoeSpec.tokenLogit x0 x1 x2 x3 x4 x5 x6 x7 i b l := by
  rw [val_main_v60_apply]
  unfold Cert.MoeSpec.tokenLogit
  rw [show val_main_cst_9 (F := Ideal) (Shape.Idx.first h_S_) = (0 : EReal) from Ideal.ofBits_zero_f32, zero_add]
  refine Finset.sum_congr rfl fun e _ => ?_
  have hi : idx_main_v60 (ix3 i b l) e = ix4 i b l e := by ix_eq4
  rw [hi, val_main_v59_apply, mapped_ref, val_main_v50_apply]
  have hj : idx_main_v50 (ix4 i b l e) = ix4 b i l e := by ix_eq4
  rw [hj]
  refine congrArg (fun z : EReal => Cert.MoeSpec.tokenRow x0 x1 x2 x4 x5 x6 i b l e * z) ?_
  unfold val_main_v49
  refine (gather_row_ref x3 _ b i l e).trans ?_
  unfold Cert.MoeSpec.embRow
  exact congrArg (fun (z : BitVec 32) => x3 (ix2 (⟨min z.toInt.toNat (100002 - 1), by omega⟩ : Fin 100002) e)) (pos_index x7 i b l 0)

/-- The table index of token (i, b, l) as the lookup reads it. -/
theorem neg_index (i : Fin 4) (b : Fin 128) (l : Fin 200) (u : Fin 1) :
    val_main_v56 (F := Ideal) x8 (ix4 b i l u) = Cert.MoeSpec.wrapIdx (x8 (ix3 b i l)) := by
  rw [val_main_v56_apply, val_main_v55_apply, val_main_v52_apply, val_main_v51_apply, val_main_c_7_apply,
    val_main_v54_apply, val_main_v53_apply, val_main_c_8_apply]
  unfold Cert.MoeSpec.wrapIdx
  have hi : idx_main_v56 (ix4 b i l u) = ix3 b i l := by ix_eq3
  rw [hi]

/-- The third result at (i, b, l): the token's logit against the row the second index array selects. -/
theorem neg_ref (i : Fin 4) (b : Fin 128) (l : Fin 200) :
    val_main_v62 (F := Ideal) x0 x1 x2 x3 x4 x5 x6 x8 (ix3 i b l) = Cert.MoeSpec.tokenLogit x0 x1 x2 x3 x4 x5 x6 x8 i b l := by
  rw [val_main_v62_apply]
  unfold Cert.MoeSpec.tokenLogit
  rw [show val_main_cst_10 (F := Ideal) (Shape.Idx.first h_S_) = (0 : EReal) from Ideal.ofBits_zero_f32, zero_add]
  refine Finset.sum_congr rfl fun e _ => ?_
  have hi : idx_main_v62 (ix3 i b l) e = ix4 i b l e := by ix_eq4
  rw [hi, val_main_v61_apply, mapped_ref, val_main_v58_apply]
  have hj : idx_main_v58 (ix4 i b l e) = ix4 b i l e := by ix_eq4
  rw [hj]
  refine congrArg (fun z : EReal => Cert.MoeSpec.tokenRow x0 x1 x2 x4 x5 x6 i b l e * z) ?_
  unfold val_main_v57
  refine (gather_row_ref x3 _ b i l e).trans ?_
  unfold Cert.MoeSpec.embRow
  exact congrArg (fun (z : BitVec 32) => x3 (ix2 (⟨min z.toInt.toNat (100002 - 1), by omega⟩ : Fin 100002) e)) (neg_index x8 i b l 0)

/-- The second result is the first logit array. -/
theorem pos_eq : val_main_v60 (F := Ideal) x0 x1 x2 x3 x4 x5 x6 x7 = Cert.MoeSpec.logitOut x0 x1 x2 x3 x4 x5 x6 x7 := by
  funext y
  obtain ⟨i, b, l, rfl⟩ : ∃ (i : Fin 4) (b : Fin 128) (l : Fin 200), y = ix3 i b l := ⟨y 0, y 1, y 2, eq_ix3 y⟩
  exact pos_ref x0 x1 x2 x6 x4 x5 x3 x7 i b l

/-- The third result is the second logit array. -/
theorem neg_eq : val_main_v62 (F := Ideal) x0 x1 x2 x3 x4 x5 x6 x8 = Cert.MoeSpec.logitOut x0 x1 x2 x3 x4 x5 x6 x8 := by
  funext y
  obtain ⟨i, b, l, rfl⟩ : ∃ (i : Fin 4) (b : Fin 128) (l : Fin 200), y = ix3 i b l := ⟨y 0, y 1, y 2, eq_ix3 y⟩
  exact neg_ref x0 x1 x2 x6 x4 x5 x3 x8 i b l

end Cert.ReferenceIdeal.RefValue

end
-- ==== Proof.lean ====
/-
  The pipelined mixture-of-experts routing kernel against its dense reference, at the extended reals.

  Both programs compute, for every token (domain i, sequence b, position l), the gated mix over four experts of the
  token's projected feature row, its layer normalisation, and two logits against gathered embedding rows. The
  pipelined program works on the flat token axis n = 200 · b + l in a hundred blocks of 256 tokens, accumulates the
  experts one after the other, and normalises by the product with a reciprocal square root; the reference sums over the
  experts, and divides by a square root. The two agree because sums and products commute, a zero initial value drops,
  and the quotient by √(v + ε) is the product with (v + ε)^(-1/2) whenever v + ε is positive — which it always is, since v
  is a mean of squares and ε a positive constant. No entry has to be finite, so the precondition is never opened.

  The three frames are the generated ones (the reference's is its generated run with the results dropped); the
  idealization rewrote nothing, so the preservation claim is trivial; the value claim joins the pipelined program's run
  and the reference's run at one specification of the three results.
-/
import proofs.«142547_j72447508349152_1_alg».proof.Defs
import proofs.«142547_j72447508349152_1_alg».proof.Proof.Gen.Kernel
import proofs.«142547_j72447508349152_1_alg».proof.Proof.Gen.Kernel.Skeleton
import proofs.«142547_j72447508349152_1_alg».proof.Proof.Gen.Kernel.Launch
import proofs.«142547_j72447508349152_1_alg».proof.Proof.Gen.Kernel.Points
import proofs.«142547_j72447508349152_1_alg».proof.Proof.Gen.Kernel.Frame
import proofs.«142547_j72447508349152_1_alg».proof.Proof.Gen.KernelIdeal
import proofs.«142547_j72447508349152_1_alg».proof.Proof.Gen.KernelIdeal.Skeleton
import proofs.«142547_j72447508349152_1_alg».proof.Proof.Gen.KernelIdeal.Launch
import proofs.«142547_j72447508349152_1_alg».proof.Proof.Gen.KernelIdeal.Points
import proofs.«142547_j72447508349152_1_alg».proof.Proof.Gen.KernelIdeal.Frame
import proofs.«142547_j72447508349152_1_alg».proof.Proof.Gen.ReferenceIdeal
import proofs.«142547_j72447508349152_1_alg».proof.Proof.Gen.Pre_finite_inputs
import proofs.«142547_j72447508349152_1_alg».proof.Proof.Gen.ReferenceIdeal.Run
import proofs.«142547_j72447508349152_1_alg».proof.Proof.Gen.ReferenceIdeal.Read
import proofs.«142547_j72447508349152_1_alg».proof.Proof.Whole
import proofs.«142547_j72447508349152_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the nine arguments, the pipelined program and the reference both run, and end with the
    same three results: the specification's mapped rows and its two logit arrays of the shared arguments. -/
theorem algebraic : Cert.algebraic_KernelIdeal_ReferenceIdeal := by
  intro m ρ m' ρ' _ hagree
  refine ⟨fun c => Cert.MoeSpec.mappedOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.MoeSpec.logitOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.MoeSpec.logitOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v42_eq, Cert.ReferenceIdeal.RefValue.mapped_eq,
      (hagree c).1, (hagree c).2.1, (hagree c).2.2.1, (hagree c).2.2.2.2.1, (hagree c).2.2.2.2.2.1, (hagree c).2.2.2.2.2.2.1]
  · rw [(h c).2.1, Cert.ReferenceIdeal.Read.val_main_v60_eq, Cert.ReferenceIdeal.RefValue.pos_eq,
      (hagree c).1, (hagree c).2.1, (hagree c).2.2.1, (hagree c).2.2.2.1, (hagree c).2.2.2.2.1, (hagree c).2.2.2.2.2.1, (hagree c).2.2.2.2.2.2.1,
      (hagree c).2.2.2.2.2.2.2.1]
  · rw [(h c).2.2.1, Cert.ReferenceIdeal.Read.val_main_v62_eq, Cert.ReferenceIdeal.RefValue.neg_eq,
      (hagree c).1, (hagree c).2.1, (hagree c).2.2.1, (hagree c).2.2.2.1, (hagree c).2.2.2.2.1, (hagree c).2.2.2.2.2.1, (hagree c).2.2.2.2.2.2.1,
      (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
